-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1280 : Shape := ⟨2, ![1024, 1280]⟩
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1280x128 : Shape := ⟨2, ![1280, 128]⟩
abbrev S_ : Shape := ⟨0, ![]⟩

class Facts : Prop where
  bcast_S_S1024x1280 : S_.BroadcastsInDim S1024x1280 (![] : Fin 0 → Fin S1024x1280.rank)
  reducesTo_S1024x1280_S_d0_1 : S1024x1280.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1280x128 : S_.BroadcastsInDim S1280x128 (![] : Fin 0 → Fin S1280x128.rank)
  reducesTo_S1280x128_S_d0_1 : S1280x128.ReducesTo [0, 1] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S1280x128 .f32) (main_arg12 : FVec F S128 .f32) (main_arg13 : FVec F S128x128 .f32) (main_arg14 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S1280x128 .f32 := Host.absf main_arg11
  let main_cst_20 : FVec F S_ .f32 := constant S_ .f32 0x7F800000#32
  let main_v55 : FVec F S1280x128 .f32 := broadcastInDim S1280x128 ![] bcast_S_S1280x128 main_cst_20
  let main_v56 : IVec S1280x128 1 := cmpf .olt main_v54 main_v55
  let main_c_21 : IVec S_ 1 := constantI S_ 1 1#1
  let main_v57 : IVec S_ 1 := (fun x v => Host.reduce IntOp.andi x v reducesTo_S1280x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x64 .f32) (main_arg10 : FVec F S64 .f32) (main_arg11 : FVec F S1280x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) (main_arg11 : FVec F S1280x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1024x1280 .f32) (main_arg1 : FVec F S10000x128 .f32) (main_arg2 : FVec F S10000x10000 .f32) (main_arg3 : FVec F S128x128 .f32) (main_arg4 : FVec F S128 .f32) (main_arg5 : FVec F S128x64 .f32) (main_arg6 : FVec F S64 .f32) (main_arg7 : FVec F S128x128 .f32) (main_arg8 : FVec F S128 .f32) (main_arg9 : FVec F S128x64 .f32) (main_arg10 : FVec F S64 .f32) (main_arg11 : FVec F S1280x128 .f32) (main_arg12 : FVec F S128 .f32) (main_arg13 : FVec F S128x128 .f32) (main_arg14 : FVec F S128 .f32) : IVec S_ 1 :=
  let main_v0 : FVec F S1024x1280 .f32 := Host.absf main_arg0
  let main_cst : FVec F S_ .f32 := constant S_ .f32 0x7F800000#32
  let main_v1 : FVec F S1024x1280 .f32 := broadcastInDim S1024x1280 ![] bcast_S_S1024x1280 main_cst
  let main_v2 : IVec S1024x1280 1 := cmpf .olt main_v0 main_v1
  let main_c : IVec S_ 1 := constantI S_ 1 1#1
  let main_v3 : IVec S_ 1 := (fun x v => Host.reduce IntOp.andi x v reducesTo_S1024x1280_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1024x1280 : Shape := ⟨2, ![1024, 1280]⟩
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1280x128 : Shape := ⟨2, ![1280, 128]⟩
abbrev S1x128 : Shape := ⟨2, ![1, 128]⟩
abbrev S1x64 : Shape := ⟨2, ![1, 64]⟩
abbrev S10000x64 : Shape := ⟨2, ![10000, 64]⟩
abbrev S1024x128 : Shape := ⟨2, ![1024, 128]⟩
abbrev S2000x128 : Shape := ⟨2, ![2000, 128]⟩
abbrev S2000x64 : Shape := ⟨2, ![2000, 64]⟩
abbrev S400x10000 : Shape := ⟨2, ![400, 10000]⟩
abbrev S400x64 : Shape := ⟨2, ![400, 64]⟩
abbrev S400x128 : Shape := ⟨2, ![400, 128]⟩
abbrev S1024x10000 : Shape := ⟨2, ![1024, 10000]⟩
abbrev S256x128 : Shape := ⟨2, ![256, 128]⟩
abbrev S256x10000 : Shape := ⟨2, ![256, 10000]⟩
abbrev S256x64 : Shape := ⟨2, ![256, 64]⟩

abbrev nBuf : Space → Nat
  | .hbm => 27
  | .vmem => 36
  | .smem => 0
  | _ => 0

abbrev bufTy : (tb : Table) → Fin (tcTables nBuf tb) → BufTy
  | .hbm, ⟨0, _⟩ => ⟨S1024x1280, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1280x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x128, .f32⟩
  | .hbm, ⟨16, _⟩ => ⟨S1x64, .f32⟩
  | .hbm, ⟨17, _⟩ => ⟨S1x128, .f32⟩
  | .hbm, ⟨18, _⟩ => ⟨S1x64, .f32⟩
  | .hbm, ⟨19, _⟩ => ⟨S1x128, .f32⟩
  | .hbm, ⟨20, _⟩ => ⟨S1x128, .f32⟩
  | .hbm, ⟨21, _⟩ => ⟨S10000x64, .f32⟩
  | .hbm, ⟨22, _⟩ => ⟨S10000x128, .bf16⟩
  | .hbm, ⟨23, _⟩ => ⟨S1024x128, .f32⟩
  | .hbm, ⟨24, _⟩ => ⟨S10000x64, .bf16⟩
  | .hbm, ⟨25, _⟩ => ⟨S10000x64, .f32⟩
  | .hbm, ⟨26, _⟩ => ⟨S1024x10000, .f32⟩
  | .local _ .vmem, ⟨0, _⟩ => ⟨S1024x1280, .f32⟩
  | .local _ .vmem, ⟨1, _⟩ => ⟨S2000x128, .f32⟩
  | .local _ .vmem, ⟨2, _⟩ => ⟨S2000x128, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S128x128, .f32⟩
  | .local _ .vmem, ⟨8, _⟩ => ⟨S1280x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x64, .f32⟩
  | .local _ .vmem, ⟨13, _⟩ => ⟨S2000x64, .f32⟩
  | .local _ .vmem, ⟨14, _⟩ => ⟨S2000x128, .bf16⟩
  | .local _ .vmem, ⟨15, _⟩ => ⟨S2000x128, .bf16⟩
  | .local _ .vmem, ⟨16, _⟩ => ⟨S1024x128, .f32⟩
  | .local _ .vmem, ⟨17, _⟩ => ⟨S400x10000, .f32⟩
  | .local _ .vmem, ⟨18, _⟩ => ⟨S400x10000, .f32⟩
  | .local _ .vmem, ⟨19, _⟩ => ⟨S10000x128, .bf16⟩
  | .local _ .vmem, ⟨20, _⟩ => ⟨S1x128, .f32⟩
  | .local _ .vmem, ⟨21, _⟩ => ⟨S128x64, .f32⟩
  | .local _ .vmem, ⟨22, _⟩ => ⟨S400x64, .bf16⟩
  | .local _ .vmem, ⟨23, _⟩ => ⟨S400x64, .bf16⟩
  | .local _ .vmem, ⟨24, _⟩ => ⟨S400x10000, .f32⟩
  | .local _ .vmem, ⟨25, _⟩ => ⟨S400x10000, .f32⟩
  | .local _ .vmem, ⟨26, _⟩ => ⟨S10000x64, .bf16⟩
  | .local _ .vmem, ⟨27, _⟩ => ⟨S1x64, .f32⟩
  | .local _ .vmem, ⟨28, _⟩ => ⟨S400x64, .f32⟩
  | .local _ .vmem, ⟨29, _⟩ => ⟨S400x64, .f32⟩
  | .local _ .vmem, ⟨30, _⟩ => ⟨S256x128, .f32⟩
  | .local _ .vmem, ⟨31, _⟩ => ⟨S256x128, .f32⟩
  | .local _ .vmem, ⟨32, _⟩ => ⟨S10000x64, .f32⟩
  | .local _ .vmem, ⟨33, _⟩ => ⟨S10000x64, .f32⟩
  | .local _ .vmem, ⟨34, _⟩ => ⟨S256x10000, .f32⟩
  | .local _ .vmem, ⟨35, _⟩ => ⟨S256x10000, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10000x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x10000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S128_S1x128 : S128.ShapeCasts S1x128
  shapeCasts_S64_S1x64 : S64.ShapeCasts S1x64
  inb_S1024x1280_S1024x1280_0_0 : ∀ a, (![0, 0] : Fin 2 → Nat) a + S1024x1280.size a ≤ S1024x1280.size a
  h_S1024x1280 : 0 < S1024x1280.numel
  inb_S1280x128_S1280x128_0_0 : ∀ a, (![0, 0] : Fin 2 → Nat) a + S1280x128.size a ≤ S1280x128.size a
  h_S1280x128 : 0 < S1280x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  inb_S2000x128_S2000x128_0_0 : ∀ a, (![0, 0] : Fin 2 → Nat) a + S2000x128.size a ≤ S2000x128.size a
  h_S2000x128 : 0 < S2000x128.numel
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S400x128 : S1x128.Broadcasts S400x128
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S400x64 : S1x64.Broadcasts S400x64
  inb_S256x128_S256x64_0_0 : ∀ a, (![0, 0] : Fin 2 → Nat) a + S256x64.size a ≤ S256x128.size a
  h_S256x64 : 0 < S256x64.numel
  shapeCasts_S256x64_S256x64 : S256x64.ShapeCasts S256x64
  inb_S256x128_S256x64_0_64 : ∀ a, (![0, 64] : Fin 2 → Nat) a + S256x64.size a ≤ S256x128.size a
  inb_S256x10000_S256x10000_0_0 : ∀ a, (![0, 0] : Fin 2 → Nat) a + S256x10000.size a ≤ S256x10000.size a
  h_S256x10000 : 0 < S256x10000.numel
  dot_S1024x1280_S1280x128_S1024x128_1_0_0_1_n_n_wf : DotDims.WF S1024x1280 S1280x128 S1024x128 [1] [0] [0] [1] [] []
  dot_S1024x128_S128x128_S1024x128_1_0_0_1_n_n_wf : DotDims.WF S1024x128 S128x128 S1024x128 [1] [0] [0] [1] [] []
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S256x64_S10000x64_S256x10000_1_1_0_0_n_n_wf : DotDims.WF S256x64 S10000x64 S256x10000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S1024x1280.size a
  hwx0_0 : ∀ i : grid0.Coords, EltTy.bits .f32 = 32 ∨ (Rect.block (s := S1024x1280) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1280x128.size a ≤ S1280x128.size a
  hwx0_7 : ∀ i : grid0.Coords, EltTy.bits .f32 = 32 ∨ (Rect.block (s := S1280x128) S1280x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S10000x64.size a
  hwx0_11 : ∀ i : grid0.Coords, EltTy.bits .f32 = 32 ∨ (Rect.block (s := S10000x64) S2000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S10000x128.size a
  hwx0_12 : ∀ i : grid0.Coords, EltTy.bits .bf16 = 32 ∨ (Rect.block (s := S10000x128) S2000x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x128.size a ≤ S1024x128.size a
  hwx0_13 : ∀ i : grid0.Coords, EltTy.bits .f32 = 32 ∨ (Rect.block (s := S1024x128) S1024x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .bf16 = 32 ∨ (Rect.block (s := S10000x64) S400x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S1024x128.size a
  hwx3_0 : ∀ i : grid3.Coords, EltTy.bits .f32 = 32 ∨ (Rect.block (s := S1024x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S10000x64.size a
  hwx3_2 : ∀ i : grid3.Coords, EltTy.bits .f32 = 32 ∨ (Rect.block (s := S10000x64) S10000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x10000.size a ≤ S1024x10000.size a
  hwx3_3 : ∀ i : grid3.Coords, EltTy.bits .f32 = 32 ∨ (Rect.block (s := S1024x10000) S256x10000.size (cc3_transform_3 i) (hinb3_3 i)).WholeWords (EltTy.packing .f32)

variable [Facts₀]

def dot_S1024x1280_S1280x128_S1024x128_1_0_0_1_n_n : DotDims S1024x1280 S1280x128 S1024x128 where
  lhsContracting := [1]
  rhsContracting := [0]
  lhsNonContracting := [0]
  rhsNonContracting := [1]
  lhsBatch := []
  rhsBatch := []
  wf := dot_S1024x1280_S1280x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S256x64_S10000x64_S256x10000_1_1_0_0_n_n : DotDims S256x64 S10000x64 S256x10000 where
  lhsContracting := [1]
  rhsContracting := [1]
  lhsNonContracting := [0]
  rhsNonContracting := [0]
  lhsBatch := []
  rhsBatch := []
  wf := dot_S256x64_S10000x64_S256x10000_1_1_0_0_n_n_wf

abbrev win0_0 : Pipeline.Window sig grid0 :=
  Pipeline.Window.ofSpec (Memref.whole main_arg0) S1024x1280.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1280x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S2000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S2000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v6_2) S1024x128.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond1 i == 1#1) | ⟨_ + 14, h⟩ => absurd h (Nat.not_lt.2 (Nat.le_add_left _ _))

abbrev win1_0 : Pipeline.Window sig grid1 :=
  Pipeline.Window.ofSpec (Memref.whole main_arg2) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v6_2) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6_0) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S10000x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S256x10000.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1024x1280 : Shape := ⟨2, ![1024, 1280]⟩
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1280x128 : Shape := ⟨2, ![1280, 128]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S1024x128 : Shape := ⟨2, ![1024, 128]⟩
abbrev S128x10000 : Shape := ⟨2, ![128, 10000]⟩
abbrev S1024x10000 : Shape := ⟨2, ![1024, 10000]⟩

abbrev nBuf : Space → Nat
  | .hbm => 64
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1280x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x64, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S1024x128, .f32⟩
  | .hbm, ⟨43, _⟩ => ⟨S1x128, .f32⟩
  | .hbm, ⟨44, _⟩ => ⟨S1024x128, .f32⟩
  | .hbm, ⟨45, _⟩ => ⟨S1024x128, .f32⟩
  | .hbm, ⟨46, _⟩ => ⟨S_, .f32⟩
  | .hbm, ⟨47, _⟩ => ⟨S1024x128, .f32⟩
  | .hbm, ⟨48, _⟩ => ⟨S1024x128, .f32⟩
  | .hbm, ⟨49, _⟩ => ⟨S1024x128, .f32⟩
  | .hbm, ⟨50, _⟩ => ⟨S1x128, .f32⟩
  | .hbm, ⟨51, _⟩ => ⟨S1024x128, .f32⟩
  | .hbm, ⟨52, _⟩ => ⟨S1024x128, .f32⟩
  | .hbm, ⟨53, _⟩ => ⟨S10000x128, .f32⟩
  | .hbm, ⟨54, _⟩ => ⟨S128x10000, .f32⟩
  | .hbm, ⟨55, _⟩ => ⟨S1024x10000, .f32⟩
  | .hbm, ⟨56, _⟩ => ⟨S1024x10000, .f32⟩
  | .hbm, ⟨57, _⟩ => ⟨S1024x10000, .f32⟩
  | .hbm, ⟨58, _⟩ => ⟨S_, .f32⟩
  | .hbm, ⟨59, _⟩ => ⟨S1024x10000, .f32⟩
  | .hbm, ⟨60, _⟩ => ⟨S1024x10000, .f32⟩
  | .hbm, ⟨61, _⟩ => ⟨S_, .f32⟩
  | .hbm, ⟨62, _⟩ => ⟨S1024x10000, .f32⟩
  | .hbm, ⟨63, _⟩ => ⟨S1024x10000, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_cst : Ref sig .tc := ⟨.hbm, 31, rfl⟩
abbrev main_call1_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call2_cst : Ref sig .tc := ⟨.hbm, 39, rfl⟩
abbrev main_call2_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call3_cst : Ref sig .tc := ⟨.hbm, 46, rfl⟩
abbrev main_call3_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_v36 : Ref sig .tc := ⟨.hbm, 60, rfl⟩
abbrev main_cst_0 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  concatenates_S10000x64_S10000x64_S10000x128_d1 : Shape.Concatenates [S10000x64, S10000x64] S10000x128 1
  transposes_S10000x128_S128x10000_1_0 : S10000x128.Transposes [1, 0] S128x10000
  bcast_S_S1024x10000 : S_.BroadcastsInDim S1024x10000 (![] : Fin 0 → Fin S1024x10000.rank)
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S10000x10000_S10000x128_S10000x128_1_0_0_1_n_n_wf : DotDims.WF S10000x10000 S10000x128 S10000x128 [1] [0] [0] [1] [] []
  dot_S10000x10000_S10000x64_S10000x64_1_0_0_1_n_n_wf : DotDims.WF S10000x10000 S10000x64 S10000x64 [1] [0] [0] [1] [] []
  dot_S1024x1280_S1280x128_S1024x128_1_0_0_1_n_n_wf : DotDims.WF S1024x1280 S1280x128 S1024x128 [1] [0] [0] [1] [] []
  dot_S1024x128_S128x128_S1024x128_1_0_0_1_n_n_wf : DotDims.WF S1024x128 S128x128 S1024x128 [1] [0] [0] [1] [] []
  dot_S1024x128_S128x10000_S1024x10000_1_0_0_1_n_n_wf : DotDims.WF S1024x128 S128x10000 S1024x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S1024x1280_S1280x128_S1024x128_1_0_0_1_n_n : DotDims S1024x1280 S1280x128 S1024x128 where
  lhsContracting := [1]
  rhsContracting := [0]
  lhsNonContracting := [0]
  rhsNonContracting := [1]
  lhsBatch := []
  rhsBatch := []
  wf := dot_S1024x1280_S1280x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x10000_S1024x10000_1_0_0_1_n_n : DotDims S1024x128 S128x10000 S1024x10000 where
  lhsContracting := [1]
  rhsContracting := [0]
  lhsNonContracting := [0]
  rhsNonContracting := [1]
  lhsBatch := []
  rhsBatch := []
  wf := dot_S1024x128_S128x10000_S1024x10000_1_0_0_1_n_n_wf

class Facts : Prop extends Facts₀ where

variable [Facts]
-- ==== Proof.KB.Reg0Body.lean ====
/-
  Region 0 of the program (the first pallas_call, five grid points): what its body leaves in each window's staging
  buffer, point by point, and the body's obligation to the pipeline.

  At every point the body computes, from the point's 2000-row tile of the node embeddings, the two-layer perceptron
  (output window 11) and the first graph-convolution support (output window 12). Only at the FIRST point does it also
  run the sequence encoder and store it into output window 13, whose block index never moves: that buffer is
  written once, carried untouched through the four later points, and written back after the last one. So window 13's
  contents after any point are the encoder's value of the (constant) blocks of windows 0, 7, 8, 9, 10.
-/
import proofs.«100263_g58042188038559_cont_9to1c4b_174_21_alg».proof.Proof.Gen.Kernel.Launch
import proofs.«100263_g58042188038559_cont_9to1c4b_174_21_alg».proof.Proof.Gen.Kernel.Skeleton
import proofs.«100263_g58042188038559_cont_9to1c4b_174_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched point has the
    same block index as the point before, and the body never writes an input buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched point has the
    same block index as the point before, and the body never writes an input buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched point has the
    same block index as the point before, and the body never writes an input buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: an unfetched point has the
    same block index as the point before, and the body never writes an input buffer. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: an unfetched point has the
    same block index as the point before, and the body never writes an input buffer. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not: an unfetched point has the
    same block index as the point before, and the body never writes an input buffer. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not: an unfetched point has the
    same block index as the point before, and the body never writes an input buffer. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not: an unfetched point has the
    same block index as the point before, and the body never writes an input buffer. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not: an unfetched point has the
    same block index as the point before, and the body never writes an input buffer. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, fetched there or not: an unfetched point has the
    same block index as the point before, and the body never writes an input buffer. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, fetched there or not: an unfetched point has the
    same block index as the point before, and the body never writes an input buffer. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/
abbrev rw_S1024x1280 : Rect S1024x1280 := Rect.unit (s := S1024x1280) ![0, 0] S1024x1280.size inb_S1024x1280_S1024x1280_0_0
abbrev rw_S2000x128 : Rect S2000x128 := Rect.unit (s := S2000x128) ![0, 0] S2000x128.size inb_S2000x128_S2000x128_0_0
abbrev rw_S128x128 : Rect S128x128 := Rect.unit (s := S128x128) ![0, 0] S128x128.size inb_S128x128_S128x128_0_0
abbrev rw_S1x128 : Rect S1x128 := Rect.unit (s := S1x128) ![0, 0] S1x128.size inb_S1x128_S1x128_0_0
abbrev rw_S128x64 : Rect S128x64 := Rect.unit (s := S128x64) ![0, 0] S128x64.size inb_S128x64_S128x64_0_0
abbrev rw_S1x64 : Rect S1x64 := Rect.unit (s := S1x64) ![0, 0] S1x64.size inb_S1x64_S1x64_0_0
abbrev rw_S1280x128 : Rect S1280x128 := Rect.unit (s := S1280x128) ![0, 0] S1280x128.size inb_S1280x128_S1280x128_0_0
abbrev rw_S2000x64 : Rect S2000x64 := Rect.unit (s := S2000x64) ![0, 0] S2000x64.size inb_S2000x64_S2000x64_0_0
abbrev rw_S1024x128 : Rect S1024x128 := Rect.unit (s := S1024x128) ![0, 0] S1024x128.size inb_S1024x128_S1024x128_0_0

/-! ## What the body leaves in each output window's buffer -/

/-- Window 11 after the body: the one store of the perceptron's value of the tile (window 1) and its weights and biases
    (windows 2, 3, 4, 5). -/
def out0_11 (x1 : Vec F S2000x128 .f32) (x2 : Vec F S128x128 .f32) (x3 : Vec F S1x128 .f32) (x4 : Vec F S128x64 .f32) (x5 : Vec F S1x64 .f32) : Vec F S2000x64 .f32 :=
  View.canon [⟨rw_S2000x64, k0_pay2 (View.ld x1 rw_S2000x128) (View.ld x2 rw_S128x128) (View.ld x3 rw_S1x128) (View.ld x4 rw_S128x64) (View.ld x5 rw_S1x64)⟩]

/-- Window 12 after the body: the one store of the tile times the first convolution's weights (window 6). -/
def out0_12 (x1 : Vec F S2000x128 .f32) (x6 : Vec F S128x128 .f32) : Vec F S2000x128 .bf16 :=
  View.canon [⟨rw_S2000x128, k0_pay3 (View.ld x1 rw_S2000x128) (View.ld x6 rw_S128x128)⟩]

/-- Window 13 after the body AT THE FIRST POINT: the one store of the sequence encoder's value of windows 0, 7, 8, 9, 10. -/
def out0_13 (x0 : Vec F S1024x1280 .f32) (x7 : Vec F S1280x128 .f32) (x8 : Vec F S1x128 .f32) (x9 : Vec F S128x128 .f32) (x10 : Vec F S1x128 .f32) : Vec F S1024x128 .f32 :=
  View.canon [⟨rw_S1024x128, k0_pay1 (View.ld x0 rw_S1024x1280) (View.ld x7 rw_S1280x128) (View.ld x8 rw_S1x128) (View.ld x9 rw_S128x128) (View.ld x10 rw_S1x128)⟩]

/-- One whole-buffer store covers the buffer. -/
theorem cover0_11 (p0 : Vec F S2000x64 .f32) (y : S2000x64.Idx) :
    ∃ pc ∈ ([⟨rw_S2000x64, p0⟩] : List (View.Piece (Elt F) S2000x64 .f32)), y ∈ pc.1.set :=
  View.cover_of_tiled [⟨rw_S2000x64, p0⟩] S2000x64.size (by rfl) y
theorem cover0_12 (p0 : Vec F S2000x128 .bf16) (y : S2000x128.Idx) :
    ∃ pc ∈ ([⟨rw_S2000x128, p0⟩] : List (View.Piece (Elt F) S2000x128 .bf16)), y ∈ pc.1.set :=
  View.cover_of_tiled [⟨rw_S2000x128, p0⟩] S2000x128.size (by rfl) y
theorem cover0_13 (p0 : Vec F S1024x128 .f32) (y : S1024x128.Idx) :
    ∃ pc ∈ ([⟨rw_S1024x128, p0⟩] : List (View.Piece (Elt F) S1024x128 .f32)), y ∈ pc.1.set :=
  View.cover_of_tiled [⟨rw_S1024x128, p0⟩] S1024x128.size (by rfl) y

/-! ## The body's triples: the first point (the encoder runs) and the later points (it does not) -/

set_option maxHeartbeats 4000000 in
/-- At a point where the branch is taken the body, on whole staging memrefs with the inputs at `xW` and the outputs at
    anything, returns with the inputs as they were and the three outputs at `out0_11`, `out0_12`, `out0_13`. -/
theorem sound_kernel0_first (c : Dev nD) (E : Set ℕ) (i : grid0.Coords) (hc : k0_cond1 i = 1#1) (arg1 : Memref sig .tc .vmem S1024x1280 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x128 .f32) (harg7 : arg7.IsWhole) (arg8 : Memref sig .tc .vmem S1280x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S2000x64 .f32) (harg12 : arg12.IsWhole) (arg13 : Memref sig .tc .vmem S2000x128 .bf16) (harg13 : arg13.IsWhole) (arg14 : Memref sig .tc .vmem S1024x128 .f32) (harg14 : arg14.IsWhole)
    (x0 : Vec F S1024x1280 .f32) (x1 : Vec F S2000x128 .f32) (x2 : Vec F S128x128 .f32) (x3 : Vec F S1x128 .f32) (x4 : Vec F S128x64 .f32) (x5 : Vec F S1x64 .f32) (x6 : Vec F S128x128 .f32) (x7 : Vec F S1280x128 .f32) (x8 : Vec F S1x128 .f32) (x9 : Vec F S128x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x1 x2 x3 x4 x5) ∗ owns (c : Thread nD τ) arg13 fullShare (out0_12 x1 x6) ∗ owns (c : Thread nD τ) arg14 fullShare (out0_13 x0 x7 x8 x9 x10)) -∗ K ⟨⟩))
      ⊢ wp frame (wpE (defs₀ (F := F)) Variants.none c none) E (cc0__go_prep_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__go_prep_kernel_eq_skeleton]; unfold cc0__go_prep_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0; subst hf1; subst hf2; subst hf3; subst hf4; subst hf5; subst hf6; subst hf7; subst hf8; subst hf9; subst hf10
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

set_option maxHeartbeats 4000000 in
/-- At a point where the branch is not taken the body never touches window 13's memref: with the inputs at `xW` and the
    outputs 11 and 12 at anything it returns with the inputs as they were and those two at `out0_11`, `out0_12`. -/
theorem sound_kernel0_later (c : Dev nD) (E : Set ℕ) (i : grid0.Coords) (hc : ¬ k0_cond1 i = 1#1) (arg1 : Memref sig .tc .vmem S1024x1280 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x128 .f32) (harg7 : arg7.IsWhole) (arg8 : Memref sig .tc .vmem S1280x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S2000x64 .f32) (harg12 : arg12.IsWhole) (arg13 : Memref sig .tc .vmem S2000x128 .bf16) (harg13 : arg13.IsWhole) (arg14 : Memref sig .tc .vmem S1024x128 .f32) (harg14 : arg14.IsWhole)
    (x0 : Vec F S1024x1280 .f32) (x1 : Vec F S2000x128 .f32) (x2 : Vec F S128x128 .f32) (x3 : Vec F S1x128 .f32) (x4 : Vec F S128x64 .f32) (x5 : Vec F S1x64 .f32) (x6 : Vec F S128x128 .f32) (x7 : Vec F S1280x128 .f32) (x8 : Vec F S1x128 .f32) (x9 : Vec F S128x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x1 x2 x3 x4 x5) ∗ owns (c : Thread nD τ) arg13 fullShare (out0_12 x1 x6)) -∗ K ⟨⟩))
      ⊢ wp frame (wpE (defs₀ (F := F)) Variants.none c none) E (cc0__go_prep_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__go_prep_kernel_eq_skeleton]; unfold cc0__go_prep_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0; subst hf1; subst hf2; subst hf3; subst hf4; subst hf5; subst hf6; subst hf7; subst hf8; subst hf9; subst hf10
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

end Cert.Kernel.Gen

end
-- ==== Proof.KB.Reg0.lean ====
/-
  Region 0's proof data and its body obligation.

  Window 13's block index never moves and its buffer is stored only at the first grid point; the later points leave it
  alone and the last one writes it back. So what each later point's body finds there is what the first point left,
  and that is what the write-back after the last point carries to the array.
-/
import proofs.«100263_g58042188038559_cont_9to1c4b_174_21_alg».proof.Proof.KB.Reg0Body

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- Region 0's proof data on core `c`: the arrays as the region finds them; after the body each input's buffer still at
    its block, windows 11 and 12 at the body's values of the point's blocks, window 13 at the encoder's value of the
    first point's blocks AT EVERY POINT (stored at the first, untouched afterwards); the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 1 t) (iblk0 V c 2 t) (iblk0 V c 3 t) (iblk0 V c 4 t) (iblk0 V c 5 t)
    | ⟨12, _⟩ => out0_12 (iblk0 V c 1 t) (iblk0 V c 6 t)
    | ⟨13, _⟩ => out0_13 (iblk0 V c 0 t0_0) (iblk0 V c 7 t0_0) (iblk0 V c 8 t0_0) (iblk0 V c 9 t0_0) (iblk0 V c 10 t0_0)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 1 t) (iblk0 V c 2 t) (iblk0 V c 3 t) (iblk0 V c 4 t) (iblk0 V c 5 t) := by dsimp only [dat0]
theorem after0_12 (c : Dev nD) (t : Fin cfg0.N) : (dat0 V c).after 12 t = out0_12 (iblk0 V c 1 t) (iblk0 V c 6 t) := by dsimp only [dat0]
theorem after0_13 (c : Dev nD) (t : Fin cfg0.N) : (dat0 V c).after 13 t = out0_13 (iblk0 V c 0 t0_0) (iblk0 V c 7 t0_0) (iblk0 V c 8 t0_0) (iblk0 V c 9 t0_0) (iblk0 V c 10 t0_0) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## Window 13's buffer at the later points: what the first point stored

Nothing fetches, writes back or stores into window 13's buffer between the first point's body and the last point's:
each later body finds what the point before it left, and the first left the encoder's value. -/

theorem before0_13_1 (c : Dev nD) (d) : (dat0 V c).before 13 t0_1 d = (dat0 V c).after 13 t0_0 := by
  rw [(dat0 V c).before_of_pos 13 t0_1 (by decide) rfl d]
  rw [if_neg (by decide)]
  unfold Dat.left
  rw [show cfg0.idle 13 (cfg0.grid.coords ⟨t0_1.val - 1, Nat.lt_of_le_of_lt (Nat.sub_le _ _) t0_1.isLt⟩) = false from by decide]
  show (dat0 V c).kept 13 t0_0 d = _
  unfold Dat.kept
  rw [Pipeline.fill_of_clip_none (cfg := cfg0) 13 _ (fun _ => rfl) d ((dat0 V c).after 13 t0_0) _, Window.fill_cut]

theorem before0_13_2 (c : Dev nD) (d) : (dat0 V c).before 13 t0_2 d = (dat0 V c).before 13 t0_1 d := by
  rw [(dat0 V c).before_of_pos 13 t0_2 (by decide) rfl d]
  rw [if_neg (by decide)]
  unfold Dat.left
  rw [show cfg0.idle 13 (cfg0.grid.coords ⟨t0_2.val - 1, Nat.lt_of_le_of_lt (Nat.sub_le _ _) t0_2.isLt⟩) = true from by decide]
  rfl

theorem before0_13_3 (c : Dev nD) (d) : (dat0 V c).before 13 t0_3 d = (dat0 V c).before 13 t0_2 d := by
  rw [(dat0 V c).before_of_pos 13 t0_3 (by decide) rfl d]
  rw [if_neg (by decide)]
  unfold Dat.left
  rw [show cfg0.idle 13 (cfg0.grid.coords ⟨t0_3.val - 1, Nat.lt_of_le_of_lt (Nat.sub_le _ _) t0_3.isLt⟩) = true from by decide]
  rfl

theorem before0_13_4 (c : Dev nD) (d) : (dat0 V c).before 13 t0_4 d = (dat0 V c).after 13 t0_4 := by
  rw [(dat0 V c).before_of_pos 13 t0_4 (by decide) rfl d]
  rw [if_neg (by decide)]
  unfold Dat.left
  rw [show cfg0.idle 13 (cfg0.grid.coords ⟨t0_4.val - 1, Nat.lt_of_le_of_lt (Nat.sub_le _ _) t0_4.isLt⟩) = true from by decide]
  show (dat0 V c).before 13 t0_3 d = _
  rw [before0_13_3, before0_13_2, before0_13_1, after0_13, after0_13]

/-! ## The body obligation -/

/-- What the body is called with at point `t`: the invariant, nothing owed, every window's current buffer at what the
    pipeline's transfers and the earlier points left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- What it returns: windows 0 to 12 at their stated contents, window 13's part `P13` stated per point. -/
def bodyPost0 (c : Dev nD) (t : Fin cfg0.N) (P13 : sProp 𝕄) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ P13)

set_option maxHeartbeats 1000000 in
/-- The first point: the branch is taken, and window 13's buffer ends at the encoder's value. -/
theorem sound_body0_first (c : Dev nD) :
    bodyPre0 V c t0_0 ⊢ wp frame (wpE (defs₀ (F := F)) Variants.none c none) Set.univ (bodyAt0 t0_0)
      (fun _ => bodyPost0 V c t0_0 (owns (c : Thread nD τ) (st0_13 t0_0) fullShare ((dat0 V c).after 13 t0_0))) := by
  unfold bodyPre0 bodyPost0 bodyAt0
  simp only [before0_0, before0_1, before0_2, before0_3, before0_4, before0_5, before0_6, before0_7, before0_8, before0_9, before0_10]
  rw [show (dat0 V c).Φ t0_0.succ = (dat0 V c).Φ t0_0.castSucc from rfl,
    show (dat0 V c).owesAt () t0_0.succ = (dat0 V c).owesAt () t0_0.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0_first c Set.univ (grid0.coords t0_0) (by decide) _ _ _ _ _ _ _ _ _ _ _ _ _ _ _ _ _ _ _ _ _ _ _ _ _ _ _ _ (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) (iblk0 V c 10 t0_0) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option maxHeartbeats 1000000 in
/-- A later point: the branch is not taken; window 13's buffer comes back as it was found, and `h13` says what the
    obligation makes of that at this point. -/
theorem sound_body0_later (c : Dev nD) (t : Fin cfg0.N) (hc : ¬ k0_cond1 (grid0.coords t) = 1#1) (P13 : sProp 𝕄)
    (h13 : ∀ d, owns (c : Thread nD τ) (st0_13 t) fullShare ((dat0 V c).before 13 t d) ⊢ P13) :
    bodyPre0 V c t ⊢ wp frame (wpE (defs₀ (F := F)) Variants.none c none) Set.univ (bodyAt0 t)
      (fun _ => bodyPost0 V c t P13) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0_later c Set.univ (grid0.coords t) hc _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (h13 d13)
  iexact H13

set_option maxHeartbeats 2000000 in
/-- The obligation the pipeline asks of the body, at each of the five points: the first stores window 13, the three
    middle ones hand it back as found, and the last hands it back at the first point's value, which is what the
    write-back then carries. -/
theorem body_obligation0 (c : Dev nD) : BodyObligation (dat0 (F := F) V c) (defs₀ (F := F)) Variants.none () Set.univ := fun t => by
  rw [bigSep_W0, bigSep_W0]
  rcases fin_N0 t with rfl | rfl | rfl | rfl | rfl
  · exact sound_body0_first V c
  · exact sound_body0_later V c t0_1 (by decide) _ (fun d => by
      show _ ⊢ iprop(∃ d', owns (c : Thread nD τ) (st0_13 t0_1) fullShare ((dat0 V c).before 13 t0_1 d'))
      iintro H; iexists d; iexact H)
  · exact sound_body0_later V c t0_2 (by decide) _ (fun d => by
      show _ ⊢ iprop(∃ d', owns (c : Thread nD τ) (st0_13 t0_2) fullShare ((dat0 V c).before 13 t0_2 d'))
      iintro H; iexists d; iexact H)
  · exact sound_body0_later V c t0_3 (by decide) _ (fun d => by
      show _ ⊢ iprop(∃ d', owns (c : Thread nD τ) (st0_13 t0_3) fullShare ((dat0 V c).before 13 t0_3 d'))
      iintro H; iexists d; iexact H)
  · exact sound_body0_later V c t0_4 (by decide) (owns (c : Thread nD τ) (st0_13 t0_4) fullShare ((dat0 V c).after 13 t0_4))
      (fun d => by rw [before0_13_4])

end Cert.Kernel.Gen

end
-- ==== Proof.KB.Reg1.lean ====
/- Region 1 of @main (the first sparse product, `cc1__spmm1_kernel`, 25 grid points), at arbitrary
   region-entry contents `V`: the block each window shows the body at a point, the contents the body
   leaves in the output window's buffer as a function of the input blocks, the body's triple, and the
   pipeline's proof data with its body obligation.
   Windows: 0 = a 400-row tile of the adjacency matrix, 1..3 = three operands held whole,
   4 = the 400x64 output tile (bf16). -/
import proofs.«100263_g58042188038559_cont_9to1c4b_174_21_alg».proof.Proof.Gen.Kernel.Launch
import proofs.«100263_g58042188038559_cont_9to1c4b_174_21_alg».proof.Proof.Gen.Kernel.Skeleton
import proofs.«100263_g58042188038559_cont_9to1c4b_174_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block window `w` presents at grid point `t`: its array, as the region finds it, read through
    the window's view at that point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's buffer holds the tile of the current point, for any proof data over `V`'s array
    whose body leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- A whole operand is copied in once, at the first point; at later points its block index is unchanged, so
    the buffer still holds the block. Window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same for window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through: each is its whole buffer -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S1x128 := Rect.unit (s := S1x128) ![0, 0] S1x128.size inb_S1x128_S1x128_0_0
abbrev r1_3 : Rect S128x64 := Rect.unit (s := S128x64) ![0, 0] S128x64.size inb_S128x64_S128x64_0_0
abbrev r1_4 : Rect S400x64 := Rect.unit (s := S400x64) ![0, 0] S400x64.size inb_S400x64_S400x64_0_0

/-! ## The output buffer after the body -/

/-- The output tile's buffer after the body, from the four input blocks: the body's single store, over the
    whole buffer, of the payload computed from what the four loads read. -/
def out1_4 (x0 : Vec F S400x10000 .f32) (x1 : Vec F S10000x128 .bf16) (x2 : Vec F S1x128 .f32) (x3 : Vec F S128x64 .f32) : Vec F S400x64 .bf16 :=
  View.canon [⟨r1_4, k1_pay1 (View.ld x0 r1_0) (View.ld x1 r1_1) (View.ld x2 r1_2) (View.ld x3 r1_3)⟩]

/-- That one store reaches every element of the buffer. -/
theorem cover1_4 (p0 : Vec F S400x64 .bf16) (y : S400x64.Idx) :
    ∃ pc ∈ ([⟨r1_4, p0⟩] : List (View.Piece (Elt F) S400x64 .bf16)), y ∈ pc.1.set :=
  View.cover_of_tiled [⟨r1_4, p0⟩] S400x64.size (by rfl) y

/-! ## The body's triple -/

set_option maxHeartbeats 1000000 in
/-- Run on whole buffers, the inputs' reading `x0 … x3` and the output's holding anything, the body ends with
    the inputs' unchanged and the output's reading `out1_4 x0 x1 x2 x3`. The body also loads the output buffer
    before storing to it; the loaded value is not used, so any contents will do there. -/
theorem sound_kernel1 (c : Dev nD) (E : Set ℕ) (i : grid1.Coords) (arg1 : Memref sig .tc .vmem S400x10000 .f32) (harg1 : arg1.IsWhole) (arg2 : Memref sig .tc .vmem S10000x128 .bf16) (harg2 : arg2.IsWhole) (arg3 : Memref sig .tc .vmem S1x128 .f32) (harg3 : arg3.IsWhole) (arg4 : Memref sig .tc .vmem S128x64 .f32) (harg4 : arg4.IsWhole) (arg5 : Memref sig .tc .vmem S400x64 .bf16) (harg5 : arg5.IsWhole)
    (x0 : Vec F S400x10000 .f32) (x1 : Vec F S10000x128 .bf16) (x2 : Vec F S1x128 .f32) (x3 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__spmm1_kernel i arg1 harg1 arg2 harg2 arg3 harg3 arg4 harg4 arg5 harg5) K := by
  simp only [cc1__spmm1_kernel_eq_skeleton]; unfold cc1__spmm1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- Region 1's proof data on core `c`: arrays as found (`V`); after the body at `t`, every input buffer at its
    block and the output buffer at `out1_4` of the input blocks; the invariant is the plain one (scoped rest and
    generator register untouched); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- What the body finds in each input buffer: the window's block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- The resources the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and the resources it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the input buffers hold their blocks, so the body's triple applies; the invariant and what the
    core owes are carried across unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.Reg2.lean ====
/- Region 2 of @main (the second sparse product, `cc2__spmm2_kernel`, 25 grid points), at arbitrary
   region-entry contents `V`: the block each window shows the body at a point, the contents the body
   leaves in the output window's buffer as a function of the input blocks, the body's triple, and the
   pipeline's proof data with its body obligation.
   Windows: 0 = a 400-row tile of the adjacency matrix, 1 and 2 = two operands held whole,
   3 = the 400x64 output tile (f32). -/
import proofs.«100263_g58042188038559_cont_9to1c4b_174_21_alg».proof.Proof.Gen.Kernel.Launch
import proofs.«100263_g58042188038559_cont_9to1c4b_174_21_alg».proof.Proof.Gen.Kernel.Skeleton
import proofs.«100263_g58042188038559_cont_9to1c4b_174_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block window `w` presents at grid point `t`: its array, as the region finds it, read through
    the window's view at that point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency tile's buffer holds the tile of the current point, for any proof data over `V`'s array
    whose body leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- A whole operand is copied in once, at the first point; at later points its block index is unchanged, so
    the buffer still holds the block. Window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through: each is its whole buffer -/

abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S1x64 := Rect.unit (s := S1x64) ![0, 0] S1x64.size inb_S1x64_S1x64_0_0
abbrev r2_3 : Rect S400x64 := Rect.unit (s := S400x64) ![0, 0] S400x64.size inb_S400x64_S400x64_0_0

/-! ## The output buffer after the body -/

/-- The output tile's buffer after the body, from the three input blocks: the body's single store, over the
    whole buffer, of the payload computed from what the three loads read. -/
def out2_3 (x0 : Vec F S400x10000 .f32) (x1 : Vec F S10000x64 .bf16) (x2 : Vec F S1x64 .f32) : Vec F S400x64 .f32 :=
  View.canon [⟨r2_3, k2_pay1 (View.ld x0 r2_0) (View.ld x1 r2_1) (View.ld x2 r2_2)⟩]

/-- That one store reaches every element of the buffer. -/
theorem cover2_3 (p0 : Vec F S400x64 .f32) (y : S400x64.Idx) :
    ∃ pc ∈ ([⟨r2_3, p0⟩] : List (View.Piece (Elt F) S400x64 .f32)), y ∈ pc.1.set :=
  View.cover_of_tiled [⟨r2_3, p0⟩] S400x64.size (by rfl) y

/-! ## The body's triple -/

set_option maxHeartbeats 1000000 in
/-- Run on whole buffers, the inputs' reading `x0 x1 x2` and the output's holding anything, the body ends with
    the inputs' unchanged and the output's reading `out2_3 x0 x1 x2`. The body also loads the output buffer
    before storing to it; the loaded value is not used, so any contents will do there. -/
theorem sound_kernel2 (c : Dev nD) (E : Set ℕ) (i : grid2.Coords) (arg1 : Memref sig .tc .vmem S400x10000 .f32) (harg1 : arg1.IsWhole) (arg2 : Memref sig .tc .vmem S10000x64 .bf16) (harg2 : arg2.IsWhole) (arg3 : Memref sig .tc .vmem S1x64 .f32) (harg3 : arg3.IsWhole) (arg4 : Memref sig .tc .vmem S400x64 .f32) (harg4 : arg4.IsWhole)
    (x0 : Vec F S400x10000 .f32) (x1 : Vec F S10000x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__spmm2_kernel i arg1 harg1 arg2 harg2 arg3 harg3 arg4 harg4) K := by
  simp only [cc2__spmm2_kernel_eq_skeleton]; unfold cc2__spmm2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- Region 2's proof data on core `c`: arrays as found (`V`); after the body at `t`, every input buffer at its
    block and the output buffer at `out2_3` of the input blocks; the invariant is the plain one (scoped rest and
    generator register untouched); full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- What the body finds in each input buffer: the window's block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- The resources the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and the resources it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the body's triple applies; the invariant and what the
    core owes are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KB.Reg3.lean ====
/- Region 3 of @main (the pairwise scores, `cc3__pred_kernel`, 4 grid points), at arbitrary
   region-entry contents `V`: the block each window shows the body at a point, the contents the body
   leaves in the output window's buffer as a function of the input blocks, the body's triple, and the
   pipeline's proof data with its body obligation.
   Windows: 0 = a 256-row tile of a 128-column array, of which the body reads the left 64 columns and
   the right 64 columns separately; 1 and 2 = two 10000x64 operands held whole; 3 = the 256x10000
   output tile. -/
import proofs.«100263_g58042188038559_cont_9to1c4b_174_21_alg».proof.Proof.Gen.Kernel.Launch
import proofs.«100263_g58042188038559_cont_9to1c4b_174_21_alg».proof.Proof.Gen.Kernel.Skeleton
import proofs.«100263_g58042188038559_cont_9to1c4b_174_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block window `w` presents at grid point `t`: its array, as the region finds it, read through
    the window's view at that point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row tile's buffer holds the tile of the current point, for any proof data over `V`'s array whose body
    leaves that buffer alone. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- A whole operand is copied in once, at the first point; at later points its block index is unchanged, so
    the buffer still holds the block. Window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same for window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes through -/

/-- Columns 0..63 of the row tile. -/
abbrev r3_0l : Rect S256x128 := Rect.unit (s := S256x128) ![0, 0] S256x64.size inb_S256x128_S256x64_0_0
/-- Columns 64..127 of the row tile. -/
abbrev r3_0r : Rect S256x128 := Rect.unit (s := S256x128) ![0, 64] S256x64.size inb_S256x128_S256x64_0_64
/-- A whole 10000x64 operand (windows 1 and 2 alike). -/
abbrev r3_1 : Rect S10000x64 := Rect.unit (s := S10000x64) ![0, 0] S10000x64.size inb_S10000x64_S10000x64_0_0
/-- The whole output tile. -/
abbrev r3_3 : Rect S256x10000 := Rect.unit (s := S256x10000) ![0, 0] S256x10000.size inb_S256x10000_S256x10000_0_0

/-! ## The output buffer after the body -/

/-- The output tile's buffer after the body, from the three input blocks: the body's single store, over the
    whole buffer, of the payload computed from the left half of the row tile, the first whole operand, the right
    half of the row tile and the second whole operand, in the order the body loads them. -/
def out3_3 (x0 : Vec F S256x128 .f32) (x1 : Vec F S10000x64 .f32) (x2 : Vec F S10000x64 .f32) : Vec F S256x10000 .f32 :=
  View.canon [⟨r3_3, k3_pay1 (View.ld x0 r3_0l) (View.ld x1 r3_1) (View.ld x0 r3_0r) (View.ld x2 r3_1)⟩]

/-- That one store reaches every element of the buffer. -/
theorem cover3_3 (p0 : Vec F S256x10000 .f32) (y : S256x10000.Idx) :
    ∃ pc ∈ ([⟨r3_3, p0⟩] : List (View.Piece (Elt F) S256x10000 .f32)), y ∈ pc.1.set :=
  View.cover_of_tiled [⟨r3_3, p0⟩] S256x10000.size (by rfl) y

/-! ## The body's triple -/

set_option maxHeartbeats 1000000 in
/-- Run on whole buffers, the inputs' reading `x0 x1 x2` and the output's holding anything, the body ends with
    the inputs' unchanged and the output's reading `out3_3 x0 x1 x2`. The body also loads the output buffer
    before storing to it; the loaded value is not used, so any contents will do there. -/
theorem sound_kernel3 (c : Dev nD) (E : Set ℕ) (i : grid3.Coords) (arg1 : Memref sig .tc .vmem S256x128 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S256x10000 .f32) (harg4 : arg4.IsWhole)
    (x0 : Vec F S256x128 .f32) (x1 : Vec F S10000x64 .f32) (x2 : Vec F S10000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__pred_kernel i arg1 harg1 arg2 harg2 arg3 harg3 arg4 harg4) K := by
  simp only [cc3__pred_kernel_eq_skeleton]; unfold cc3__pred_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The proof data -/

/-- Region 3's proof data on core `c`: arrays as found (`V`); after the body at `t`, every input buffer at its
    block and the output buffer at `out3_3` of the input blocks; the invariant is the plain one (scoped rest and
    generator register untouched); full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, one window at a time. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- What the body finds in each input buffer: the window's block at the point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- The resources the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and the resources it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- At any point the input buffers hold their blocks, so the body's triple applies; the invariant and what the
    core owes are carried across unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KB.Run.lean ====
/-
  The whole run of the program: six host reshapes, then the four pipelined regions in order.

  The buffers' contents are followed from the launch through every segment boundary: a host stretch leaves its
  operations' results, a region leaves each of its windows' arrays at what its write-backs put there and every other
  buffer alone. The run theorem states every unscoped buffer's final contents, from which both the frame (the fifteen
  arguments end as launched) and the results' values are read.
-/
import proofs.«100263_g58042188038559_cont_9to1c4b_174_21_alg».proof.Proof.KB.Reg0
import proofs.«100263_g58042188038559_cont_9to1c4b_174_21_alg».proof.Proof.KB.Reg1
import proofs.«100263_g58042188038559_cont_9to1c4b_174_21_alg».proof.Proof.KB.Reg2
import proofs.«100263_g58042188038559_cont_9to1c4b_174_21_alg».proof.Proof.KB.Reg3
import proofs.«100263_g58042188038559_cont_9to1c4b_174_21_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev B0 : Dev nD → Valuation τ sig (Elt F) := fun c b => (s₀ m ρ).mem ((c : Dev nD), b)
/-- After the six reshapes of the bias vectors (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- At region 0's exit: its windows' arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem exitArr0 (c : Dev nD) (w : Fin cfg0.W) : (dat0 (E1 m ρ) c).arrAt w cfg0.N = E2 m ρ c (Pipeline.arrRef spec0 w) :=
  (B2_arr m ρ c w).symm
theorem exitRest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- Region 0 changes only its output arrays (`main_v6_0`, `main_v6_1`, `main_v6_2`): an input window's array is never written back, and a
    buffer that is no window's array is not touched. -/
theorem B2_keep (c : Dev nD) (b : Ref sig .tc) (hb : b ∉ ([main_v6_0, main_v6_1, main_v6_2] : List (Ref sig .tc))) :
    B2 m ρ c (Proc.devRef .tc b) = B1 m ρ c (Proc.devRef .tc b) := by
  by_cases h : ∃ w, Pipeline.arrRef spec0 w = b
  · obtain ⟨w, rfl⟩ := h
    have hw : (cfg0.win w).isOut = false := by
      revert hb; revert w; decide
    exact (B2_arr m ρ c w).trans (((dat0 (E1 m ρ) c).arrAt_in w hw _).trans (A_eq0 (E1 m ρ) c w))
  · exact B2_of_ne m ρ c b fun w e => h ⟨w, e⟩

/-- At region 1's exit: its windows' arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem exitArr1 (c : Dev nD) (w : Fin cfg1.W) : (dat1 (E2 m ρ) c).arrAt w cfg1.N = E3 m ρ c (Pipeline.arrRef spec1 w) :=
  (B3_arr m ρ c w).symm
theorem exitRest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)
/-- Region 1 changes only its output arrays (`main_v7`): an input window's array is never written back, and a
    buffer that is no window's array is not touched. -/
theorem B3_keep (c : Dev nD) (b : Ref sig .tc) (hb : b ∉ ([main_v7] : List (Ref sig .tc))) :
    B3 m ρ c (Proc.devRef .tc b) = B2 m ρ c (Proc.devRef .tc b) := by
  by_cases h : ∃ w, Pipeline.arrRef spec1 w = b
  · obtain ⟨w, rfl⟩ := h
    have hw : (cfg1.win w).isOut = false := by
      revert hb; revert w; decide
    exact (B3_arr m ρ c w).trans (((dat1 (E2 m ρ) c).arrAt_in w hw _).trans (A_eq1 (E2 m ρ) c w))
  · exact B3_of_ne m ρ c b fun w e => h ⟨w, e⟩

/-- At region 2's exit: its windows' arrays at what the pipeline leaves, every other buffer as entered. -/
def B4 (c : Dev nD) : Valuation τ sig (Elt F) :=
  Pipeline.withArrays spec2 c (B3 m ρ c) fun w => (dat2 (E3 m ρ) c).arrAt w cfg2.N
theorem B4_arr (c : Dev nD) (w : Fin cfg2.W) :
    B4 m ρ c (Proc.devRef .tc (Pipeline.arrRef spec2 w)) = (dat2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev E4 : (c : Dev nD) → (b : Ref sig .tc) → Buf (Elt F) ((c : Thread nD τ).loc b) := fun c b => B4 m ρ c b
theorem exitArr2 (c : Dev nD) (w : Fin cfg2.W) : (dat2 (E3 m ρ) c).arrAt w cfg2.N = E4 m ρ c (Pipeline.arrRef spec2 w) :=
  (B4_arr m ρ c w).symm
theorem exitRest2 (c : Dev nD) : ∀ b, b ∉ Finset.univ.image (Pipeline.arrRef spec2) → E4 m ρ c b = E3 m ρ c b :=
  fun b hb => B4_of_ne m ρ c b fun w e => hb (Finset.mem_image.mpr ⟨w, Finset.mem_univ _, e⟩)
/-- Region 2 changes only its output arrays (`main_v8`): an input window's array is never written back, and a
    buffer that is no window's array is not touched. -/
theorem B4_keep (c : Dev nD) (b : Ref sig .tc) (hb : b ∉ ([main_v8] : List (Ref sig .tc))) :
    B4 m ρ c (Proc.devRef .tc b) = B3 m ρ c (Proc.devRef .tc b) := by
  by_cases h : ∃ w, Pipeline.arrRef spec2 w = b
  · obtain ⟨w, rfl⟩ := h
    have hw : (cfg2.win w).isOut = false := by
      revert hb; revert w; decide
    exact (B4_arr m ρ c w).trans (((dat2 (E3 m ρ) c).arrAt_in w hw _).trans (A_eq2 (E3 m ρ) c w))
  · exact B4_of_ne m ρ c b fun w e => h ⟨w, e⟩

/-- At region 3's exit: its windows' arrays at what the pipeline leaves, every other buffer as entered. -/
def B5 (c : Dev nD) : Valuation τ sig (Elt F) :=
  Pipeline.withArrays spec3 c (B4 m ρ c) fun w => (dat3 (E4 m ρ) c).arrAt w cfg3.N
theorem B5_arr (c : Dev nD) (w : Fin cfg3.W) :
    B5 m ρ c (Proc.devRef .tc (Pipeline.arrRef spec3 w)) = (dat3 (E4 m ρ) c).arrAt w cfg3.N := by
  unfold B5; exact Pipeline.withArrays_arr spec3 launch3.win.arr_inj c _ _ w
theorem B5_of_ne (c : Dev nD) (b : Ref sig .tc) (hb : ∀ w, Pipeline.arrRef spec3 w ≠ b) :
    B5 m ρ c (Proc.devRef .tc b) = B4 m ρ c (Proc.devRef .tc b) := by
  unfold B5; exact Pipeline.withArrays_of_ne spec3 c _ _ b hb
abbrev E5 : (c : Dev nD) → (b : Ref sig .tc) → Buf (Elt F) ((c : Thread nD τ).loc b) := fun c b => B5 m ρ c b
theorem exitArr3 (c : Dev nD) (w : Fin cfg3.W) : (dat3 (E4 m ρ) c).arrAt w cfg3.N = E5 m ρ c (Pipeline.arrRef spec3 w) :=
  (B5_arr m ρ c w).symm
theorem exitRest3 (c : Dev nD) : ∀ b, b ∉ Finset.univ.image (Pipeline.arrRef spec3) → E5 m ρ c b = E4 m ρ c b :=
  fun b hb => B5_of_ne m ρ c b fun w e => hb (Finset.mem_image.mpr ⟨w, Finset.mem_univ _, e⟩)
/-- Region 3 changes only its output arrays (`main_v9`): an input window's array is never written back, and a
    buffer that is no window's array is not touched. -/
theorem B5_keep (c : Dev nD) (b : Ref sig .tc) (hb : b ∉ ([main_v9] : List (Ref sig .tc))) :
    B5 m ρ c (Proc.devRef .tc b) = B4 m ρ c (Proc.devRef .tc b) := by
  by_cases h : ∃ w, Pipeline.arrRef spec3 w = b
  · obtain ⟨w, rfl⟩ := h
    have hw : (cfg3.win w).isOut = false := by
      revert hb; revert w; decide
    exact (B5_arr m ρ c w).trans (((dat3 (E4 m ρ) c).arrAt_in w hw _).trans (A_eq3 (E4 m ρ) c w))
  · exact B5_of_ne m ρ c b fun w e => h ⟨w, e⟩

/-- No reshape writes anything but its own result. -/
theorem B1_keep (c : Dev nD) (b : Ref sig .tc) (hb : b ∉ ([main_v0, main_v1, main_v2, main_v3, main_v4, main_v5] : List (Ref sig .tc))) :
    B1 m ρ c (Proc.devRef .tc b) = B0 m ρ c (Proc.devRef .tc b) :=
  V1_of m c b hb

/-! ## The proof data of the four pipelines and what rides beside the buffers -/

/-- No pipeline has a prefetched table. -/
abbrev noTables : (p : Fin 4) → (pcfgs (F := F) p).Adm := fun p => (cfgs p).toPCfg_adm
/-- Each pipeline's proof data at its region's entry contents. -/
def allDats : (p : Fin 4) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E2 m ρ) c
  | ⟨2, _⟩ => fun c => dat2 (E3 m ρ) c
  | ⟨3, _⟩ => fun c => dat3 (E4 m ρ) c
abbrev noVariants : Variants := Variants.none
/-- No core waits on another: no level is assigned. -/
abbrev noLevels : GSem nD τ sig → Finset Unit := fun _ => ∅
abbrev noLv : GSem nD τ sig → Unit → ℕ := fun _ _ => 0
/-- Beside the buffers every segment carries the core's generator register, at some state, and that it owes nothing. -/
abbrev rider (c : Dev nD) : sProp 𝕄 := iprop((∃ r, prngReg c r) ∗ ∃ W, owes (c : Thread nD τ) (0 : CellTallies nD τ sig Unit) W)
/-- The host stretch as a segment over the unscoped buffers. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider
/-- A reshape allocates nothing. -/
theorem reshapes_fresh : (hostOps0 : List (HloOp τ sig (Elt F))).Forall fun op => op.fresh = ∅ := by
  simp only [List.Forall]; repeat' constructor
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what is owed: every unscoped buffer at the final contents, the generator register. -/
abbrev lastState (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- Region 0 as a segment of the run: entered with every unscoped buffer at `B1`, left with them at `B2`. Its
    windows' arrays are split out of the unscoped buffers on entry and put back at their final contents on exit; the
    generator register rides through the class invariant; nothing is owed; the kernel has no semaphore of its own. -/
def region0 : Pipeline.RegionSeg (pcfgs (F := F)) noTables (allDats m ρ) () defs₀ noVariants noLevels noLv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noLevels noLv 0 fun _ _ => rfl
  pre c := iprop(StableHlo.held (c : Thread nD τ) (Pipeline.ucRefs τ sig) (B1 m ρ c) ∗ rider c)
  post c := iprop(StableHlo.held (c : Thread nD τ) (Pipeline.ucRefs τ sig) (B2 m ρ c) ∗ rider c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (allDats m ρ) launch0.win launch0.arr_whole c
      ((allDats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (allDats m ρ) ((allDats m ρ 0 c).share_full fun _ => rfl)
      (E1 m ρ c) (E2 m ρ c) ((allDats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at `B2`, left with them at `B3`. Its
    windows' arrays are split out of the unscoped buffers on entry and put back at their final contents on exit; the
    generator register rides through the class invariant; nothing is owed; the kernel has no semaphore of its own. -/
def region1 : Pipeline.RegionSeg (pcfgs (F := F)) noTables (allDats m ρ) () defs₀ noVariants noLevels noLv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ noLevels noLv 1 fun _ _ => rfl
  pre c := iprop(StableHlo.held (c : Thread nD τ) (Pipeline.ucRefs τ sig) (B2 m ρ c) ∗ rider c)
  post c := iprop(StableHlo.held (c : Thread nD τ) (Pipeline.ucRefs τ sig) (B3 m ρ c) ∗ rider c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) noTables (allDats m ρ) launch1.win launch1.arr_whole c
      ((allDats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (allDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (allDats m ρ) ((allDats m ρ 1 c).share_full fun _ => rfl)
      (E2 m ρ c) (E3 m ρ c) ((allDats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at `B3`, left with them at `B4`. Its
    windows' arrays are split out of the unscoped buffers on entry and put back at their final contents on exit; the
    generator register rides through the class invariant; nothing is owed; the kernel has no semaphore of its own. -/
def region2 : Pipeline.RegionSeg (pcfgs (F := F)) noTables (allDats m ρ) () defs₀ noVariants noLevels noLv 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ noLevels noLv 2 fun _ _ => rfl
  pre c := iprop(StableHlo.held (c : Thread nD τ) (Pipeline.ucRefs τ sig) (B3 m ρ c) ∗ rider c)
  post c := iprop(StableHlo.held (c : Thread nD τ) (Pipeline.ucRefs τ sig) (B4 m ρ c) ∗ rider c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) noTables (allDats m ρ) launch2.win launch2.arr_whole c
      ((allDats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (allDats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (allDats m ρ) ((allDats m ρ 2 c).share_full fun _ => rfl)
      (E3 m ρ c) (E4 m ρ c) ((allDats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of the run: entered with every unscoped buffer at `B4`, left with them at `B5`. Its
    windows' arrays are split out of the unscoped buffers on entry and put back at their final contents on exit; the
    generator register rides through the class invariant; nothing is owed; the kernel has no semaphore of its own. -/
def region3 : Pipeline.RegionSeg (pcfgs (F := F)) noTables (allDats m ρ) () defs₀ noVariants noLevels noLv 3 where
  win := launch3.win.to₀
  block_pos := launch3.block_pos
  stage_whole := launch3.stage_whole
  K := PEmpty
  osem k := k.elim
  ho := Pipeline.OwnSemFacts.none _
  hbody c := (body_obligation3 (E4 m ρ) c).loose
  hwaits := Pipeline.hwaits_of_owed_zero _ _ _ _ noLevels noLv 3 fun _ _ => rfl
  pre c := iprop(StableHlo.held (c : Thread nD τ) (Pipeline.ucRefs τ sig) (B4 m ρ c) ∗ rider c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E4 m ρ c)
  hentry c := by
    rw [Pipeline.ownSems0_none]
    have hsplit := Pipeline.arrays_of_unscopedBufs (p := 3) (pcfgs (F := F)) noTables (allDats m ρ) launch3.win launch3.arr_whole c
      ((allDats m ρ 3 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (allDats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (allDats m ρ) ((allDats m ρ 3 c).share_full fun _ => rfl)
      (E4 m ρ c) (E5 m ρ c) ((allDats m ρ 3 c).arrAt · cfg3.N) (exitArr3 m ρ c) (exitRest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev allSegs : List (Pipeline.Seg (pcfgs (F := F)) noTables (allDats m ρ) () defs₀ noVariants noLevels noLv) :=
  [ .host (hostStretch hostOps0 hostOps0_sub reshapes_fresh (B0 m ρ)),
    .region (region0 m ρ), .region (region1 m ρ), .region (region2 m ρ), .region (region3 m ρ) ]
theorem main_is_segs (c : Dev nD) : main (F := F) c = Pipeline.Seg.run (allSegs m ρ) := (main_chain c).trans (by chain_rfl)

set_option backward.isDefEq.respectTransparency.types false in
/-- Every weakly fair execution of the program from memory `m` with zero counters terminates, nothing faulting, and
    every unscoped buffer of every core ends at the contents `B5` follows through the five segments. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) noTables (allDats m ρ) () cellOf_inj emb₁ defs₀ noVariants noLevels noLv m ρ main (allSegs m ρ)
    (fun c Q => by rw [main_is_segs m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ rider c)) (Tₙ := lastState m ρ)
    (hch := ⟨fun _ => .rfl, fun _ => .rfl, fun _ => .rfl, fun _ => .rfl, fun _ => .rfl, fun _ => .rfl⟩)
    (hinit := by
      refine Pipeline.initEach noLevels noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.Kernel.Gen

end
-- ==== Proof.KB.Frame.lean ====
/-
  The frame of the program: no segment writes an argument array (a reshape writes only its own result; a region writes
  back only its output windows' arrays, none of which is an argument), so each of the fifteen arguments ends as launched.
-/
import proofs.«100263_g58042188038559_cont_9to1c4b_174_21_alg».proof.Proof.KB.Run

set_option maxRecDepth 16384

noncomputable section

namespace Cert.Kernel.Gen

open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

/-- A buffer that is neither a reshape's result nor a region's output holds its launch contents at the end. -/
theorem arg_kept (c : Dev nD) (b : Ref sig .tc)
    (h1 : b ∉ ([main_v0, main_v1, main_v2, main_v3, main_v4, main_v5] : List (Ref sig .tc)))
    (h2 : b ∉ ([main_v6_0, main_v6_1, main_v6_2] : List (Ref sig .tc))) (h3 : b ∉ ([main_v7] : List (Ref sig .tc)))
    (h4 : b ∉ ([main_v8] : List (Ref sig .tc))) (h5 : b ∉ ([main_v9] : List (Ref sig .tc))) :
    B5 m ρ c (Proc.devRef .tc b) = m ((c : Thread nD τ).loc b) :=
  (B5_keep m ρ c b h5).trans <| (B4_keep m ρ c b h4).trans <| (B3_keep m ρ c b h3).trans <|
    (B2_keep m ρ c b h2).trans <| (B1_keep m ρ c b h1).trans rfl

/-- Every weakly fair execution terminates without a fault and leaves the fifteen argument arrays as launched. -/
theorem args_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_unscoped main_arg0 (by decide))).trans (arg_kept m ρ c main_arg0 (by decide) (by decide) (by decide) (by decide) (by decide)),
      (h c _ (mem_unscoped main_arg1 (by decide))).trans (arg_kept m ρ c main_arg1 (by decide) (by decide) (by decide) (by decide) (by decide)),
      (h c _ (mem_unscoped main_arg2 (by decide))).trans (arg_kept m ρ c main_arg2 (by decide) (by decide) (by decide) (by decide) (by decide)),
      (h c _ (mem_unscoped main_arg3 (by decide))).trans (arg_kept m ρ c main_arg3 (by decide) (by decide) (by decide) (by decide) (by decide)),
      (h c _ (mem_unscoped main_arg4 (by decide))).trans (arg_kept m ρ c main_arg4 (by decide) (by decide) (by decide) (by decide) (by decide)),
      (h c _ (mem_unscoped main_arg5 (by decide))).trans (arg_kept m ρ c main_arg5 (by decide) (by decide) (by decide) (by decide) (by decide)),
      (h c _ (mem_unscoped main_arg6 (by decide))).trans (arg_kept m ρ c main_arg6 (by decide) (by decide) (by decide) (by decide) (by decide)),
      (h c _ (mem_unscoped main_arg7 (by decide))).trans (arg_kept m ρ c main_arg7 (by decide) (by decide) (by decide) (by decide) (by decide)),
      (h c _ (mem_unscoped main_arg8 (by decide))).trans (arg_kept m ρ c main_arg8 (by decide) (by decide) (by decide) (by decide) (by decide)),
      (h c _ (mem_unscoped main_arg9 (by decide))).trans (arg_kept m ρ c main_arg9 (by decide) (by decide) (by decide) (by decide) (by decide)),
      (h c _ (mem_unscoped main_arg10 (by decide))).trans (arg_kept m ρ c main_arg10 (by decide) (by decide) (by decide) (by decide) (by decide)),
      (h c _ (mem_unscoped main_arg11 (by decide))).trans (arg_kept m ρ c main_arg11 (by decide) (by decide) (by decide) (by decide) (by decide)),
      (h c _ (mem_unscoped main_arg12 (by decide))).trans (arg_kept m ρ c main_arg12 (by decide) (by decide) (by decide) (by decide) (by decide)),
      (h c _ (mem_unscoped main_arg13 (by decide))).trans (arg_kept m ρ c main_arg13 (by decide) (by decide) (by decide) (by decide) (by decide)),
      (h c _ (mem_unscoped main_arg14 (by decide))).trans (arg_kept m ρ c main_arg14 (by decide) (by decide) (by decide) (by decide) (by decide))⟩) (whole_run m ρ)

end Cert.Kernel.Gen

end
-- ==== Proof.KI.Reg0Body.lean ====
/-
  Region 0 of the program (the first pallas_call, five grid points): what its body leaves in each window's staging
  buffer, point by point, and the body's obligation to the pipeline.

  At every point the body computes, from the point's 2000-row tile of the node embeddings, the two-layer perceptron
  (output window 11) and the first graph-convolution support (output window 12). Only at the FIRST point does it also
  run the sequence encoder and store it into output window 13, whose block index never moves: that buffer is
  written once, carried untouched through the four later points, and written back after the last one. So window 13's
  contents after any point are the encoder's value of the (constant) blocks of windows 0, 7, 8, 9, 10.
-/
import proofs.«100263_g58042188038559_cont_9to1c4b_174_21_alg».proof.Proof.Gen.KernelIdeal.Launch
import proofs.«100263_g58042188038559_cont_9to1c4b_174_21_alg».proof.Proof.Gen.KernelIdeal.Skeleton
import proofs.«100263_g58042188038559_cont_9to1c4b_174_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched point has the
    same block index as the point before, and the body never writes an input buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched point has the
    same block index as the point before, and the body never writes an input buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched point has the
    same block index as the point before, and the body never writes an input buffer. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: an unfetched point has the
    same block index as the point before, and the body never writes an input buffer. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: an unfetched point has the
    same block index as the point before, and the body never writes an input buffer. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not: an unfetched point has the
    same block index as the point before, and the body never writes an input buffer. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not: an unfetched point has the
    same block index as the point before, and the body never writes an input buffer. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not: an unfetched point has the
    same block index as the point before, and the body never writes an input buffer. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not: an unfetched point has the
    same block index as the point before, and the body never writes an input buffer. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, fetched there or not: an unfetched point has the
    same block index as the point before, and the body never writes an input buffer. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, fetched there or not: an unfetched point has the
    same block index as the point before, and the body never writes an input buffer. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/
abbrev rw_S1024x1280 : Rect S1024x1280 := Rect.unit (s := S1024x1280) ![0, 0] S1024x1280.size inb_S1024x1280_S1024x1280_0_0
abbrev rw_S2000x128 : Rect S2000x128 := Rect.unit (s := S2000x128) ![0, 0] S2000x128.size inb_S2000x128_S2000x128_0_0
abbrev rw_S128x128 : Rect S128x128 := Rect.unit (s := S128x128) ![0, 0] S128x128.size inb_S128x128_S128x128_0_0
abbrev rw_S1x128 : Rect S1x128 := Rect.unit (s := S1x128) ![0, 0] S1x128.size inb_S1x128_S1x128_0_0
abbrev rw_S128x64 : Rect S128x64 := Rect.unit (s := S128x64) ![0, 0] S128x64.size inb_S128x64_S128x64_0_0
abbrev rw_S1x64 : Rect S1x64 := Rect.unit (s := S1x64) ![0, 0] S1x64.size inb_S1x64_S1x64_0_0
abbrev rw_S1280x128 : Rect S1280x128 := Rect.unit (s := S1280x128) ![0, 0] S1280x128.size inb_S1280x128_S1280x128_0_0
abbrev rw_S2000x64 : Rect S2000x64 := Rect.unit (s := S2000x64) ![0, 0] S2000x64.size inb_S2000x64_S2000x64_0_0
abbrev rw_S1024x128 : Rect S1024x128 := Rect.unit (s := S1024x128) ![0, 0] S1024x128.size inb_S1024x128_S1024x128_0_0

/-! ## What the body leaves in each output window's buffer -/

/-- Window 11 after the body: the one store of the perceptron's value of the tile (window 1) and its weights and biases
    (windows 2, 3, 4, 5). -/
def out0_11 (x1 : Vec F S2000x128 .f32) (x2 : Vec F S128x128 .f32) (x3 : Vec F S1x128 .f32) (x4 : Vec F S128x64 .f32) (x5 : Vec F S1x64 .f32) : Vec F S2000x64 .f32 :=
  View.canon [⟨rw_S2000x64, k0_pay2 (View.ld x1 rw_S2000x128) (View.ld x2 rw_S128x128) (View.ld x3 rw_S1x128) (View.ld x4 rw_S128x64) (View.ld x5 rw_S1x64)⟩]

/-- Window 12 after the body: the one store of the tile times the first convolution's weights (window 6). -/
def out0_12 (x1 : Vec F S2000x128 .f32) (x6 : Vec F S128x128 .f32) : Vec F S2000x128 .bf16 :=
  View.canon [⟨rw_S2000x128, k0_pay3 (View.ld x1 rw_S2000x128) (View.ld x6 rw_S128x128)⟩]

/-- Window 13 after the body AT THE FIRST POINT: the one store of the sequence encoder's value of windows 0, 7, 8, 9, 10. -/
def out0_13 (x0 : Vec F S1024x1280 .f32) (x7 : Vec F S1280x128 .f32) (x8 : Vec F S1x128 .f32) (x9 : Vec F S128x128 .f32) (x10 : Vec F S1x128 .f32) : Vec F S1024x128 .f32 :=
  View.canon [⟨rw_S1024x128, k0_pay1 (View.ld x0 rw_S1024x1280) (View.ld x7 rw_S1280x128) (View.ld x8 rw_S1x128) (View.ld x9 rw_S128x128) (View.ld x10 rw_S1x128)⟩]

/-- One whole-buffer store covers the buffer. -/
theorem cover0_11 (p0 : Vec F S2000x64 .f32) (y : S2000x64.Idx) :
    ∃ pc ∈ ([⟨rw_S2000x64, p0⟩] : List (View.Piece (Elt F) S2000x64 .f32)), y ∈ pc.1.set :=
  View.cover_of_tiled [⟨rw_S2000x64, p0⟩] S2000x64.size (by rfl) y
theorem cover0_12 (p0 : Vec F S2000x128 .bf16) (y : S2000x128.Idx) :
    ∃ pc ∈ ([⟨rw_S2000x128, p0⟩] : List (View.Piece (Elt F) S2000x128 .bf16)), y ∈ pc.1.set :=
  View.cover_of_tiled [⟨rw_S2000x128, p0⟩] S2000x128.size (by rfl) y
theorem cover0_13 (p0 : Vec F S1024x128 .f32) (y : S1024x128.Idx) :
    ∃ pc ∈ ([⟨rw_S1024x128, p0⟩] : List (View.Piece (Elt F) S1024x128 .f32)), y ∈ pc.1.set :=
  View.cover_of_tiled [⟨rw_S1024x128, p0⟩] S1024x128.size (by rfl) y

/-! ## The body's triples: the first point (the encoder runs) and the later points (it does not) -/

set_option maxHeartbeats 4000000 in
/-- At a point where the branch is taken the body, on whole staging memrefs with the inputs at `xW` and the outputs at
    anything, returns with the inputs as they were and the three outputs at `out0_11`, `out0_12`, `out0_13`. -/
theorem sound_kernel0_first (c : Dev nD) (E : Set ℕ) (i : grid0.Coords) (hc : k0_cond1 i = 1#1) (arg1 : Memref sig .tc .vmem S1024x1280 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x128 .f32) (harg7 : arg7.IsWhole) (arg8 : Memref sig .tc .vmem S1280x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S2000x64 .f32) (harg12 : arg12.IsWhole) (arg13 : Memref sig .tc .vmem S2000x128 .bf16) (harg13 : arg13.IsWhole) (arg14 : Memref sig .tc .vmem S1024x128 .f32) (harg14 : arg14.IsWhole)
    (x0 : Vec F S1024x1280 .f32) (x1 : Vec F S2000x128 .f32) (x2 : Vec F S128x128 .f32) (x3 : Vec F S1x128 .f32) (x4 : Vec F S128x64 .f32) (x5 : Vec F S1x64 .f32) (x6 : Vec F S128x128 .f32) (x7 : Vec F S1280x128 .f32) (x8 : Vec F S1x128 .f32) (x9 : Vec F S128x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x1 x2 x3 x4 x5) ∗ owns (c : Thread nD τ) arg13 fullShare (out0_12 x1 x6) ∗ owns (c : Thread nD τ) arg14 fullShare (out0_13 x0 x7 x8 x9 x10)) -∗ K ⟨⟩))
      ⊢ wp frame (wpE (defs₀ (F := F)) Variants.none c none) E (cc0__go_prep_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__go_prep_kernel_eq_skeleton]; unfold cc0__go_prep_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0; subst hf1; subst hf2; subst hf3; subst hf4; subst hf5; subst hf6; subst hf7; subst hf8; subst hf9; subst hf10
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

set_option maxHeartbeats 4000000 in
/-- At a point where the branch is not taken the body never touches window 13's memref: with the inputs at `xW` and the
    outputs 11 and 12 at anything it returns with the inputs as they were and those two at `out0_11`, `out0_12`. -/
theorem sound_kernel0_later (c : Dev nD) (E : Set ℕ) (i : grid0.Coords) (hc : ¬ k0_cond1 i = 1#1) (arg1 : Memref sig .tc .vmem S1024x1280 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S128x128 .f32) (harg7 : arg7.IsWhole) (arg8 : Memref sig .tc .vmem S1280x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S2000x64 .f32) (harg12 : arg12.IsWhole) (arg13 : Memref sig .tc .vmem S2000x128 .bf16) (harg13 : arg13.IsWhole) (arg14 : Memref sig .tc .vmem S1024x128 .f32) (harg14 : arg14.IsWhole)
    (x0 : Vec F S1024x1280 .f32) (x1 : Vec F S2000x128 .f32) (x2 : Vec F S128x128 .f32) (x3 : Vec F S1x128 .f32) (x4 : Vec F S128x64 .f32) (x5 : Vec F S1x64 .f32) (x6 : Vec F S128x128 .f32) (x7 : Vec F S1280x128 .f32) (x8 : Vec F S1x128 .f32) (x9 : Vec F S128x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x1 x2 x3 x4 x5) ∗ owns (c : Thread nD τ) arg13 fullShare (out0_12 x1 x6)) -∗ K ⟨⟩))
      ⊢ wp frame (wpE (defs₀ (F := F)) Variants.none c none) E (cc0__go_prep_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__go_prep_kernel_eq_skeleton]; unfold cc0__go_prep_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0; subst hf1; subst hf2; subst hf3; subst hf4; subst hf5; subst hf6; subst hf7; subst hf8; subst hf9; subst hf10
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

end Cert.KernelIdeal.Gen

end
-- ==== Proof.KI.Reg0.lean ====
/-
  Region 0's proof data and its body obligation.

  Window 13's block index never moves and its buffer is stored only at the first grid point; the later points leave it
  alone and the last one writes it back. So what each later point's body finds there is what the first point left,
  and that is what the write-back after the last point carries to the array.
-/
import proofs.«100263_g58042188038559_cont_9to1c4b_174_21_alg».proof.Proof.KI.Reg0Body

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- Region 0's proof data on core `c`: the arrays as the region finds them; after the body each input's buffer still at
    its block, windows 11 and 12 at the body's values of the point's blocks, window 13 at the encoder's value of the
    first point's blocks AT EVERY POINT (stored at the first, untouched afterwards); the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 1 t) (iblk0 V c 2 t) (iblk0 V c 3 t) (iblk0 V c 4 t) (iblk0 V c 5 t)
    | ⟨12, _⟩ => out0_12 (iblk0 V c 1 t) (iblk0 V c 6 t)
    | ⟨13, _⟩ => out0_13 (iblk0 V c 0 t0_0) (iblk0 V c 7 t0_0) (iblk0 V c 8 t0_0) (iblk0 V c 9 t0_0) (iblk0 V c 10 t0_0)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 1 t) (iblk0 V c 2 t) (iblk0 V c 3 t) (iblk0 V c 4 t) (iblk0 V c 5 t) := by dsimp only [dat0]
theorem after0_12 (c : Dev nD) (t : Fin cfg0.N) : (dat0 V c).after 12 t = out0_12 (iblk0 V c 1 t) (iblk0 V c 6 t) := by dsimp only [dat0]
theorem after0_13 (c : Dev nD) (t : Fin cfg0.N) : (dat0 V c).after 13 t = out0_13 (iblk0 V c 0 t0_0) (iblk0 V c 7 t0_0) (iblk0 V c 8 t0_0) (iblk0 V c 9 t0_0) (iblk0 V c 10 t0_0) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## Window 13's buffer at the later points: what the first point stored

Nothing fetches, writes back or stores into window 13's buffer between the first point's body and the last point's:
each later body finds what the point before it left, and the first left the encoder's value. -/

theorem before0_13_1 (c : Dev nD) (d) : (dat0 V c).before 13 t0_1 d = (dat0 V c).after 13 t0_0 := by
  rw [(dat0 V c).before_of_pos 13 t0_1 (by decide) rfl d]
  rw [if_neg (by decide)]
  unfold Dat.left
  rw [show cfg0.idle 13 (cfg0.grid.coords ⟨t0_1.val - 1, Nat.lt_of_le_of_lt (Nat.sub_le _ _) t0_1.isLt⟩) = false from by decide]
  show (dat0 V c).kept 13 t0_0 d = _
  unfold Dat.kept
  rw [Pipeline.fill_of_clip_none (cfg := cfg0) 13 _ (fun _ => rfl) d ((dat0 V c).after 13 t0_0) _, Window.fill_cut]

theorem before0_13_2 (c : Dev nD) (d) : (dat0 V c).before 13 t0_2 d = (dat0 V c).before 13 t0_1 d := by
  rw [(dat0 V c).before_of_pos 13 t0_2 (by decide) rfl d]
  rw [if_neg (by decide)]
  unfold Dat.left
  rw [show cfg0.idle 13 (cfg0.grid.coords ⟨t0_2.val - 1, Nat.lt_of_le_of_lt (Nat.sub_le _ _) t0_2.isLt⟩) = true from by decide]
  rfl

theorem before0_13_3 (c : Dev nD) (d) : (dat0 V c).before 13 t0_3 d = (dat0 V c).before 13 t0_2 d := by
  rw [(dat0 V c).before_of_pos 13 t0_3 (by decide) rfl d]
  rw [if_neg (by decide)]
  unfold Dat.left
  rw [show cfg0.idle 13 (cfg0.grid.coords ⟨t0_3.val - 1, Nat.lt_of_le_of_lt (Nat.sub_le _ _) t0_3.isLt⟩) = true from by decide]
  rfl

theorem before0_13_4 (c : Dev nD) (d) : (dat0 V c).before 13 t0_4 d = (dat0 V c).after 13 t0_4 := by
  rw [(dat0 V c).before_of_pos 13 t0_4 (by decide) rfl d]
  rw [if_neg (by decide)]
  unfold Dat.left
  rw [show cfg0.idle 13 (cfg0.grid.coords ⟨t0_4.val - 1, Nat.lt_of_le_of_lt (Nat.sub_le _ _) t0_4.isLt⟩) = true from by decide]
  show (dat0 V c).before 13 t0_3 d = _
  rw [before0_13_3, before0_13_2, before0_13_1, after0_13, after0_13]

/-! ## The body obligation -/

/-- What the body is called with at point `t`: the invariant, nothing owed, every window's current buffer at what the
    pipeline's transfers and the earlier points left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- What it returns: windows 0 to 12 at their stated contents, window 13's part `P13` stated per point. -/
def bodyPost0 (c : Dev nD) (t : Fin cfg0.N) (P13 : sProp 𝕄) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ P13)

set_option maxHeartbeats 1000000 in
/-- The first point: the branch is taken, and window 13's buffer ends at the encoder's value. -/
theorem sound_body0_first (c : Dev nD) :
    bodyPre0 V c t0_0 ⊢ wp frame (wpE (defs₀ (F := F)) Variants.none c none) Set.univ (bodyAt0 t0_0)
      (fun _ => bodyPost0 V c t0_0 (owns (c : Thread nD τ) (st0_13 t0_0) fullShare ((dat0 V c).after 13 t0_0))) := by
  unfold bodyPre0 bodyPost0 bodyAt0
  simp only [before0_0, before0_1, before0_2, before0_3, before0_4, before0_5, before0_6, before0_7, before0_8, before0_9, before0_10]
  rw [show (dat0 V c).Φ t0_0.succ = (dat0 V c).Φ t0_0.castSucc from rfl,
    show (dat0 V c).owesAt () t0_0.succ = (dat0 V c).owesAt () t0_0.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0_first c Set.univ (grid0.coords t0_0) (by decide) _ _ _ _ _ _ _ _ _ _ _ _ _ _ _ _ _ _ _ _ _ _ _ _ _ _ _ _ (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) (iblk0 V c 10 t0_0) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option maxHeartbeats 1000000 in
/-- A later point: the branch is not taken; window 13's buffer comes back as it was found, and `h13` says what the
    obligation makes of that at this point. -/
theorem sound_body0_later (c : Dev nD) (t : Fin cfg0.N) (hc : ¬ k0_cond1 (grid0.coords t) = 1#1) (P13 : sProp 𝕄)
    (h13 : ∀ d, owns (c : Thread nD τ) (st0_13 t) fullShare ((dat0 V c).before 13 t d) ⊢ P13) :
    bodyPre0 V c t ⊢ wp frame (wpE (defs₀ (F := F)) Variants.none c none) Set.univ (bodyAt0 t)
      (fun _ => bodyPost0 V c t P13) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0_later c Set.univ (grid0.coords t) hc _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (h13 d13)
  iexact H13

set_option maxHeartbeats 2000000 in
/-- The obligation the pipeline asks of the body, at each of the five points: the first stores window 13, the three
    middle ones hand it back as found, and the last hands it back at the first point's value, which is what the
    write-back then carries. -/
theorem body_obligation0 (c : Dev nD) : BodyObligation (dat0 (F := F) V c) (defs₀ (F := F)) Variants.none () Set.univ := fun t => by
  rw [bigSep_W0, bigSep_W0]
  rcases fin_N0 t with rfl | rfl | rfl | rfl | rfl
  · exact sound_body0_first V c
  · exact sound_body0_later V c t0_1 (by decide) _ (fun d => by
      show _ ⊢ iprop(∃ d', owns (c : Thread nD τ) (st0_13 t0_1) fullShare ((dat0 V c).before 13 t0_1 d'))
      iintro H; iexists d; iexact H)
  · exact sound_body0_later V c t0_2 (by decide) _ (fun d => by
      show _ ⊢ iprop(∃ d', owns (c : Thread nD τ) (st0_13 t0_2) fullShare ((dat0 V c).before 13 t0_2 d'))
      iintro H; iexists d; iexact H)
  · exact sound_body0_later V c t0_3 (by decide) _ (fun d => by
      show _ ⊢ iprop(∃ d', owns (c : Thread nD τ) (st0_13 t0_3) fullShare ((dat0 V c).before 13 t0_3 d'))
      iintro H; iexists d; iexact H)
  · exact sound_body0_later V c t0_4 (by decide) (owns (c : Thread nD τ) (st0_13 t0_4) fullShare ((dat0 V c).after 13 t0_4))
      (fun d => by rw [before0_13_4])

end Cert.KernelIdeal.Gen

end
-- ==== Proof.KI.Reg1.lean ====
/- Region 1 of @main (the first sparse product, `cc1__spmm1_kernel`, 25 grid points), at arbitrary
   region-entry contents `V`: the block each window shows the body at a point, the contents the body
   leaves in the output window's buffer as a function of the input blocks, the body's triple, and the
   pipeline's proof data with its body obligation.
   Windows: 0 = a 400-row tile of the adjacency matrix, 1..3 = three operands held whole,
   4 = the 400x64 output tile (bf16). -/
import proofs.«100263_g58042188038559_cont_9to1c4b_174_21_alg».proof.Proof.Gen.KernelIdeal.Launch
import proofs.«100263_g58042188038559_cont_9to1c4b_174_21_alg».proof.Proof.Gen.KernelIdeal.Skeleton
import proofs.«100263_g58042188038559_cont_9to1c4b_174_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block window `w` presents at grid point `t`: its array, as the region finds it, read through
    the window's view at that point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's buffer holds the tile of the current point, for any proof data over `V`'s array
    whose body leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- A whole operand is copied in once, at the first point; at later points its block index is unchanged, so
    the buffer still holds the block. Window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same for window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through: each is its whole buffer -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S1x128 := Rect.unit (s := S1x128) ![0, 0] S1x128.size inb_S1x128_S1x128_0_0
abbrev r1_3 : Rect S128x64 := Rect.unit (s := S128x64) ![0, 0] S128x64.size inb_S128x64_S128x64_0_0
abbrev r1_4 : Rect S400x64 := Rect.unit (s := S400x64) ![0, 0] S400x64.size inb_S400x64_S400x64_0_0

/-! ## The output buffer after the body -/

/-- The output tile's buffer after the body, from the four input blocks: the body's single store, over the
    whole buffer, of the payload computed from what the four loads read. -/
def out1_4 (x0 : Vec F S400x10000 .f32) (x1 : Vec F S10000x128 .bf16) (x2 : Vec F S1x128 .f32) (x3 : Vec F S128x64 .f32) : Vec F S400x64 .bf16 :=
  View.canon [⟨r1_4, k1_pay1 (View.ld x0 r1_0) (View.ld x1 r1_1) (View.ld x2 r1_2) (View.ld x3 r1_3)⟩]

/-- That one store reaches every element of the buffer. -/
theorem cover1_4 (p0 : Vec F S400x64 .bf16) (y : S400x64.Idx) :
    ∃ pc ∈ ([⟨r1_4, p0⟩] : List (View.Piece (Elt F) S400x64 .bf16)), y ∈ pc.1.set :=
  View.cover_of_tiled [⟨r1_4, p0⟩] S400x64.size (by rfl) y

/-! ## The body's triple -/

set_option maxHeartbeats 1000000 in
/-- Run on whole buffers, the inputs' reading `x0 … x3` and the output's holding anything, the body ends with
    the inputs' unchanged and the output's reading `out1_4 x0 x1 x2 x3`. The body also loads the output buffer
    before storing to it; the loaded value is not used, so any contents will do there. -/
theorem sound_kernel1 (c : Dev nD) (E : Set ℕ) (i : grid1.Coords) (arg1 : Memref sig .tc .vmem S400x10000 .f32) (harg1 : arg1.IsWhole) (arg2 : Memref sig .tc .vmem S10000x128 .bf16) (harg2 : arg2.IsWhole) (arg3 : Memref sig .tc .vmem S1x128 .f32) (harg3 : arg3.IsWhole) (arg4 : Memref sig .tc .vmem S128x64 .f32) (harg4 : arg4.IsWhole) (arg5 : Memref sig .tc .vmem S400x64 .bf16) (harg5 : arg5.IsWhole)
    (x0 : Vec F S400x10000 .f32) (x1 : Vec F S10000x128 .bf16) (x2 : Vec F S1x128 .f32) (x3 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__spmm1_kernel i arg1 harg1 arg2 harg2 arg3 harg3 arg4 harg4 arg5 harg5) K := by
  simp only [cc1__spmm1_kernel_eq_skeleton]; unfold cc1__spmm1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- Region 1's proof data on core `c`: arrays as found (`V`); after the body at `t`, every input buffer at its
    block and the output buffer at `out1_4` of the input blocks; the invariant is the plain one (scoped rest and
    generator register untouched); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- What the body finds in each input buffer: the window's block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- The resources the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and the resources it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the input buffers hold their blocks, so the body's triple applies; the invariant and what the
    core owes are carried across unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Reg2.lean ====
/- Region 2 of @main (the second sparse product, `cc2__spmm2_kernel`, 25 grid points), at arbitrary
   region-entry contents `V`: the block each window shows the body at a point, the contents the body
   leaves in the output window's buffer as a function of the input blocks, the body's triple, and the
   pipeline's proof data with its body obligation.
   Windows: 0 = a 400-row tile of the adjacency matrix, 1 and 2 = two operands held whole,
   3 = the 400x64 output tile (f32). -/
import proofs.«100263_g58042188038559_cont_9to1c4b_174_21_alg».proof.Proof.Gen.KernelIdeal.Launch
import proofs.«100263_g58042188038559_cont_9to1c4b_174_21_alg».proof.Proof.Gen.KernelIdeal.Skeleton
import proofs.«100263_g58042188038559_cont_9to1c4b_174_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block window `w` presents at grid point `t`: its array, as the region finds it, read through
    the window's view at that point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency tile's buffer holds the tile of the current point, for any proof data over `V`'s array
    whose body leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- A whole operand is copied in once, at the first point; at later points its block index is unchanged, so
    the buffer still holds the block. Window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through: each is its whole buffer -/

abbrev r2_0 : Rect S400x10000 := Rect.unit (s := S400x10000) ![0, 0] S400x10000.size inb_S400x10000_S400x10000_0_0
abbrev r2_1 : Rect S10000x64 := Rect.unit (s := S10000x64) ![0, 0] S10000x64.size inb_S10000x64_S10000x64_0_0
abbrev r2_2 : Rect S1x64 := Rect.unit (s := S1x64) ![0, 0] S1x64.size inb_S1x64_S1x64_0_0
abbrev r2_3 : Rect S400x64 := Rect.unit (s := S400x64) ![0, 0] S400x64.size inb_S400x64_S400x64_0_0

/-! ## The output buffer after the body -/

/-- The output tile's buffer after the body, from the three input blocks: the body's single store, over the
    whole buffer, of the payload computed from what the three loads read. -/
def out2_3 (x0 : Vec F S400x10000 .f32) (x1 : Vec F S10000x64 .bf16) (x2 : Vec F S1x64 .f32) : Vec F S400x64 .f32 :=
  View.canon [⟨r2_3, k2_pay1 (View.ld x0 r2_0) (View.ld x1 r2_1) (View.ld x2 r2_2)⟩]

/-- That one store reaches every element of the buffer. -/
theorem cover2_3 (p0 : Vec F S400x64 .f32) (y : S400x64.Idx) :
    ∃ pc ∈ ([⟨r2_3, p0⟩] : List (View.Piece (Elt F) S400x64 .f32)), y ∈ pc.1.set :=
  View.cover_of_tiled [⟨r2_3, p0⟩] S400x64.size (by rfl) y

/-! ## The body's triple -/

set_option maxHeartbeats 1000000 in
/-- Run on whole buffers, the inputs' reading `x0 x1 x2` and the output's holding anything, the body ends with
    the inputs' unchanged and the output's reading `out2_3 x0 x1 x2`. The body also loads the output buffer
    before storing to it; the loaded value is not used, so any contents will do there. -/
theorem sound_kernel2 (c : Dev nD) (E : Set ℕ) (i : grid2.Coords) (arg1 : Memref sig .tc .vmem S400x10000 .f32) (harg1 : arg1.IsWhole) (arg2 : Memref sig .tc .vmem S10000x64 .bf16) (harg2 : arg2.IsWhole) (arg3 : Memref sig .tc .vmem S1x64 .f32) (harg3 : arg3.IsWhole) (arg4 : Memref sig .tc .vmem S400x64 .f32) (harg4 : arg4.IsWhole)
    (x0 : Vec F S400x10000 .f32) (x1 : Vec F S10000x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__spmm2_kernel i arg1 harg1 arg2 harg2 arg3 harg3 arg4 harg4) K := by
  simp only [cc2__spmm2_kernel_eq_skeleton]; unfold cc2__spmm2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- Region 2's proof data on core `c`: arrays as found (`V`); after the body at `t`, every input buffer at its
    block and the output buffer at `out2_3` of the input blocks; the invariant is the plain one (scoped rest and
    generator register untouched); full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- What the body finds in each input buffer: the window's block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- The resources the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and the resources it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At any point the input buffers hold their blocks, so the body's triple applies; the invariant and what the
    core owes are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Reg3.lean ====
/- Region 3 of @main (the pairwise scores, `cc3__pred_kernel`, 4 grid points), at arbitrary
   region-entry contents `V`: the block each window shows the body at a point, the contents the body
   leaves in the output window's buffer as a function of the input blocks, the body's triple, and the
   pipeline's proof data with its body obligation.
   Windows: 0 = a 256-row tile of a 128-column array, of which the body reads the left 64 columns and
   the right 64 columns separately; 1 and 2 = two 10000x64 operands held whole; 3 = the 256x10000
   output tile. -/
import proofs.«100263_g58042188038559_cont_9to1c4b_174_21_alg».proof.Proof.Gen.KernelIdeal.Launch
import proofs.«100263_g58042188038559_cont_9to1c4b_174_21_alg».proof.Proof.Gen.KernelIdeal.Skeleton
import proofs.«100263_g58042188038559_cont_9to1c4b_174_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block window `w` presents at grid point `t`: its array, as the region finds it, read through
    the window's view at that point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row tile's buffer holds the tile of the current point, for any proof data over `V`'s array whose body
    leaves that buffer alone. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- A whole operand is copied in once, at the first point; at later points its block index is unchanged, so
    the buffer still holds the block. Window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The same for window 2. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes through -/

/-- Columns 0..63 of the row tile. -/
abbrev r3_0l : Rect S256x128 := Rect.unit (s := S256x128) ![0, 0] S256x64.size inb_S256x128_S256x64_0_0
/-- Columns 64..127 of the row tile. -/
abbrev r3_0r : Rect S256x128 := Rect.unit (s := S256x128) ![0, 64] S256x64.size inb_S256x128_S256x64_0_64
/-- A whole 10000x64 operand (windows 1 and 2 alike). -/
abbrev r3_1 : Rect S10000x64 := Rect.unit (s := S10000x64) ![0, 0] S10000x64.size inb_S10000x64_S10000x64_0_0
/-- The whole output tile. -/
abbrev r3_3 : Rect S256x10000 := Rect.unit (s := S256x10000) ![0, 0] S256x10000.size inb_S256x10000_S256x10000_0_0

/-! ## The output buffer after the body -/

/-- The output tile's buffer after the body, from the three input blocks: the body's single store, over the
    whole buffer, of the payload computed from the left half of the row tile, the first whole operand, the right
    half of the row tile and the second whole operand, in the order the body loads them. -/
def out3_3 (x0 : Vec F S256x128 .f32) (x1 : Vec F S10000x64 .f32) (x2 : Vec F S10000x64 .f32) : Vec F S256x10000 .f32 :=
  View.canon [⟨r3_3, k3_pay1 (View.ld x0 r3_0l) (View.ld x1 r3_1) (View.ld x0 r3_0r) (View.ld x2 r3_1)⟩]

/-- That one store reaches every element of the buffer. -/
theorem cover3_3 (p0 : Vec F S256x10000 .f32) (y : S256x10000.Idx) :
    ∃ pc ∈ ([⟨r3_3, p0⟩] : List (View.Piece (Elt F) S256x10000 .f32)), y ∈ pc.1.set :=
  View.cover_of_tiled [⟨r3_3, p0⟩] S256x10000.size (by rfl) y

/-! ## The body's triple -/

set_option maxHeartbeats 1000000 in
/-- Run on whole buffers, the inputs' reading `x0 x1 x2` and the output's holding anything, the body ends with
    the inputs' unchanged and the output's reading `out3_3 x0 x1 x2`. The body also loads the output buffer
    before storing to it; the loaded value is not used, so any contents will do there. -/
theorem sound_kernel3 (c : Dev nD) (E : Set ℕ) (i : grid3.Coords) (arg1 : Memref sig .tc .vmem S256x128 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S256x10000 .f32) (harg4 : arg4.IsWhole)
    (x0 : Vec F S256x128 .f32) (x1 : Vec F S10000x64 .f32) (x2 : Vec F S10000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__pred_kernel i arg1 harg1 arg2 harg2 arg3 harg3 arg4 harg4) K := by
  simp only [cc3__pred_kernel_eq_skeleton]; unfold cc3__pred_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The proof data -/

/-- Region 3's proof data on core `c`: arrays as found (`V`); after the body at `t`, every input buffer at its
    block and the output buffer at `out3_3` of the input blocks; the invariant is the plain one (scoped rest and
    generator register untouched); full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, one window at a time. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- What the body finds in each input buffer: the window's block at the point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- The resources the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and the resources it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- At any point the input buffers hold their blocks, so the body's triple applies; the invariant and what the
    core owes are carried across unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Run.lean ====
/-
  The whole run of the program: six host reshapes, then the four pipelined regions in order.

  The buffers' contents are followed from the launch through every segment boundary: a host stretch leaves its
  operations' results, a region leaves each of its windows' arrays at what its write-backs put there and every other
  buffer alone. The run theorem states every unscoped buffer's final contents, from which both the frame (the fifteen
  arguments end as launched) and the results' values are read.
-/
import proofs.«100263_g58042188038559_cont_9to1c4b_174_21_alg».proof.Proof.KI.Reg0
import proofs.«100263_g58042188038559_cont_9to1c4b_174_21_alg».proof.Proof.KI.Reg1
import proofs.«100263_g58042188038559_cont_9to1c4b_174_21_alg».proof.Proof.KI.Reg2
import proofs.«100263_g58042188038559_cont_9to1c4b_174_21_alg».proof.Proof.KI.Reg3
import proofs.«100263_g58042188038559_cont_9to1c4b_174_21_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev B0 : Dev nD → Valuation τ sig (Elt F) := fun c b => (s₀ m ρ).mem ((c : Dev nD), b)
/-- After the six reshapes of the bias vectors (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- At region 0's exit: its windows' arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem exitArr0 (c : Dev nD) (w : Fin cfg0.W) : (dat0 (E1 m ρ) c).arrAt w cfg0.N = E2 m ρ c (Pipeline.arrRef spec0 w) :=
  (B2_arr m ρ c w).symm
theorem exitRest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- Region 0 changes only its output arrays (`main_v6_0`, `main_v6_1`, `main_v6_2`): an input window's array is never written back, and a
    buffer that is no window's array is not touched. -/
theorem B2_keep (c : Dev nD) (b : Ref sig .tc) (hb : b ∉ ([main_v6_0, main_v6_1, main_v6_2] : List (Ref sig .tc))) :
    B2 m ρ c (Proc.devRef .tc b) = B1 m ρ c (Proc.devRef .tc b) := by
  by_cases h : ∃ w, Pipeline.arrRef spec0 w = b
  · obtain ⟨w, rfl⟩ := h
    have hw : (cfg0.win w).isOut = false := by
      revert hb; revert w; decide
    exact (B2_arr m ρ c w).trans (((dat0 (E1 m ρ) c).arrAt_in w hw _).trans (A_eq0 (E1 m ρ) c w))
  · exact B2_of_ne m ρ c b fun w e => h ⟨w, e⟩

/-- At region 1's exit: its windows' arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem exitArr1 (c : Dev nD) (w : Fin cfg1.W) : (dat1 (E2 m ρ) c).arrAt w cfg1.N = E3 m ρ c (Pipeline.arrRef spec1 w) :=
  (B3_arr m ρ c w).symm
theorem exitRest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)
/-- Region 1 changes only its output arrays (`main_v7`): an input window's array is never written back, and a
    buffer that is no window's array is not touched. -/
theorem B3_keep (c : Dev nD) (b : Ref sig .tc) (hb : b ∉ ([main_v7] : List (Ref sig .tc))) :
    B3 m ρ c (Proc.devRef .tc b) = B2 m ρ c (Proc.devRef .tc b) := by
  by_cases h : ∃ w, Pipeline.arrRef spec1 w = b
  · obtain ⟨w, rfl⟩ := h
    have hw : (cfg1.win w).isOut = false := by
      revert hb; revert w; decide
    exact (B3_arr m ρ c w).trans (((dat1 (E2 m ρ) c).arrAt_in w hw _).trans (A_eq1 (E2 m ρ) c w))
  · exact B3_of_ne m ρ c b fun w e => h ⟨w, e⟩

/-- At region 2's exit: its windows' arrays at what the pipeline leaves, every other buffer as entered. -/
def B4 (c : Dev nD) : Valuation τ sig (Elt F) :=
  Pipeline.withArrays spec2 c (B3 m ρ c) fun w => (dat2 (E3 m ρ) c).arrAt w cfg2.N
theorem B4_arr (c : Dev nD) (w : Fin cfg2.W) :
    B4 m ρ c (Proc.devRef .tc (Pipeline.arrRef spec2 w)) = (dat2 (E3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev E4 : (c : Dev nD) → (b : Ref sig .tc) → Buf (Elt F) ((c : Thread nD τ).loc b) := fun c b => B4 m ρ c b
theorem exitArr2 (c : Dev nD) (w : Fin cfg2.W) : (dat2 (E3 m ρ) c).arrAt w cfg2.N = E4 m ρ c (Pipeline.arrRef spec2 w) :=
  (B4_arr m ρ c w).symm
theorem exitRest2 (c : Dev nD) : ∀ b, b ∉ Finset.univ.image (Pipeline.arrRef spec2) → E4 m ρ c b = E3 m ρ c b :=
  fun b hb => B4_of_ne m ρ c b fun w e => hb (Finset.mem_image.mpr ⟨w, Finset.mem_univ _, e⟩)
/-- Region 2 changes only its output arrays (`main_v8`): an input window's array is never written back, and a
    buffer that is no window's array is not touched. -/
theorem B4_keep (c : Dev nD) (b : Ref sig .tc) (hb : b ∉ ([main_v8] : List (Ref sig .tc))) :
    B4 m ρ c (Proc.devRef .tc b) = B3 m ρ c (Proc.devRef .tc b) := by
  by_cases h : ∃ w, Pipeline.arrRef spec2 w = b
  · obtain ⟨w, rfl⟩ := h
    have hw : (cfg2.win w).isOut = false := by
      revert hb; revert w; decide
    exact (B4_arr m ρ c w).trans (((dat2 (E3 m ρ) c).arrAt_in w hw _).trans (A_eq2 (E3 m ρ) c w))
  · exact B4_of_ne m ρ c b fun w e => h ⟨w, e⟩

/-- At region 3's exit: its windows' arrays at what the pipeline leaves, every other buffer as entered. -/
def B5 (c : Dev nD) : Valuation τ sig (Elt F) :=
  Pipeline.withArrays spec3 c (B4 m ρ c) fun w => (dat3 (E4 m ρ) c).arrAt w cfg3.N
theorem B5_arr (c : Dev nD) (w : Fin cfg3.W) :
    B5 m ρ c (Proc.devRef .tc (Pipeline.arrRef spec3 w)) = (dat3 (E4 m ρ) c).arrAt w cfg3.N := by
  unfold B5; exact Pipeline.withArrays_arr spec3 launch3.win.arr_inj c _ _ w
theorem B5_of_ne (c : Dev nD) (b : Ref sig .tc) (hb : ∀ w, Pipeline.arrRef spec3 w ≠ b) :
    B5 m ρ c (Proc.devRef .tc b) = B4 m ρ c (Proc.devRef .tc b) := by
  unfold B5; exact Pipeline.withArrays_of_ne spec3 c _ _ b hb
abbrev E5 : (c : Dev nD) → (b : Ref sig .tc) → Buf (Elt F) ((c : Thread nD τ).loc b) := fun c b => B5 m ρ c b
theorem exitArr3 (c : Dev nD) (w : Fin cfg3.W) : (dat3 (E4 m ρ) c).arrAt w cfg3.N = E5 m ρ c (Pipeline.arrRef spec3 w) :=
  (B5_arr m ρ c w).symm
theorem exitRest3 (c : Dev nD) : ∀ b, b ∉ Finset.univ.image (Pipeline.arrRef spec3) → E5 m ρ c b = E4 m ρ c b :=
  fun b hb => B5_of_ne m ρ c b fun w e => hb (Finset.mem_image.mpr ⟨w, Finset.mem_univ _, e⟩)
/-- Region 3 changes only its output arrays (`main_v9`): an input window's array is never written back, and a
    buffer that is no window's array is not touched. -/
theorem B5_keep (c : Dev nD) (b : Ref sig .tc) (hb : b ∉ ([main_v9] : List (Ref sig .tc))) :
    B5 m ρ c (Proc.devRef .tc b) = B4 m ρ c (Proc.devRef .tc b) := by
  by_cases h : ∃ w, Pipeline.arrRef spec3 w = b
  · obtain ⟨w, rfl⟩ := h
    have hw : (cfg3.win w).isOut = false := by
      revert hb; revert w; decide
    exact (B5_arr m ρ c w).trans (((dat3 (E4 m ρ) c).arrAt_in w hw _).trans (A_eq3 (E4 m ρ) c w))
  · exact B5_of_ne m ρ c b fun w e => h ⟨w, e⟩

/-- No reshape writes anything but its own result. -/
theorem B1_keep (c : Dev nD) (b : Ref sig .tc) (hb : b ∉ ([main_v0, main_v1, main_v2, main_v3, main_v4, main_v5] : List (Ref sig .tc))) :
    B1 m ρ c (Proc.devRef .tc b) = B0 m ρ c (Proc.devRef .tc b) :=
  V1_of m c b hb

/-! ## The proof data of the four pipelines and what rides beside the buffers -/

/-- No pipeline has a prefetched table. -/
abbrev noTables : (p : Fin 4) → (pcfgs (F := F) p).Adm := fun p => (cfgs p).toPCfg_adm
/-- Each pipeline's proof data at its region's entry contents. -/
def allDats : (p : Fin 4) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E2 m ρ) c
  | ⟨2, _⟩ => fun c => dat2 (E3 m ρ) c
  | ⟨3, _⟩ => fun c => dat3 (E4 m ρ) c
abbrev noVariants : Variants := Variants.none
/-- No core waits on another: no level is assigned. -/
abbrev noLevels : GSem nD τ sig → Finset Unit := fun _ => ∅
abbrev noLv : GSem nD τ sig → Unit → ℕ := fun _ _ => 0
/-- Beside the buffers every segment carries the core's generator register, at some state, and that it owes nothing. -/
abbrev rider (c : Dev nD) : sProp 𝕄 := iprop((∃ r, prngReg c r) ∗ ∃ W, owes (c : Thread nD τ) (0 : CellTallies nD τ sig Unit) W)
/-- The host stretch as a segment over the unscoped buffers. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider
/-- A reshape allocates nothing. -/
theorem reshapes_fresh : (hostOps0 : List (HloOp τ sig (Elt F))).Forall fun op => op.fresh = ∅ := by
  simp only [List.Forall]; repeat' constructor
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what is owed: every unscoped buffer at the final contents, the generator register. -/
abbrev lastState (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- Region 0 as a segment of the run: entered with every unscoped buffer at `B1`, left with them at `B2`. Its
    windows' arrays are split out of the unscoped buffers on entry and put back at their final contents on exit; the
    generator register rides through the class invariant; nothing is owed; the kernel has no semaphore of its own. -/
def region0 : Pipeline.RegionSeg (pcfgs (F := F)) noTables (allDats m ρ) () defs₀ noVariants noLevels noLv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ noLevels noLv 0 fun _ _ => rfl
  pre c := iprop(StableHlo.held (c : Thread nD τ) (Pipeline.ucRefs τ sig) (B1 m ρ c) ∗ rider c)
  post c := iprop(StableHlo.held (c : Thread nD τ) (Pipeline.ucRefs τ sig) (B2 m ρ c) ∗ rider c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (allDats m ρ) launch0.win launch0.arr_whole c
      ((allDats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (allDats m ρ) ((allDats m ρ 0 c).share_full fun _ => rfl)
      (E1 m ρ c) (E2 m ρ c) ((allDats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at `B2`, left with them at `B3`. Its
    windows' arrays are split out of the unscoped buffers on entry and put back at their final contents on exit; the
    generator register rides through the class invariant; nothing is owed; the kernel has no semaphore of its own. -/
def region1 : Pipeline.RegionSeg (pcfgs (F := F)) noTables (allDats m ρ) () defs₀ noVariants noLevels noLv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ noLevels noLv 1 fun _ _ => rfl
  pre c := iprop(StableHlo.held (c : Thread nD τ) (Pipeline.ucRefs τ sig) (B2 m ρ c) ∗ rider c)
  post c := iprop(StableHlo.held (c : Thread nD τ) (Pipeline.ucRefs τ sig) (B3 m ρ c) ∗ rider c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) noTables (allDats m ρ) launch1.win launch1.arr_whole c
      ((allDats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (allDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (allDats m ρ) ((allDats m ρ 1 c).share_full fun _ => rfl)
      (E2 m ρ c) (E3 m ρ c) ((allDats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at `B3`, left with them at `B4`. Its
    windows' arrays are split out of the unscoped buffers on entry and put back at their final contents on exit; the
    generator register rides through the class invariant; nothing is owed; the kernel has no semaphore of its own. -/
def region2 : Pipeline.RegionSeg (pcfgs (F := F)) noTables (allDats m ρ) () defs₀ noVariants noLevels noLv 2 where
  win := launch2.win.to₀
  block_pos := launch2.block_pos
  stage_whole := launch2.stage_whole
  K := PEmpty
  osem k := k.elim
  ho := Pipeline.OwnSemFacts.none _
  hbody c := (body_obligation2 (E3 m ρ) c).loose
  hwaits := Pipeline.hwaits_of_owed_zero _ _ _ _ noLevels noLv 2 fun _ _ => rfl
  pre c := iprop(StableHlo.held (c : Thread nD τ) (Pipeline.ucRefs τ sig) (B3 m ρ c) ∗ rider c)
  post c := iprop(StableHlo.held (c : Thread nD τ) (Pipeline.ucRefs τ sig) (B4 m ρ c) ∗ rider c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) noTables (allDats m ρ) launch2.win launch2.arr_whole c
      ((allDats m ρ 2 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (allDats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (allDats m ρ) ((allDats m ρ 2 c).share_full fun _ => rfl)
      (E3 m ρ c) (E4 m ρ c) ((allDats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of the run: entered with every unscoped buffer at `B4`, left with them at `B5`. Its
    windows' arrays are split out of the unscoped buffers on entry and put back at their final contents on exit; the
    generator register rides through the class invariant; nothing is owed; the kernel has no semaphore of its own. -/
def region3 : Pipeline.RegionSeg (pcfgs (F := F)) noTables (allDats m ρ) () defs₀ noVariants noLevels noLv 3 where
  win := launch3.win.to₀
  block_pos := launch3.block_pos
  stage_whole := launch3.stage_whole
  K := PEmpty
  osem k := k.elim
  ho := Pipeline.OwnSemFacts.none _
  hbody c := (body_obligation3 (E4 m ρ) c).loose
  hwaits := Pipeline.hwaits_of_owed_zero _ _ _ _ noLevels noLv 3 fun _ _ => rfl
  pre c := iprop(StableHlo.held (c : Thread nD τ) (Pipeline.ucRefs τ sig) (B4 m ρ c) ∗ rider c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E4 m ρ c)
  hentry c := by
    rw [Pipeline.ownSems0_none]
    have hsplit := Pipeline.arrays_of_unscopedBufs (p := 3) (pcfgs (F := F)) noTables (allDats m ρ) launch3.win launch3.arr_whole c
      ((allDats m ρ 3 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (allDats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (allDats m ρ) ((allDats m ρ 3 c).share_full fun _ => rfl)
      (E4 m ρ c) (E5 m ρ c) ((allDats m ρ 3 c).arrAt · cfg3.N) (exitArr3 m ρ c) (exitRest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev allSegs : List (Pipeline.Seg (pcfgs (F := F)) noTables (allDats m ρ) () defs₀ noVariants noLevels noLv) :=
  [ .host (hostStretch hostOps0 hostOps0_sub reshapes_fresh (B0 m ρ)),
    .region (region0 m ρ), .region (region1 m ρ), .region (region2 m ρ), .region (region3 m ρ) ]
theorem main_is_segs (c : Dev nD) : main (F := F) c = Pipeline.Seg.run (allSegs m ρ) := (main_chain c).trans (by chain_rfl)

set_option backward.isDefEq.respectTransparency.types false in
/-- Every weakly fair execution of the program from memory `m` with zero counters terminates, nothing faulting, and
    every unscoped buffer of every core ends at the contents `B5` follows through the five segments. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) noTables (allDats m ρ) () cellOf_inj emb₁ defs₀ noVariants noLevels noLv m ρ main (allSegs m ρ)
    (fun c Q => by rw [main_is_segs m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ rider c)) (Tₙ := lastState m ρ)
    (hch := ⟨fun _ => .rfl, fun _ => .rfl, fun _ => .rfl, fun _ => .rfl, fun _ => .rfl, fun _ => .rfl⟩)
    (hinit := by
      refine Pipeline.initEach noLevels noLv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.KernelIdeal.Gen

end
-- ==== Proof.KI.Frame.lean ====
/-
  The frame of the program: no segment writes an argument array (a reshape writes only its own result; a region writes
  back only its output windows' arrays, none of which is an argument), so each of the fifteen arguments ends as launched.
-/
import proofs.«100263_g58042188038559_cont_9to1c4b_174_21_alg».proof.Proof.KI.Run

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

/-- A buffer that is neither a reshape's result nor a region's output holds its launch contents at the end. -/
theorem arg_kept (c : Dev nD) (b : Ref sig .tc)
    (h1 : b ∉ ([main_v0, main_v1, main_v2, main_v3, main_v4, main_v5] : List (Ref sig .tc)))
    (h2 : b ∉ ([main_v6_0, main_v6_1, main_v6_2] : List (Ref sig .tc))) (h3 : b ∉ ([main_v7] : List (Ref sig .tc)))
    (h4 : b ∉ ([main_v8] : List (Ref sig .tc))) (h5 : b ∉ ([main_v9] : List (Ref sig .tc))) :
    B5 m ρ c (Proc.devRef .tc b) = m ((c : Thread nD τ).loc b) :=
  (B5_keep m ρ c b h5).trans <| (B4_keep m ρ c b h4).trans <| (B3_keep m ρ c b h3).trans <|
    (B2_keep m ρ c b h2).trans <| (B1_keep m ρ c b h1).trans rfl

/-- Every weakly fair execution terminates without a fault and leaves the fifteen argument arrays as launched. -/
theorem args_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_unscoped main_arg0 (by decide))).trans (arg_kept m ρ c main_arg0 (by decide) (by decide) (by decide) (by decide) (by decide)),
      (h c _ (mem_unscoped main_arg1 (by decide))).trans (arg_kept m ρ c main_arg1 (by decide) (by decide) (by decide) (by decide) (by decide)),
      (h c _ (mem_unscoped main_arg2 (by decide))).trans (arg_kept m ρ c main_arg2 (by decide) (by decide) (by decide) (by decide) (by decide)),
      (h c _ (mem_unscoped main_arg3 (by decide))).trans (arg_kept m ρ c main_arg3 (by decide) (by decide) (by decide) (by decide) (by decide)),
      (h c _ (mem_unscoped main_arg4 (by decide))).trans (arg_kept m ρ c main_arg4 (by decide) (by decide) (by decide) (by decide) (by decide)),
      (h c _ (mem_unscoped main_arg5 (by decide))).trans (arg_kept m ρ c main_arg5 (by decide) (by decide) (by decide) (by decide) (by decide)),
      (h c _ (mem_unscoped main_arg6 (by decide))).trans (arg_kept m ρ c main_arg6 (by decide) (by decide) (by decide) (by decide) (by decide)),
      (h c _ (mem_unscoped main_arg7 (by decide))).trans (arg_kept m ρ c main_arg7 (by decide) (by decide) (by decide) (by decide) (by decide)),
      (h c _ (mem_unscoped main_arg8 (by decide))).trans (arg_kept m ρ c main_arg8 (by decide) (by decide) (by decide) (by decide) (by decide)),
      (h c _ (mem_unscoped main_arg9 (by decide))).trans (arg_kept m ρ c main_arg9 (by decide) (by decide) (by decide) (by decide) (by decide)),
      (h c _ (mem_unscoped main_arg10 (by decide))).trans (arg_kept m ρ c main_arg10 (by decide) (by decide) (by decide) (by decide) (by decide)),
      (h c _ (mem_unscoped main_arg11 (by decide))).trans (arg_kept m ρ c main_arg11 (by decide) (by decide) (by decide) (by decide) (by decide)),
      (h c _ (mem_unscoped main_arg12 (by decide))).trans (arg_kept m ρ c main_arg12 (by decide) (by decide) (by decide) (by decide) (by decide)),
      (h c _ (mem_unscoped main_arg13 (by decide))).trans (arg_kept m ρ c main_arg13 (by decide) (by decide) (by decide) (by decide) (by decide)),
      (h c _ (mem_unscoped main_arg14 (by decide))).trans (arg_kept m ρ c main_arg14 (by decide) (by decide) (by decide) (by decide) (by decide))⟩) (whole_run m ρ)

end Cert.KernelIdeal.Gen

end
-- ==== Proof.KI.Bias.lean ====
/-
  A bias vector of length n, laid out by the host as a one-row array [1, n], read at (0, k): the vector's entry k.
-/
import proofs.«100263_g58042188038559_cont_9to1c4b_174_21_alg».proof.Proof.Gen.KernelIdeal
import Idealize.ShloMosaic.Lib.ValueLayout

noncomputable section

namespace Cert.KI.Math

open Idealize.ShloMosaic Idealize.ShloMosaic.ValueIdx Cert.KernelIdeal Cert.KernelIdeal.Gen

/-- A length-128 vector laid out as one row, at (0, k). -/
theorem bias128_apply {α : Type} (a : S128.Idx → α) (k : Fin 128) :
    shapeCast S1x128 a shapeCasts_S128_S1x128 (ix2 (0 : Fin 1) k) = a (ix1 k) :=
  shapeCast_a_1a_apply a shapeCasts_S128_S1x128 0 k

/-- A length-64 vector laid out as one row, at (0, k). -/
theorem bias64_apply {α : Type} (a : S64.Idx → α) (k : Fin 64) :
    shapeCast S1x64 a shapeCasts_S64_S1x64 (ix2 (0 : Fin 1) k) = a (ix1 k) :=
  shapeCast_a_1a_apply a shapeCasts_S64_S1x64 0 k

end Cert.KI.Math

end
-- ==== Proof.KI.Entry.lean ====
/-
  What each region finds in the buffers it reads, on the extended reals.

  An argument array is never written, so every region finds it as launched. A bias vector is laid out once as a
  one-row array before the first region and is never written again, so every region finds that row, and its entry
  (0, k) is the vector's entry k. An array a region wrote stays as that region left it until the end.
-/
import proofs.«100263_g58042188038559_cont_9to1c4b_174_21_alg».proof.Proof.KI.Run
import proofs.«100263_g58042188038559_cont_9to1c4b_174_21_alg».proof.Proof.KI.Bias

set_option maxRecDepth 16384

noncomputable section

namespace Cert.KI.Math

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- Buffer `b` of core `c` as launched. -/
abbrev atLaunch (b : Ref sig .tc) : Buf (Elt Ideal) ((c : Thread nD τ).loc b) := m ((c : Thread nD τ).loc b)

/-! ## From one boundary to the next -/

/-- Before the first region a buffer that is no laid-out bias row is as launched. -/
theorem E1_launch (b : Ref sig .tc) (hb : b ∉ ([main_v0, main_v1, main_v2, main_v3, main_v4, main_v5] : List (Ref sig .tc))) :
    E1 m ρ c b = atLaunch m c b :=
  (B1_keep m ρ c b hb).trans rfl

theorem E2_keep (b : Ref sig .tc) (hb : b ∉ ([main_v6_0, main_v6_1, main_v6_2] : List (Ref sig .tc))) : E2 m ρ c b = E1 m ρ c b :=
  B2_keep m ρ c b hb

theorem E3_keep (b : Ref sig .tc) (hb : b ∉ ([main_v7] : List (Ref sig .tc))) : E3 m ρ c b = E2 m ρ c b :=
  B3_keep m ρ c b hb

theorem E4_keep (b : Ref sig .tc) (hb : b ∉ ([main_v8] : List (Ref sig .tc))) : E4 m ρ c b = E3 m ρ c b :=
  B4_keep m ρ c b hb

theorem E5_keep (b : Ref sig .tc) (hb : b ∉ ([main_v9] : List (Ref sig .tc))) : E5 m ρ c b = E4 m ρ c b :=
  B5_keep m ρ c b hb

/-! ## The bias rows as laid out before the first region -/

theorem E1_v0 : E1 m ρ c main_v0 = shapeCast S1x128 (atLaunch m c main_arg4) shapeCasts_S128_S1x128 := by
  show StableHlo.after hostOps0 (B0 m ρ c) (Proc.devRef .tc main_v0) = _
  after_results
  rfl

theorem E1_v1 : E1 m ρ c main_v1 = shapeCast S1x64 (atLaunch m c main_arg6) shapeCasts_S64_S1x64 := by
  show StableHlo.after hostOps0 (B0 m ρ c) (Proc.devRef .tc main_v1) = _
  after_results
  rfl

theorem E1_v2 : E1 m ρ c main_v2 = shapeCast S1x128 (atLaunch m c main_arg8) shapeCasts_S128_S1x128 := by
  show StableHlo.after hostOps0 (B0 m ρ c) (Proc.devRef .tc main_v2) = _
  after_results
  rfl

theorem E1_v3 : E1 m ρ c main_v3 = shapeCast S1x64 (atLaunch m c main_arg10) shapeCasts_S64_S1x64 := by
  show StableHlo.after hostOps0 (B0 m ρ c) (Proc.devRef .tc main_v3) = _
  after_results
  rfl

theorem E1_v4 : E1 m ρ c main_v4 = shapeCast S1x128 (atLaunch m c main_arg12) shapeCasts_S128_S1x128 := by
  show StableHlo.after hostOps0 (B0 m ρ c) (Proc.devRef .tc main_v4) = _
  after_results
  rfl

theorem E1_v5 : E1 m ρ c main_v5 = shapeCast S1x128 (atLaunch m c main_arg14) shapeCasts_S128_S1x128 := by
  show StableHlo.after hostOps0 (B0 m ρ c) (Proc.devRef .tc main_v5) = _
  after_results
  rfl

/-! ## Region 0's operands -/

theorem E1_arg0 : E1 m ρ c main_arg0 = atLaunch m c main_arg0 := E1_launch m ρ c main_arg0 (by decide)
theorem E1_arg1 : E1 m ρ c main_arg1 = atLaunch m c main_arg1 := E1_launch m ρ c main_arg1 (by decide)
theorem E1_arg3 : E1 m ρ c main_arg3 = atLaunch m c main_arg3 := E1_launch m ρ c main_arg3 (by decide)
theorem E1_arg5 : E1 m ρ c main_arg5 = atLaunch m c main_arg5 := E1_launch m ρ c main_arg5 (by decide)
theorem E1_arg7 : E1 m ρ c main_arg7 = atLaunch m c main_arg7 := E1_launch m ρ c main_arg7 (by decide)
theorem E1_arg11 : E1 m ρ c main_arg11 = atLaunch m c main_arg11 := E1_launch m ρ c main_arg11 (by decide)
theorem E1_arg13 : E1 m ρ c main_arg13 = atLaunch m c main_arg13 := E1_launch m ρ c main_arg13 (by decide)

/-- The first semantic bias row at (0, k). -/
theorem E1_v0_apply (k : Fin 128) : (E1 m ρ c main_v0 : S1x128.Idx → EReal) (ix2 (0 : Fin 1) k) = (atLaunch m c main_arg4 : S128.Idx → EReal) (ix1 k) := by
  rw [E1_v0]; exact bias128_apply _ k
/-- The second semantic bias row at (0, k). -/
theorem E1_v1_apply (k : Fin 64) : (E1 m ρ c main_v1 : S1x64.Idx → EReal) (ix2 (0 : Fin 1) k) = (atLaunch m c main_arg6 : S64.Idx → EReal) (ix1 k) := by
  rw [E1_v1]; exact bias64_apply _ k
/-- The first sequence bias row at (0, k). -/
theorem E1_v4_apply (k : Fin 128) : (E1 m ρ c main_v4 : S1x128.Idx → EReal) (ix2 (0 : Fin 1) k) = (atLaunch m c main_arg12 : S128.Idx → EReal) (ix1 k) := by
  rw [E1_v4]; exact bias128_apply _ k
/-- The second sequence bias row at (0, k). -/
theorem E1_v5_apply (k : Fin 128) : (E1 m ρ c main_v5 : S1x128.Idx → EReal) (ix2 (0 : Fin 1) k) = (atLaunch m c main_arg14 : S128.Idx → EReal) (ix1 k) := by
  rw [E1_v5]; exact bias128_apply _ k

/-! ## Region 1's operands -/

theorem E2_arg2 : E2 m ρ c main_arg2 = atLaunch m c main_arg2 :=
  (E2_keep m ρ c main_arg2 (by decide)).trans (E1_launch m ρ c main_arg2 (by decide))
theorem E2_arg9 : E2 m ρ c main_arg9 = atLaunch m c main_arg9 :=
  (E2_keep m ρ c main_arg9 (by decide)).trans (E1_launch m ρ c main_arg9 (by decide))
/-- The first graph bias row at (0, k). -/
theorem E2_v2_apply (k : Fin 128) : (E2 m ρ c main_v2 : S1x128.Idx → EReal) (ix2 (0 : Fin 1) k) = (atLaunch m c main_arg8 : S128.Idx → EReal) (ix1 k) := by
  rw [E2_keep m ρ c main_v2 (by decide), E1_v2]; exact bias128_apply _ k

/-! ## Region 2's operands -/

theorem E3_arg2 : E3 m ρ c main_arg2 = atLaunch m c main_arg2 :=
  (E3_keep m ρ c main_arg2 (by decide)).trans (E2_arg2 m ρ c)
/-- The second graph bias row at (0, k). -/
theorem E3_v3_apply (k : Fin 64) : (E3 m ρ c main_v3 : S1x64.Idx → EReal) (ix2 (0 : Fin 1) k) = (atLaunch m c main_arg10 : S64.Idx → EReal) (ix1 k) := by
  rw [E3_keep m ρ c main_v3 (by decide), E2_keep m ρ c main_v3 (by decide), E1_v3]; exact bias64_apply _ k

/-! ## Region 3's operands: what regions 0 and 2 left -/

theorem E4_v6_0 : E4 m ρ c main_v6_0 = E2 m ρ c main_v6_0 :=
  (E4_keep m ρ c main_v6_0 (by decide)).trans (E3_keep m ρ c main_v6_0 (by decide))
theorem E4_v6_2 : E4 m ρ c main_v6_2 = E2 m ρ c main_v6_2 :=
  (E4_keep m ρ c main_v6_2 (by decide)).trans (E3_keep m ρ c main_v6_2 (by decide))

/-! ## The results at the end -/

theorem E5_v6_0 : E5 m ρ c main_v6_0 = E2 m ρ c main_v6_0 :=
  (E5_keep m ρ c main_v6_0 (by decide)).trans (E4_v6_0 m ρ c)
theorem E5_v8 : E5 m ρ c main_v8 = E4 m ρ c main_v8 := E5_keep m ρ c main_v8 (by decide)

end Cert.KI.Math

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.KI.Join.lean ====
/-
  A sum of 128 terms is the sum of its first 64 terms plus the sum of its last 64 terms; and, for a product against an
  array that is two arrays of length 64 laid end to end, the sum splits into the two products against the pieces.
  Addition of extended reals is commutative and associative, so nothing about finiteness is asked.
-/
import Mathlib.Algebra.BigOperators.Fin
import Mathlib.Data.EReal.Basic

noncomputable section

open scoped BigOperators

namespace Cert.KI.Math

/-- The first 64 positions of 128. -/
abbrev lo64 (k : Fin 64) : Fin 128 := ⟨k.val, Nat.lt_of_lt_of_le k.isLt (by decide)⟩

/-- The last 64 positions of 128. -/
abbrev hi64 (k : Fin 64) : Fin 128 := ⟨64 + k.val, Nat.add_lt_add_left k.isLt 64⟩

/-- A sum over 128 positions is the sum over the first 64 plus the sum over the last 64. -/
theorem sum_128_split {M : Type*} [AddCommMonoid M] (f : Fin 128 → M) :
    ∑ k : Fin 128, f k = (∑ k : Fin 64, f (lo64 k)) + ∑ k : Fin 64, f (hi64 k) :=
  Fin.sum_univ_add (a := 64) (b := 64) f

/-- The contraction against two arrays laid end to end: when `c` is `p` on the first 64 positions and `q` on the
    last 64, the sum of `s k * c k` is the sum of `s` against `p` plus the sum of the rest of `s` against `q`. -/
theorem sum_mul_cat (s c : Fin 128 → EReal) (p q : Fin 64 → EReal) (hp : ∀ k, c (lo64 k) = p k) (hq : ∀ k, c (hi64 k) = q k) :
    ∑ k : Fin 128, s k * c k = (∑ k : Fin 64, s (lo64 k) * p k) + ∑ k : Fin 64, s (hi64 k) * q k := by
  rw [sum_128_split]
  refine congrArg₂ (· + ·) (Finset.sum_congr rfl fun k _ => ?_) (Finset.sum_congr rfl fun k _ => ?_)
  · rw [hp]
  · rw [hq]

end Cert.KI.Math

end
-- ==== Proof.KI.Ref.lean ====
/-
  The reference's arrays, stage by stage, each read at one entry on the extended reals.

  Every matrix product is the plain sum over the contracted axis; a bias vector is read at its column; the
  rectifier is the maximum with zero; the final stage lays the two graph embeddings side by side, transposes them,
  contracts the sequence encoding against the 128 joined columns and applies 1 / (1 + exp (-x)), which is the logistic
  function. The joined contraction is split into its first 64 and last 64 terms, one sum per embedding.
-/
import proofs.«100263_g58042188038559_cont_9to1c4b_174_21_alg».proof.Proof.Gen.ReferenceIdeal.Read
import proofs.«100263_g58042188038559_cont_9to1c4b_174_21_alg».proof.Proof.LibHostReads
import proofs.«100263_g58042188038559_cont_9to1c4b_174_21_alg».proof.Proof.KI.Join
import Idealize.ShloMosaic.Lib.Pipeline.Value
import Idealize.ShloMosaic.Lib.ValueLayout
import Idealize.ShloMosaic.PureOps.IdealRules

noncomputable section

namespace Cert.KI.Math

open Idealize.ShloMosaic Idealize.ShloMosaic.ValueIdx Cert.ReferenceIdeal Cert.ReferenceIdeal.Read

/-- An array of extended reals of shape `s`, as the reference's value functions take their arguments. -/
abbrev RArr (s : Shape) : Type := (⟨s, .f32⟩ : BufTy).Contents (Elt Ideal)

/-! ## The products, one per dimension record -/

/-- (10000 × 128) · (128 × 128) at (i, j). -/
theorem ref_dot_10000_128_128 (lhs : FVec Ideal S10000x128 .f32) (rhs : FVec Ideal S128x128 .f32) (i : Fin 10000) (j : Fin 128) :
    Host.dotGeneral (F := Ideal) dot_S10000x128_S128x128_S10000x128_1_0_0_1_n_n none lhs rhs (ix2 i j)
      = ∑ k : Fin 128, lhs (ix2 i k) * rhs (ix2 k j) :=
  Cert.LibHostReads.dotGeneral_plain_apply 10000 128 128 none lhs rhs i j

/-- (10000 × 128) · (128 × 64) at (i, j). -/
theorem ref_dot_10000_128_64 (lhs : FVec Ideal S10000x128 .f32) (rhs : FVec Ideal S128x64 .f32) (i : Fin 10000) (j : Fin 64) :
    Host.dotGeneral (F := Ideal) dot_S10000x128_S128x64_S10000x64_1_0_0_1_n_n none lhs rhs (ix2 i j)
      = ∑ k : Fin 128, lhs (ix2 i k) * rhs (ix2 k j) :=
  Cert.LibHostReads.dotGeneral_plain_apply 10000 128 64 none lhs rhs i j

/-- (10000 × 10000) · (10000 × 128) at (i, j). -/
theorem ref_dot_10000_10000_128 (lhs : FVec Ideal S10000x10000 .f32) (rhs : FVec Ideal S10000x128 .f32) (i : Fin 10000) (j : Fin 128) :
    Host.dotGeneral (F := Ideal) dot_S10000x10000_S10000x128_S10000x128_1_0_0_1_n_n none lhs rhs (ix2 i j)
      = ∑ k : Fin 10000, lhs (ix2 i k) * rhs (ix2 k j) :=
  Cert.LibHostReads.dotGeneral_plain_apply 10000 10000 128 none lhs rhs i j

/-- (10000 × 10000) · (10000 × 64) at (i, j). -/
theorem ref_dot_10000_10000_64 (lhs : FVec Ideal S10000x10000 .f32) (rhs : FVec Ideal S10000x64 .f32) (i : Fin 10000) (j : Fin 64) :
    Host.dotGeneral (F := Ideal) dot_S10000x10000_S10000x64_S10000x64_1_0_0_1_n_n none lhs rhs (ix2 i j)
      = ∑ k : Fin 10000, lhs (ix2 i k) * rhs (ix2 k j) :=
  Cert.LibHostReads.dotGeneral_plain_apply 10000 10000 64 none lhs rhs i j

/-- (1024 × 1280) · (1280 × 128) at (i, j). -/
theorem ref_dot_1024_1280_128 (lhs : FVec Ideal S1024x1280 .f32) (rhs : FVec Ideal S1280x128 .f32) (i : Fin 1024) (j : Fin 128) :
    Host.dotGeneral (F := Ideal) dot_S1024x1280_S1280x128_S1024x128_1_0_0_1_n_n none lhs rhs (ix2 i j)
      = ∑ k : Fin 1280, lhs (ix2 i k) * rhs (ix2 k j) :=
  Cert.LibHostReads.dotGeneral_plain_apply 1024 1280 128 none lhs rhs i j

/-- (1024 × 128) · (128 × 128) at (i, j). -/
theorem ref_dot_1024_128_128 (lhs : FVec Ideal S1024x128 .f32) (rhs : FVec Ideal S128x128 .f32) (i : Fin 1024) (j : Fin 128) :
    Host.dotGeneral (F := Ideal) dot_S1024x128_S128x128_S1024x128_1_0_0_1_n_n none lhs rhs (ix2 i j)
      = ∑ k : Fin 128, lhs (ix2 i k) * rhs (ix2 k j) :=
  Cert.LibHostReads.dotGeneral_plain_apply 1024 128 128 none lhs rhs i j

/-- (1024 × 128) · (128 × 10000) at (i, j). -/
theorem ref_dot_1024_128_10000 (lhs : FVec Ideal S1024x128 .f32) (rhs : FVec Ideal S128x10000 .f32) (i : Fin 1024) (j : Fin 10000) :
    Host.dotGeneral (F := Ideal) dot_S1024x128_S128x10000_S1024x10000_1_0_0_1_n_n none lhs rhs (ix2 i j)
      = ∑ k : Fin 128, lhs (ix2 i k) * rhs (ix2 k j) :=
  Cert.LibHostReads.dotGeneral_plain_apply 1024 128 10000 none lhs rhs i j

/-! ## The bias vectors, repeated down the rows, at an entry -/

/-- The first semantic bias at (i, k). -/
theorem ref_bias_v2 (x4 : RArr S128) (i : Fin 10000) (k : Fin 128) : val_main_v2 (F := Ideal) x4 (ix2 i k) = x4 (ix1 k) := by
  rw [val_main_v2_apply, val_main_v1_apply]
  exact congrArg x4 (funext fun a => Fin.ext (by match a with | ⟨0, _⟩ => rfl))

/-- The second semantic bias at (i, k). -/
theorem ref_bias_v7 (x6 : RArr S64) (i : Fin 10000) (k : Fin 64) : val_main_v7 (F := Ideal) x6 (ix2 i k) = x6 (ix1 k) := by
  rw [val_main_v7_apply, val_main_v6_apply]
  exact congrArg x6 (funext fun a => Fin.ext (by match a with | ⟨0, _⟩ => rfl))

/-- The first graph bias at (i, k). -/
theorem ref_bias_v12 (x8 : RArr S128) (i : Fin 10000) (k : Fin 128) : val_main_v12 (F := Ideal) x8 (ix2 i k) = x8 (ix1 k) := by
  rw [val_main_v12_apply, val_main_v11_apply]
  exact congrArg x8 (funext fun a => Fin.ext (by match a with | ⟨0, _⟩ => rfl))

/-- The second graph bias at (i, k). -/
theorem ref_bias_v18 (x10 : RArr S64) (i : Fin 10000) (k : Fin 64) : val_main_v18 (F := Ideal) x10 (ix2 i k) = x10 (ix1 k) := by
  rw [val_main_v18_apply, val_main_v17_apply]
  exact congrArg x10 (funext fun a => Fin.ext (by match a with | ⟨0, _⟩ => rfl))

/-- The first sequence bias at (i, k). -/
theorem ref_bias_v23 (x12 : RArr S128) (i : Fin 1024) (k : Fin 128) : val_main_v23 (F := Ideal) x12 (ix2 i k) = x12 (ix1 k) := by
  rw [val_main_v23_apply, val_main_v22_apply]
  exact congrArg x12 (funext fun a => Fin.ext (by match a with | ⟨0, _⟩ => rfl))

/-- The second sequence bias at (i, k). -/
theorem ref_bias_v28 (x14 : RArr S128) (i : Fin 1024) (k : Fin 128) : val_main_v28 (F := Ideal) x14 (ix2 i k) = x14 (ix1 k) := by
  rw [val_main_v28_apply, val_main_v27_apply]
  exact congrArg x14 (funext fun a => Fin.ext (by match a with | ⟨0, _⟩ => rfl))

/-! ## The zero of each rectifier, and the one of the logistic function -/

theorem ref_zero_call0 (i : S10000x128.Idx) : val_main_call0_v0 (F := Ideal) i = 0 := by
  rw [val_main_call0_v0_apply, val_main_call0_cst_apply]; exact Ideal.ofBits_zero_f32

theorem ref_zero_call1 (i : S10000x128.Idx) : val_main_call1_v0 (F := Ideal) i = 0 := by
  rw [val_main_call1_v0_apply, val_main_call1_cst_apply]; exact Ideal.ofBits_zero_f32

theorem ref_zero_call2 (i : S10000x64.Idx) : val_main_call2_v0 (F := Ideal) i = 0 := by
  rw [val_main_call2_v0_apply, val_main_call2_cst_apply]; exact Ideal.ofBits_zero_f32

theorem ref_zero_call3 (i : S1024x128.Idx) : val_main_call3_v0 (F := Ideal) i = 0 := by
  rw [val_main_call3_v0_apply, val_main_call3_cst_apply]; exact Ideal.ofBits_zero_f32

/-- The word of the float 1.0 is the number one. -/
theorem one_word : Ideal.ofBits .f32 0x3F800000#32 = 1 := IdealRules.sign_bit.ideal_onePat .f32

/-! ## The stages at an entry -/

/-- First support: x · W at (i, j). -/
theorem ref_support1 (x1 : RArr S10000x128) (x7 : RArr S128x128) (i : Fin 10000) (j : Fin 128) :
    val_main_v9 (F := Ideal) x1 x7 (ix2 i j) = ∑ l : Fin 128, x1 (ix2 i l) * x7 (ix2 l j) := by
  unfold val_main_v9
  exact ref_dot_10000_128_128 x1 x7 i j

/-- Semantic embedding: (x · W₁ + b₁)⁺ · W₂ + b₂ at (i, j). -/
theorem ref_hsem (x1 : RArr S10000x128) (x3 : RArr S128x128) (x4 : RArr S128) (x5 : RArr S128x64) (x6 : RArr S64)
    (i : Fin 10000) (j : Fin 64) :
    val_main_v8 (F := Ideal) x1 x3 x4 x5 x6 (ix2 i j)
      = (∑ k : Fin 128, max ((∑ l : Fin 128, x1 (ix2 i l) * x3 (ix2 l k)) + x4 (ix1 k)) 0 * x5 (ix2 k j)) + x6 (ix1 j) := by
  rw [val_main_v8_apply, Ideal.addf_def, ref_bias_v7]
  unfold val_main_v5
  rw [ref_dot_10000_128_64]
  refine congrArg (· + x6 (ix1 j)) (Finset.sum_congr rfl fun k _ => ?_)
  rw [val_main_v4_apply, Ideal.maximumf_def, ref_zero_call0, val_main_v3_apply, Ideal.addf_def, ref_bias_v2]
  unfold val_main_v0
  rw [ref_dot_10000_128_128]

/-- Second support: (A · s₁ + b)⁺ · W at (i, j), over the first support. -/
theorem ref_support2 (x1 : RArr S10000x128) (x2 : RArr S10000x10000) (x7 : RArr S128x128) (x8 : RArr S128) (x9 : RArr S128x64)
    (i : Fin 10000) (j : Fin 64) :
    val_main_v15 (F := Ideal) x1 x2 x7 x8 x9 (ix2 i j)
      = ∑ k : Fin 128, max ((∑ l : Fin 10000, x2 (ix2 i l) * val_main_v9 (F := Ideal) x1 x7 (ix2 l k)) + x8 (ix1 k)) 0
          * x9 (ix2 k j) := by
  unfold val_main_v15
  rw [ref_dot_10000_128_64]
  refine Finset.sum_congr rfl fun k _ => ?_
  rw [val_main_v14_apply, Ideal.maximumf_def, ref_zero_call1, val_main_v13_apply, Ideal.addf_def, ref_bias_v12]
  unfold val_main_v10
  rw [ref_dot_10000_10000_128]

/-- Structure embedding: (A · s₂ + b)⁺ at (i, j), over the second support. -/
theorem ref_hstr (x1 : RArr S10000x128) (x2 : RArr S10000x10000) (x7 : RArr S128x128) (x8 : RArr S128) (x9 : RArr S128x64)
    (x10 : RArr S64) (i : Fin 10000) (j : Fin 64) :
    val_main_v20 (F := Ideal) x1 x2 x7 x8 x9 x10 (ix2 i j)
      = max ((∑ l : Fin 10000, x2 (ix2 i l) * val_main_v15 (F := Ideal) x1 x2 x7 x8 x9 (ix2 l j)) + x10 (ix1 j)) 0 := by
  rw [val_main_v20_apply, Ideal.maximumf_def, ref_zero_call2, val_main_v19_apply, Ideal.addf_def, ref_bias_v18]
  unfold val_main_v16
  rw [ref_dot_10000_10000_64]

/-- Sequence encoding: (x · W₁ + b₁)⁺ · W₂ + b₂ at (i, j). -/
theorem ref_seq (x0 : RArr S1024x1280) (x11 : RArr S1280x128) (x12 : RArr S128) (x13 : RArr S128x128) (x14 : RArr S128)
    (i : Fin 1024) (j : Fin 128) :
    val_main_v29 (F := Ideal) x0 x11 x12 x13 x14 (ix2 i j)
      = (∑ k : Fin 128, max ((∑ l : Fin 1280, x0 (ix2 i l) * x11 (ix2 l k)) + x12 (ix1 k)) 0 * x13 (ix2 k j)) + x14 (ix1 j) := by
  rw [val_main_v29_apply, Ideal.addf_def, ref_bias_v28]
  unfold val_main_v26
  rw [ref_dot_1024_128_128]
  refine congrArg (· + x14 (ix1 j)) (Finset.sum_congr rfl fun k _ => ?_)
  rw [val_main_v25_apply, Ideal.maximumf_def, ref_zero_call3, val_main_v24_apply, Ideal.addf_def, ref_bias_v23]
  unfold val_main_v21
  rw [ref_dot_1024_1280_128]

/-! ## The two embeddings side by side, transposed -/

/-- Row k of the transposed join, k among the first 64, at column g: the semantic embedding at (g, k). -/
theorem ref_cat_lo (x1 : RArr S10000x128) (x2 : RArr S10000x10000) (x3 : RArr S128x128) (x4 : RArr S128) (x5 : RArr S128x64)
    (x6 : RArr S64) (x7 : RArr S128x128) (x8 : RArr S128) (x9 : RArr S128x64) (x10 : RArr S64) (g : Fin 10000) (k : Fin 64) :
    val_main_v31 (F := Ideal) x1 x2 x3 x4 x5 x6 x7 x8 x9 x10 (ix2 (lo64 k) g) = val_main_v8 (F := Ideal) x1 x3 x4 x5 x6 (ix2 g k) := by
  rw [val_main_v31_apply]
  unfold val_main_v30
  refine concatenate_pair_apply_left (t := S10000x128) (s₁ := S10000x64) (s₂ := S10000x64) 1 _ _ _ _ rfl (ix2 g k) fun b => ?_
  match b with
  | ⟨0, _⟩ => rfl
  | ⟨1, _⟩ => rfl

/-- Row 64 + k of the transposed join at column g: the structure embedding at (g, k). -/
theorem ref_cat_hi (x1 : RArr S10000x128) (x2 : RArr S10000x10000) (x3 : RArr S128x128) (x4 : RArr S128) (x5 : RArr S128x64)
    (x6 : RArr S64) (x7 : RArr S128x128) (x8 : RArr S128) (x9 : RArr S128x64) (x10 : RArr S64) (g : Fin 10000) (k : Fin 64) :
    val_main_v31 (F := Ideal) x1 x2 x3 x4 x5 x6 x7 x8 x9 x10 (ix2 (hi64 k) g)
      = val_main_v20 (F := Ideal) x1 x2 x7 x8 x9 x10 (ix2 g k) := by
  rw [val_main_v31_apply]
  unfold val_main_v30
  refine concatenate_pair_apply_right (t := S10000x128) (s₁ := S10000x64) (s₂ := S10000x64) 1 _ _ _ _ rfl rfl (ix2 g k)
    (fun b hb => ?_) ?_
  · match b with
    | ⟨0, _⟩ => rfl
    | ⟨1, _⟩ => exact absurd rfl hb
  · show k.val + 64 = 64 + k.val
    exact Nat.add_comm _ _

/-! ## The prediction -/

/-- Prediction at (b, g): the logistic function of the sequence encoding's first 64 columns against the semantic
    embedding's row g plus its last 64 columns against the structure embedding's row g. -/
theorem ref_pred (x0 : RArr S1024x1280) (x1 : RArr S10000x128) (x2 : RArr S10000x10000) (x3 : RArr S128x128) (x4 : RArr S128)
    (x5 : RArr S128x64) (x6 : RArr S64) (x7 : RArr S128x128) (x8 : RArr S128) (x9 : RArr S128x64) (x10 : RArr S64)
    (x11 : RArr S1280x128) (x12 : RArr S128) (x13 : RArr S128x128) (x14 : RArr S128) (b : Fin 1024) (g : Fin 10000) :
    val_main_v38 (F := Ideal) x0 x1 x2 x3 x4 x5 x6 x7 x8 x9 x10 x11 x12 x13 x14 (ix2 b g)
      = Ideal.logistic
          ((∑ k : Fin 64, val_main_v29 (F := Ideal) x0 x11 x12 x13 x14 (ix2 b (lo64 k))
              * val_main_v8 (F := Ideal) x1 x3 x4 x5 x6 (ix2 g k))
            + ∑ k : Fin 64, val_main_v29 (F := Ideal) x0 x11 x12 x13 x14 (ix2 b (hi64 k))
              * val_main_v20 (F := Ideal) x1 x2 x7 x8 x9 x10 (ix2 g k)) := by
  rw [val_main_v38_apply, Ideal.hostDivf_def, val_main_v37_apply, val_main_cst_0_apply, val_main_v36_apply, Ideal.addf_def,
    val_main_v35_apply, val_main_cst_apply, val_main_v34_apply, Ideal.hostUnary_exp_def, val_main_v33_apply,
    Ideal.hostNegf_def, Ideal.negf_def, Ideal.ofBits_def, one_word]
  show Ideal.logistic _ = _
  refine congrArg Ideal.logistic ?_
  unfold val_main_v32
  rw [ref_dot_1024_128_10000]
  exact sum_mul_cat (fun k => val_main_v29 (F := Ideal) x0 x11 x12 x13 x14 (ix2 b k))
    (fun k => val_main_v31 (F := Ideal) x1 x2 x3 x4 x5 x6 x7 x8 x9 x10 (ix2 k g))
    (fun k => val_main_v8 (F := Ideal) x1 x3 x4 x5 x6 (ix2 g k))
    (fun k => val_main_v20 (F := Ideal) x1 x2 x7 x8 x9 x10 (ix2 g k))
    (fun k => ref_cat_lo x1 x2 x3 x4 x5 x6 x7 x8 x9 x10 g k) (fun k => ref_cat_hi x1 x2 x3 x4 x5 x6 x7 x8 x9 x10 g k)

end Cert.KI.Math

end
-- ==== Proof.KI.Reg0Arr.lean ====
/- Region 0, from blocks to arrays. Each window's block at a grid point is read as entries of the
   window's array: the embedding tile at point t is rows 2000 t .. 2000 t + 1999, every other input is
   held whole. Output windows 11 and 12 are tiled the same way and written back at every point, so their
   arrays after the region are any whole-array functions whose tile t is what point t writes back. Output
   window 13 is one whole block written back once, after the last point, so its array after the region
   is what that one write-back carries. -/
import proofs.«100263_g58042188038559_cont_9to1c4b_174_21_alg».proof.Proof.KI.Reg0
import Idealize.ShloMosaic.Lib.Pipeline.Value
import Idealize.ShloMosaic.Lib.ValueIdx
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

variable {F : FTy → Type} [FloatOps F]

-- what the TensorCore's buffers hold when the region is entered
variable (V : (c : Dev nD) → (b : Ref sig .tc) → Buf (Elt F) ((c : Thread nD τ).loc b))

/-! ## Where each window's block sits: the block indices, point by point (decided over the 5 points) -/

/-- The embedding tile (window 1) and the two tiled outputs (11, 12) move one block down per point; every
    other window stays at block zero. -/
theorem blockIdx0_0 : ∀ t : Fin cfg0.N, win0_0.index t (0 : Fin 2) = 0 ∧ win0_0.index t (1 : Fin 2) = 0 :=
  (by decide +kernel : ∀ t : Fin grid0.N, _)
theorem blockIdx0_1 : ∀ t : Fin cfg0.N, win0_1.index t (0 : Fin 2) = t.val ∧ win0_1.index t (1 : Fin 2) = 0 :=
  (by decide +kernel : ∀ t : Fin grid0.N, _)
theorem blockIdx0_2 : ∀ t : Fin cfg0.N, win0_2.index t (0 : Fin 2) = 0 ∧ win0_2.index t (1 : Fin 2) = 0 :=
  (by decide +kernel : ∀ t : Fin grid0.N, _)
theorem blockIdx0_3 : ∀ t : Fin cfg0.N, win0_3.index t (0 : Fin 2) = 0 ∧ win0_3.index t (1 : Fin 2) = 0 :=
  (by decide +kernel : ∀ t : Fin grid0.N, _)
theorem blockIdx0_4 : ∀ t : Fin cfg0.N, win0_4.index t (0 : Fin 2) = 0 ∧ win0_4.index t (1 : Fin 2) = 0 :=
  (by decide +kernel : ∀ t : Fin grid0.N, _)
theorem blockIdx0_5 : ∀ t : Fin cfg0.N, win0_5.index t (0 : Fin 2) = 0 ∧ win0_5.index t (1 : Fin 2) = 0 :=
  (by decide +kernel : ∀ t : Fin grid0.N, _)
theorem blockIdx0_6 : ∀ t : Fin cfg0.N, win0_6.index t (0 : Fin 2) = 0 ∧ win0_6.index t (1 : Fin 2) = 0 :=
  (by decide +kernel : ∀ t : Fin grid0.N, _)
theorem blockIdx0_7 : ∀ t : Fin cfg0.N, win0_7.index t (0 : Fin 2) = 0 ∧ win0_7.index t (1 : Fin 2) = 0 :=
  (by decide +kernel : ∀ t : Fin grid0.N, _)
theorem blockIdx0_8 : ∀ t : Fin cfg0.N, win0_8.index t (0 : Fin 2) = 0 ∧ win0_8.index t (1 : Fin 2) = 0 :=
  (by decide +kernel : ∀ t : Fin grid0.N, _)
theorem blockIdx0_9 : ∀ t : Fin cfg0.N, win0_9.index t (0 : Fin 2) = 0 ∧ win0_9.index t (1 : Fin 2) = 0 :=
  (by decide +kernel : ∀ t : Fin grid0.N, _)
theorem blockIdx0_10 : ∀ t : Fin cfg0.N, win0_10.index t (0 : Fin 2) = 0 ∧ win0_10.index t (1 : Fin 2) = 0 :=
  (by decide +kernel : ∀ t : Fin grid0.N, _)
theorem blockIdx0_11 : ∀ t : Fin cfg0.N, win0_11.index t (0 : Fin 2) = t.val ∧ win0_11.index t (1 : Fin 2) = 0 :=
  (by decide +kernel : ∀ t : Fin grid0.N, _)
theorem blockIdx0_12 : ∀ t : Fin cfg0.N, win0_12.index t (0 : Fin 2) = t.val ∧ win0_12.index t (1 : Fin 2) = 0 :=
  (by decide +kernel : ∀ t : Fin grid0.N, _)
theorem blockIdx0_13 : ∀ t : Fin cfg0.N, win0_13.index t (0 : Fin 2) = 0 ∧ win0_13.index t (1 : Fin 2) = 0 :=
  (by decide +kernel : ∀ t : Fin grid0.N, _)

theorem lt_N0 (t : Fin cfg0.N) : t.val < 5 := Nat.lt_of_lt_of_eq t.isLt N_0

/-! ## The input blocks as entries of their arrays -/

/-- Entry `y` of the embedding tile at point `t` is the embedding array at row `2000 t + y₀`, column `y₁`. -/
theorem iblk0_1_apply (c : Dev nD) (t : Fin cfg0.N) (y : S2000x128.Idx) (k : S10000x128.Idx)
    (hk0 : (k 0).val = 2000 * t.val + (y 0).val) (hk1 : (k 1).val = (y 1).val) :
    (iblk0 V c 1 t : Vec F S2000x128 .f32) y = (V c main_arg1 : S10000x128.Idx → Elt F .f32) k := by
  obtain ⟨e0, e1⟩ := blockIdx0_1 t
  unfold iblk0
  rw [View.read_apply]
  show V c main_arg1 _ = V c main_arg1 _
  congr 1
  funext a
  apply Fin.ext
  match a with
  | ⟨0, _⟩ => show win0_1.index t 0 * 2000 + 1 * (y 0).val = (k 0).val; rw [e0, hk0]; omega
  | ⟨1, _⟩ => show win0_1.index t 1 * 128 + 1 * (y 1).val = (k 1).val; rw [e1, hk1]; omega

/-- The same with the array index written out by its coordinates. -/
theorem iblk0_1_ix (c : Dev nD) (t : Fin cfg0.N) (y : S2000x128.Idx) :
    (iblk0 V c 1 t : Vec F S2000x128 .f32) y
      = (V c main_arg1 : S10000x128.Idx → Elt F .f32)
          (ix2 ⟨2000 * t.val + (y 0).val, by have := lt_N0 t; have := idx2_lt0 y; omega⟩ ⟨(y 1).val, idx2_lt1 y⟩) :=
  iblk0_1_apply V c t y _ rfl rfl

/-- A window held whole shows the whole array at every point. One statement per such window. -/
theorem iblk0_0_eq (c : Dev nD) (t : Fin cfg0.N) :
    (iblk0 V c 0 t : Vec F S1024x1280 .f32) = (V c main_arg0 : S1024x1280.Idx → Elt F .f32) := by
  obtain ⟨e0, e1⟩ := blockIdx0_0 t
  funext y
  unfold iblk0
  rw [View.read_apply]
  show V c main_arg0 _ = V c main_arg0 y
  congr 1
  funext a
  apply Fin.ext
  match a with
  | ⟨0, _⟩ => show win0_0.index t 0 * 1024 + 1 * (y 0).val = (y 0).val; rw [e0]; omega
  | ⟨1, _⟩ => show win0_0.index t 1 * 1280 + 1 * (y 1).val = (y 1).val; rw [e1]; omega

theorem iblk0_2_eq (c : Dev nD) (t : Fin cfg0.N) :
    (iblk0 V c 2 t : Vec F S128x128 .f32) = (V c main_arg3 : S128x128.Idx → Elt F .f32) := by
  obtain ⟨e0, e1⟩ := blockIdx0_2 t
  funext y
  unfold iblk0
  rw [View.read_apply]
  show V c main_arg3 _ = V c main_arg3 y
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

theorem iblk0_3_eq (c : Dev nD) (t : Fin cfg0.N) :
    (iblk0 V c 3 t : Vec F S1x128 .f32) = (V c main_v0 : S1x128.Idx → Elt F .f32) := by
  obtain ⟨e0, e1⟩ := blockIdx0_3 t
  funext y
  unfold iblk0
  rw [View.read_apply]
  show V c main_v0 _ = V c main_v0 y
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

theorem iblk0_4_eq (c : Dev nD) (t : Fin cfg0.N) :
    (iblk0 V c 4 t : Vec F S128x64 .f32) = (V c main_arg5 : S128x64.Idx → Elt F .f32) := by
  obtain ⟨e0, e1⟩ := blockIdx0_4 t
  funext y
  unfold iblk0
  rw [View.read_apply]
  show V c main_arg5 _ = V c main_arg5 y
  congr 1
  funext a
  apply Fin.ext
  match a with
  | ⟨0, _⟩ => show win0_4.index t 0 * 128 + 1 * (y 0).val = (y 0).val; rw [e0]; omega
  | ⟨1, _⟩ => show win0_4.index t 1 * 64 + 1 * (y 1).val = (y 1).val; rw [e1]; omega

theorem iblk0_5_eq (c : Dev nD) (t : Fin cfg0.N) :
    (iblk0 V c 5 t : Vec F S1x64 .f32) = (V c main_v1 : S1x64.Idx → Elt F .f32) := by
  obtain ⟨e0, e1⟩ := blockIdx0_5 t
  funext y
  unfold iblk0
  rw [View.read_apply]
  show V c main_v1 _ = V c main_v1 y
  congr 1
  funext a
  apply Fin.ext
  match a with
  | ⟨0, _⟩ => show win0_5.index t 0 * 1 + 1 * (y 0).val = (y 0).val; rw [e0]; omega
  | ⟨1, _⟩ => show win0_5.index t 1 * 64 + 1 * (y 1).val = (y 1).val; rw [e1]; omega

theorem iblk0_6_eq (c : Dev nD) (t : Fin cfg0.N) :
    (iblk0 V c 6 t : Vec F S128x128 .f32) = (V c main_arg7 : S128x128.Idx → Elt F .f32) := by
  obtain ⟨e0, e1⟩ := blockIdx0_6 t
  funext y
  unfold iblk0
  rw [View.read_apply]
  show V c main_arg7 _ = V c main_arg7 y
  congr 1
  funext a
  apply Fin.ext
  match a with
  | ⟨0, _⟩ => show win0_6.index t 0 * 128 + 1 * (y 0).val = (y 0).val; rw [e0]; omega
  | ⟨1, _⟩ => show win0_6.index t 1 * 128 + 1 * (y 1).val = (y 1).val; rw [e1]; omega

theorem iblk0_7_eq (c : Dev nD) (t : Fin cfg0.N) :
    (iblk0 V c 7 t : Vec F S1280x128 .f32) = (V c main_arg11 : S1280x128.Idx → Elt F .f32) := by
  obtain ⟨e0, e1⟩ := blockIdx0_7 t
  funext y
  unfold iblk0
  rw [View.read_apply]
  show V c main_arg11 _ = V c main_arg11 y
  congr 1
  funext a
  apply Fin.ext
  match a with
  | ⟨0, _⟩ => show win0_7.index t 0 * 1280 + 1 * (y 0).val = (y 0).val; rw [e0]; omega
  | ⟨1, _⟩ => show win0_7.index t 1 * 128 + 1 * (y 1).val = (y 1).val; rw [e1]; omega

theorem iblk0_8_eq (c : Dev nD) (t : Fin cfg0.N) :
    (iblk0 V c 8 t : Vec F S1x128 .f32) = (V c main_v4 : S1x128.Idx → Elt F .f32) := by
  obtain ⟨e0, e1⟩ := blockIdx0_8 t
  funext y
  unfold iblk0
  rw [View.read_apply]
  show V c main_v4 _ = V c main_v4 y
  congr 1
  funext a
  apply Fin.ext
  match a with
  | ⟨0, _⟩ => show win0_8.index t 0 * 1 + 1 * (y 0).val = (y 0).val; rw [e0]; omega
  | ⟨1, _⟩ => show win0_8.index t 1 * 128 + 1 * (y 1).val = (y 1).val; rw [e1]; omega

theorem iblk0_9_eq (c : Dev nD) (t : Fin cfg0.N) :
    (iblk0 V c 9 t : Vec F S128x128 .f32) = (V c main_arg13 : S128x128.Idx → Elt F .f32) := by
  obtain ⟨e0, e1⟩ := blockIdx0_9 t
  funext y
  unfold iblk0
  rw [View.read_apply]
  show V c main_arg13 _ = V c main_arg13 y
  congr 1
  funext a
  apply Fin.ext
  match a with
  | ⟨0, _⟩ => show win0_9.index t 0 * 128 + 1 * (y 0).val = (y 0).val; rw [e0]; omega
  | ⟨1, _⟩ => show win0_9.index t 1 * 128 + 1 * (y 1).val = (y 1).val; rw [e1]; omega

theorem iblk0_10_eq (c : Dev nD) (t : Fin cfg0.N) :
    (iblk0 V c 10 t : Vec F S1x128 .f32) = (V c main_v5 : S1x128.Idx → Elt F .f32) := by
  obtain ⟨e0, e1⟩ := blockIdx0_10 t
  funext y
  unfold iblk0
  rw [View.read_apply]
  show V c main_v5 _ = V c main_v5 y
  congr 1
  funext a
  apply Fin.ext
  match a with
  | ⟨0, _⟩ => show win0_10.index t 0 * 1 + 1 * (y 0).val = (y 0).val; rw [e0]; omega
  | ⟨1, _⟩ => show win0_10.index t 1 * 128 + 1 * (y 1).val = (y 1).val; rw [e1]; omega

/-! ## What a point writes back (no output window is cut) -/

theorem flushed0_11 (c : Dev nD) (t : Fin cfg0.N) :
    (dat0 V c).flushed 11 t = out0_11 (iblk0 V c 1 t) (iblk0 V c 2 t) (iblk0 V c 3 t) (iblk0 V c 4 t) (iblk0 V c 5 t) := by
  show (cfg0.win 11).cut (cfg0.grid.coords t) ((dat0 V c).after 11 t) = _
  rw [after0_11]
  rfl

theorem flushed0_12 (c : Dev nD) (t : Fin cfg0.N) :
    (dat0 V c).flushed 12 t = out0_12 (iblk0 V c 1 t) (iblk0 V c 6 t) := by
  show (cfg0.win 12).cut (cfg0.grid.coords t) ((dat0 V c).after 12 t) = _
  rw [after0_12]
  rfl

/-- Window 13's buffer holds the first point's result at every point, so that is what a write-back carries. -/
theorem flushed0_13 (c : Dev nD) (t : Fin cfg0.N) :
    (dat0 V c).flushed 13 t = out0_13 (iblk0 V c 0 t0_0) (iblk0 V c 7 t0_0) (iblk0 V c 8 t0_0) (iblk0 V c 9 t0_0) (iblk0 V c 10 t0_0) := by
  show (cfg0.win 13).cut (cfg0.grid.coords t) ((dat0 V c).after 13 t) = _
  rw [after0_13]
  rfl

/-! ## A whole array read through an output tile -/

/-- Entry `y` of tile `t` of a 10000x64 array `G` is `G` at row `2000 t + y₀`, column `y₁`. -/
theorem read_blk0_11 (t : Fin cfg0.N) (G : S10000x64.Idx → Elt F .f32) (y : S2000x64.Idx) (k : S10000x64.Idx)
    (hk0 : (k 0).val = 2000 * t.val + (y 0).val) (hk1 : (k 1).val = (y 1).val) :
    (((cfg0.win 11).blk t).view.read (Elt F) G : Vec F S2000x64 .f32) y = G k := by
  obtain ⟨e0, e1⟩ := blockIdx0_11 t
  rw [View.read_apply]
  refine congrArg G ?_
  funext a
  apply Fin.ext
  match a with
  | ⟨0, _⟩ => show win0_11.index t 0 * 2000 + 1 * (y 0).val = (k 0).val; rw [e0, hk0]; omega
  | ⟨1, _⟩ => show win0_11.index t 1 * 64 + 1 * (y 1).val = (k 1).val; rw [e1, hk1]; omega

theorem read_blk0_11_ix (t : Fin cfg0.N) (G : S10000x64.Idx → Elt F .f32) (y : S2000x64.Idx) :
    (((cfg0.win 11).blk t).view.read (Elt F) G : Vec F S2000x64 .f32) y
      = G (ix2 ⟨2000 * t.val + (y 0).val, by have := lt_N0 t; have := idx2_lt0 y; omega⟩ ⟨(y 1).val, idx2_lt1 y⟩) :=
  read_blk0_11 t G y _ rfl rfl

/-- Entry `y` of tile `t` of a 10000x128 array `G` is `G` at row `2000 t + y₀`, column `y₁`. -/
theorem read_blk0_12 (t : Fin cfg0.N) (G : S10000x128.Idx → Elt F .bf16) (y : S2000x128.Idx) (k : S10000x128.Idx)
    (hk0 : (k 0).val = 2000 * t.val + (y 0).val) (hk1 : (k 1).val = (y 1).val) :
    (((cfg0.win 12).blk t).view.read (Elt F) G : Vec F S2000x128 .bf16) y = G k := by
  obtain ⟨e0, e1⟩ := blockIdx0_12 t
  rw [View.read_apply]
  refine congrArg G ?_
  funext a
  apply Fin.ext
  match a with
  | ⟨0, _⟩ => show win0_12.index t 0 * 2000 + 1 * (y 0).val = (k 0).val; rw [e0, hk0]; omega
  | ⟨1, _⟩ => show win0_12.index t 1 * 128 + 1 * (y 1).val = (k 1).val; rw [e1, hk1]; omega

theorem read_blk0_12_ix (t : Fin cfg0.N) (G : S10000x128.Idx → Elt F .bf16) (y : S2000x128.Idx) :
    (((cfg0.win 12).blk t).view.read (Elt F) G : Vec F S2000x128 .bf16) y
      = G (ix2 ⟨2000 * t.val + (y 0).val, by have := lt_N0 t; have := idx2_lt0 y; omega⟩ ⟨(y 1).val, idx2_lt1 y⟩) :=
  read_blk0_12 t G y _ rfl rfl

/-- Window 13's one block is its whole array: reading a 1024x128 array through it gives the array back. -/
theorem read_blk0_13 (t : Fin cfg0.N) (G : S1024x128.Idx → Elt F .f32) :
    (((cfg0.win 13).blk t).view.read (Elt F) G : Vec F S1024x128 .f32) = G := by
  obtain ⟨e0, e1⟩ := blockIdx0_13 t
  funext y
  rw [View.read_apply]
  refine congrArg G ?_
  funext a
  apply Fin.ext
  match a with
  | ⟨0, _⟩ => show win0_13.index t 0 * 1024 + 1 * (y 0).val = (y 0).val; rw [e0]; omega
  | ⟨1, _⟩ => show win0_13.index t 1 * 128 + 1 * (y 1).val = (y 1).val; rw [e1]; omega

/-! ## The tiles fill the output arrays -/

theorem mem_blk0_11 (t : Fin cfg0.N) (i : S10000x64.Idx) :
    i ∈ ((cfg0.win 11).blk t).view.set ↔ ∀ a : Fin 2, win0_11.index t a * S2000x64.size a ≤ (i a).val ∧ (i a).val < win0_11.index t a * S2000x64.size a + S2000x64.size a := by
  show i ∈ ((View.whole main_v6_0).slice (win0_11.rect t)).set ↔ _
  rw [View.set_slice_whole, Rect.mem_set_unit]
  exact Iff.rfl

theorem mem_blk0_12 (t : Fin cfg0.N) (i : S10000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v6_1).slice (win0_12.rect t)).set ↔ _
  rw [View.set_slice_whole, Rect.mem_set_unit]
  exact Iff.rfl

theorem mem_blk0_13 (t : Fin cfg0.N) (i : S1024x128.Idx) :
    i ∈ ((cfg0.win 13).blk t).view.set ↔ ∀ a : Fin 2, win0_13.index t a * S1024x128.size a ≤ (i a).val ∧ (i a).val < win0_13.index t a * S1024x128.size a + S1024x128.size a := by
  show i ∈ ((View.whole main_v6_2).slice (win0_13.rect t)).set ↔ _
  rw [View.set_slice_whole, Rect.mem_set_unit]
  exact Iff.rfl

/-- Row `r` of window 11's array lies in tile `r / 2000`, which is written back. -/
theorem tiles0_11 (i : S10000x64.Idx) :
    ∃ t : Fin cfg0.N, (cfg0.win 11).flush t = true ∧ i ∈ ((cfg0.win 11).blk t).view.set := by
  have hi0 : (i 0).val < 10000 := idx2_lt0 i
  have hi1 : (i 1).val < 64 := idx2_lt1 i
  have hN : cfg0.N = 5 := N_0
  let t : Fin cfg0.N := ⟨(i 0).val / 2000, by rw [hN]; omega⟩
  have ht : t.val = (i 0).val / 2000 := rfl
  obtain ⟨e0, e1⟩ := blockIdx0_11 t
  refine ⟨t, flush0_11 t, ?_⟩
  rw [mem_blk0_11]
  intro a
  match a with
  | ⟨0, _⟩ => show win0_11.index t 0 * 2000 ≤ (i 0).val ∧ (i 0).val < win0_11.index t 0 * 2000 + 2000; rw [e0, ht]; omega
  | ⟨1, _⟩ => show win0_11.index t 1 * 64 ≤ (i 1).val ∧ (i 1).val < win0_11.index t 1 * 64 + 64; rw [e1]; omega

/-- Row `r` of window 12's array lies in tile `r / 2000`, which is written back. -/
theorem tiles0_12 (i : S10000x128.Idx) :
    ∃ t : Fin cfg0.N, (cfg0.win 12).flush t = true ∧ i ∈ ((cfg0.win 12).blk t).view.set := by
  have hi0 : (i 0).val < 10000 := idx2_lt0 i
  have hi1 : (i 1).val < 128 := idx2_lt1 i
  have hN : cfg0.N = 5 := N_0
  let t : Fin cfg0.N := ⟨(i 0).val / 2000, by rw [hN]; omega⟩
  have ht : t.val = (i 0).val / 2000 := rfl
  obtain ⟨e0, e1⟩ := blockIdx0_12 t
  refine ⟨t, flush0_12 t, ?_⟩
  rw [mem_blk0_12]
  intro a
  match a with
  | ⟨0, _⟩ => show win0_12.index t 0 * 2000 ≤ (i 0).val ∧ (i 0).val < win0_12.index t 0 * 2000 + 2000; rw [e0, ht]; omega
  | ⟨1, _⟩ => show win0_12.index t 1 * 128 ≤ (i 1).val ∧ (i 1).val < win0_12.index t 1 * 128 + 128; rw [e1]; omega

/-- Every index of window 13's array lies in its one block, which the last point writes back. -/
theorem tiles0_13 (i : S1024x128.Idx) :
    ∃ t : Fin cfg0.N, (cfg0.win 13).flush t = true ∧ i ∈ ((cfg0.win 13).blk t).view.set := by
  have hi0 : (i 0).val < 1024 := idx2_lt0 i
  have hi1 : (i 1).val < 128 := idx2_lt1 i
  obtain ⟨e0, e1⟩ := blockIdx0_13 t0_4
  refine ⟨t0_4, (flush0_13 t0_4).mpr (by decide), ?_⟩
  rw [mem_blk0_13]
  intro a
  match a with
  | ⟨0, _⟩ => show win0_13.index t0_4 0 * 1024 ≤ (i 0).val ∧ (i 0).val < win0_13.index t0_4 0 * 1024 + 1024; rw [e0]; omega
  | ⟨1, _⟩ => show win0_13.index t0_4 1 * 128 ≤ (i 1).val ∧ (i 1).val < win0_13.index t0_4 1 * 128 + 128; rw [e1]; omega

/-! ## The output arrays after the region -/

/-- If tile `t` of `G` is what point `t` writes back to window 11, at every point, window 11's array ends at `G`. -/
theorem final0_11 (c : Dev nD) (G : S10000x64.Idx → Elt F .f32)
    (hG : ∀ t : Fin cfg0.N, (dat0 V c).flushed 11 t = ((cfg0.win 11).blk t).view.read (Elt F) G) :
    (dat0 V c).arrAt 11 cfg0.N = G :=
  (dat0 V c).arrAt_eq_of_cover 11 G (fun t _ => hG t) tiles0_11

/-- The same for window 12. -/
theorem final0_12 (c : Dev nD) (G : S10000x128.Idx → Elt F .bf16)
    (hG : ∀ t : Fin cfg0.N, (dat0 V c).flushed 12 t = ((cfg0.win 12).blk t).view.read (Elt F) G) :
    (dat0 V c).arrAt 12 cfg0.N = G :=
  (dat0 V c).arrAt_eq_of_cover 12 G (fun t _ => hG t) tiles0_12

/-- Window 13 is written back only after the last point: if that one write-back is `G` read through the block,
    window 13's array ends at `G`. -/
theorem final0_13 (c : Dev nD) (G : S1024x128.Idx → Elt F .f32)
    (hG : (dat0 V c).flushed 13 t0_4 = ((cfg0.win 13).blk t0_4).view.read (Elt F) G) :
    (dat0 V c).arrAt 13 cfg0.N = G :=
  (dat0 V c).arrAt_eq_of_cover 13 G (fun t hf => by
    have h4 : t.val % 5 = 4 := (flush0_13 t).mp hf
    have hlt := lt_N0 t
    obtain rfl : t = t0_4 := Fin.ext (by show t.val = 4; omega)
    exact hG) tiles0_13

end Cert.KernelIdeal.Gen

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.KI.Pay.lean ====
/-
  The six stored values of the four kernels, each read at one entry on the extended reals.

  Every matrix product is the plain sum over the contracted axis of the products of the entries; a bias row is read
  at its column; the rectifier is the maximum with zero; a change of float format is the identity; the last kernel
  contracts the last axis of both operands of each of its two products, adds them and applies the logistic function.
-/
import proofs.«100263_g58042188038559_cont_9to1c4b_174_21_alg».proof.Proof.Gen.KernelIdeal.Skeleton
import proofs.«100263_g58042188038559_cont_9to1c4b_174_21_alg».proof.Proof.LibPlainMatmul
import proofs.«100263_g58042188038559_cont_9to1c4b_174_21_alg».proof.Proof.LibMatmulNT
import Idealize.ShloMosaic.Lib.Pipeline.Value
import Idealize.ShloMosaic.Lib.ValueLayout

noncomputable section

namespace Cert.KI.Math

open Idealize.ShloMosaic Idealize.ShloMosaic.ValueIdx Cert.KernelIdeal Cert.KernelIdeal.Gen

/-! ## The products, one per dimension record -/

/-- (1024 × 1280) · (1280 × 128) at (i, j). -/
theorem mm_1024_1280_128 (lhs : FVec Ideal S1024x1280 .f32) (rhs : FVec Ideal S1280x128 .f32) (i : Fin 1024) (j : Fin 128) :
    matmul dot_S1024x1280_S1280x128_S1024x128_1_0_0_1_n_n none lhs rhs (constant S1024x128 .f32 0x00000000#32) (ix2 i j)
      = ∑ k : Fin 1280, lhs (ix2 i k) * rhs (ix2 k j) :=
  Cert.PlainMatmul.matmul_zero_apply 1024 1280 128 none lhs rhs i j

/-- (1024 × 128) · (128 × 128) at (i, j). -/
theorem mm_1024_128_128 (lhs : FVec Ideal S1024x128 .f32) (rhs : FVec Ideal S128x128 .f32) (i : Fin 1024) (j : Fin 128) :
    matmul dot_S1024x128_S128x128_S1024x128_1_0_0_1_n_n none lhs rhs (constant S1024x128 .f32 0x00000000#32) (ix2 i j)
      = ∑ k : Fin 128, lhs (ix2 i k) * rhs (ix2 k j) :=
  Cert.PlainMatmul.matmul_zero_apply 1024 128 128 none lhs rhs i j

/-- (2000 × 128) · (128 × 128) at (i, j). -/
theorem mm_2000_128_128 (lhs : FVec Ideal S2000x128 .f32) (rhs : FVec Ideal S128x128 .f32) (i : Fin 2000) (j : Fin 128) :
    matmul dot_S2000x128_S128x128_S2000x128_1_0_0_1_n_n none lhs rhs (constant S2000x128 .f32 0x00000000#32) (ix2 i j)
      = ∑ k : Fin 128, lhs (ix2 i k) * rhs (ix2 k j) :=
  Cert.PlainMatmul.matmul_zero_apply 2000 128 128 none lhs rhs i j

/-- (2000 × 128) · (128 × 64) at (i, j). -/
theorem mm_2000_128_64 (lhs : FVec Ideal S2000x128 .f32) (rhs : FVec Ideal S128x64 .f32) (i : Fin 2000) (j : Fin 64) :
    matmul dot_S2000x128_S128x64_S2000x64_1_0_0_1_n_n none lhs rhs (constant S2000x64 .f32 0x00000000#32) (ix2 i j)
      = ∑ k : Fin 128, lhs (ix2 i k) * rhs (ix2 k j) :=
  Cert.PlainMatmul.matmul_zero_apply 2000 128 64 none lhs rhs i j

/-- (400 × 10000) · (10000 × 128) at (i, j); the right operand is in the narrow format. -/
theorem mm_400_10000_128 (lhs : FVec Ideal S400x10000 .f32) (rhs : FVec Ideal S10000x128 .bf16) (i : Fin 400) (j : Fin 128) :
    matmul dot_S400x10000_S10000x128_S400x128_1_0_0_1_n_n none lhs rhs (constant S400x128 .f32 0x00000000#32) (ix2 i j)
      = ∑ k : Fin 10000, lhs (ix2 i k) * rhs (ix2 k j) :=
  Cert.PlainMatmul.matmul_zero_apply 400 10000 128 none lhs rhs i j

/-- (400 × 128) · (128 × 64) at (i, j). -/
theorem mm_400_128_64 (lhs : FVec Ideal S400x128 .f32) (rhs : FVec Ideal S128x64 .f32) (i : Fin 400) (j : Fin 64) :
    matmul dot_S400x128_S128x64_S400x64_1_0_0_1_n_n none lhs rhs (constant S400x64 .f32 0x00000000#32) (ix2 i j)
      = ∑ k : Fin 128, lhs (ix2 i k) * rhs (ix2 k j) :=
  Cert.PlainMatmul.matmul_zero_apply 400 128 64 none lhs rhs i j

/-- (400 × 10000) · (10000 × 64) at (i, j); the right operand is in the narrow format. -/
theorem mm_400_10000_64 (lhs : FVec Ideal S400x10000 .f32) (rhs : FVec Ideal S10000x64 .bf16) (i : Fin 400) (j : Fin 64) :
    matmul dot_S400x10000_S10000x64_S400x64_1_0_0_1_n_n none lhs rhs (constant S400x64 .f32 0x00000000#32) (ix2 i j)
      = ∑ k : Fin 10000, lhs (ix2 i k) * rhs (ix2 k j) :=
  Cert.PlainMatmul.matmul_zero_apply 400 10000 64 none lhs rhs i j

/-- (256 × 64) · (10000 × 64)ᵀ at (i, j): both operands contracted on their last axis. -/
theorem mmT_256_64_10000 (lhs : FVec Ideal S256x64 .f32) (rhs : FVec Ideal S10000x64 .f32) (i : Fin 256) (j : Fin 10000) :
    matmul dot_S256x64_S10000x64_S256x10000_1_1_0_0_n_n none lhs rhs (constant S256x10000 .f32 0x00000000#32) (ix2 i j)
      = ∑ k : Fin 64, lhs (ix2 i k) * rhs (ix2 j k) :=
  Cert.MatmulNT.matmul_zero_apply 256 64 10000 none lhs rhs i j

/-! ## A bias row and the zero of the rectifier -/

/-- A one-row array, cast to its own shape and repeated down `a` rows, reads at (p, c) the row's entry at c. -/
theorem row_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix2 (0 : Fin 1) c) := by
  rw [shapeCast_self]; exact broadcastTo_1b_ab_apply v h2 p c

/-- The all-zero word is the number zero. -/
theorem zero_word : (Scalar.ofBits .f32 0x00000000#32 : Ideal .f32) = 0 := Ideal.ofBits_zero_f32

/-! ## The stored values at an entry -/

/-- Sequence encoder: (x · W₁ + b₁)⁺ · W₂ + b₂ at (i, j). -/
theorem k0_pay1_apply (v23 : Vec Ideal S1024x1280 .f32) (v24 : Vec Ideal S1280x128 .f32) (v26 : Vec Ideal S1x128 .f32)
    (v32 : Vec Ideal S128x128 .f32) (v34 : Vec Ideal S1x128 .f32) (i : Fin 1024) (j : Fin 128) :
    k0_pay1 v23 v24 v26 v32 v34 (ix2 i j)
      = (∑ k : Fin 128, max ((∑ l : Fin 1280, v23 (ix2 i l) * v24 (ix2 l k)) + v26 (ix2 (0 : Fin 1) k)) 0 * v32 (ix2 k j))
          + v34 (ix2 (0 : Fin 1) j) := by
  unfold k0_pay1
  rw [addf_apply, mm_1024_128_128, row_apply]
  refine congrArg (· + v34 (ix2 (0 : Fin 1) j)) (Finset.sum_congr rfl fun k _ => ?_)
  rw [maximumf_apply, addf_apply, mm_1024_1280_128, row_apply, broadcast_apply, zero_word]

/-- Semantic branch: (x · W₁ + b₁)⁺ · W₂ + b₂ at (i, j). -/
theorem k0_pay2_apply (v3 : Vec Ideal S2000x128 .f32) (v4 : Vec Ideal S128x128 .f32) (v6 : Vec Ideal S1x128 .f32)
    (v12 : Vec Ideal S128x64 .f32) (v14 : Vec Ideal S1x64 .f32) (i : Fin 2000) (j : Fin 64) :
    k0_pay2 v3 v4 v6 v12 v14 (ix2 i j)
      = (∑ k : Fin 128, max ((∑ l : Fin 128, v3 (ix2 i l) * v4 (ix2 l k)) + v6 (ix2 (0 : Fin 1) k)) 0 * v12 (ix2 k j))
          + v14 (ix2 (0 : Fin 1) j) := by
  unfold k0_pay2
  rw [addf_apply, mm_2000_128_64, row_apply]
  refine congrArg (· + v14 (ix2 (0 : Fin 1) j)) (Finset.sum_congr rfl fun k _ => ?_)
  rw [maximumf_apply, addf_apply, mm_2000_128_128, row_apply, broadcast_apply, zero_word]

/-- First support: x · W at (i, j); the change of format is the identity. -/
theorem k0_pay3_apply (v3 : Vec Ideal S2000x128 .f32) (v19 : Vec Ideal S128x128 .f32) (i : Fin 2000) (j : Fin 128) :
    k0_pay3 v3 v19 (ix2 i j) = ∑ l : Fin 128, v3 (ix2 i l) * v19 (ix2 l j) := by
  unfold k0_pay3
  rw [truncf_apply, mm_2000_128_128]

/-- Second support: (A · s + b)⁺ · W at (i, j); the shape cast and the change of format are the identity. -/
theorem k1_pay1_apply (v0 : Vec Ideal S400x10000 .f32) (v1 : Vec Ideal S10000x128 .bf16) (v4 : Vec Ideal S1x128 .f32)
    (v10 : Vec Ideal S128x64 .f32) (i : Fin 400) (j : Fin 64) :
    k1_pay1 v0 v1 v4 v10 (ix2 i j)
      = ∑ k : Fin 128, max ((∑ l : Fin 10000, v0 (ix2 i l) * v1 (ix2 l k)) + v4 (ix2 (0 : Fin 1) k)) 0 * v10 (ix2 k j) := by
  unfold k1_pay1
  rw [truncf_apply, mm_400_128_64]
  refine Finset.sum_congr rfl fun k _ => ?_
  rw [maximumf_apply, addf_apply, mm_400_10000_128, row_apply, broadcast_apply, zero_word, shapeCast_self]

/-- Structure branch: (A · s + b)⁺ at (i, j). -/
theorem k2_pay1_apply (v0 : Vec Ideal S400x10000 .f32) (v1 : Vec Ideal S10000x64 .bf16) (v4 : Vec Ideal S1x64 .f32)
    (i : Fin 400) (j : Fin 64) :
    k2_pay1 v0 v1 v4 (ix2 i j) = max ((∑ l : Fin 10000, v0 (ix2 i l) * v1 (ix2 l j)) + v4 (ix2 (0 : Fin 1) j)) 0 := by
  unfold k2_pay1
  rw [maximumf_apply, addf_apply, mm_400_10000_64, row_apply, broadcast_apply, zero_word, shapeCast_self]

/-- Prediction: the logistic function of the sum of the two products, each contracted on the last axis of both
    operands, at (i, j). -/
theorem k3_pay1_apply (v0 : Vec Ideal S256x64 .f32) (v2 : Vec Ideal S10000x64 .f32) (v5 : Vec Ideal S256x64 .f32)
    (v7 : Vec Ideal S10000x64 .f32) (i : Fin 256) (j : Fin 10000) :
    k3_pay1 v0 v2 v5 v7 (ix2 i j)
      = Ideal.logistic ((∑ k : Fin 64, v0 (ix2 i k) * v2 (ix2 j k)) + ∑ k : Fin 64, v5 (ix2 i k) * v7 (ix2 j k)) := by
  unfold k3_pay1
  show Ideal.logistic (_ + _) = _
  rw [mmT_256_64_10000, mmT_256_64_10000, shapeCast_self, shapeCast_self, shapeCast_self, shapeCast_self]

end Cert.KI.Math

end
-- ==== Proof.KI.Val0.lean ====
/- Region 0 on the extended reals: every entry of its three output arrays after the region, as formulas
   in the entries of the arrays the region found. Window 11 is a two-layer perceptron of the node
   embeddings, row by row; window 12 is the embeddings times a weight matrix; window 13 is the same
   two-layer perceptron shape applied to the sequence array. -/
import proofs.«100263_g58042188038559_cont_9to1c4b_174_21_alg».proof.Proof.KI.Reg0Arr
import proofs.«100263_g58042188038559_cont_9to1c4b_174_21_alg».proof.Proof.KI.Pay

noncomputable section

namespace Cert.KI.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KI.Math
open scoped BigOperators

-- what the TensorCore's buffers hold when the region is entered, on the extended reals
variable (V : (c : Dev nD) → (b : Ref sig .tc) → Buf (Elt Ideal) ((c : Thread nD τ).loc b))

theorem zeros0 : (![0, 0] : Fin 2 → Nat) = fun _ => 0 := funext fun a => by fin_cases a <;> rfl

/-! ## The body's results at one entry (each store covers its buffer; every load reads a whole buffer) -/

theorem out0_11_apply (x1 : Vec Ideal S2000x128 .f32) (x2 : Vec Ideal S128x128 .f32) (x3 : Vec Ideal S1x128 .f32)
    (x4 : Vec Ideal S128x64 .f32) (x5 : Vec Ideal S1x64 .f32) (p : Fin 2000) (q : Fin 64) :
    out0_11 x1 x2 x3 x4 x5 (ix2 p q)
      = (∑ k : Fin 128, max ((∑ l : Fin 128, x1 (ix2 p l) * x2 (ix2 l k)) + x3 (ix2 (0 : Fin 1) k)) 0 * x4 (ix2 k q))
          + x5 (ix2 (0 : Fin 1) q) := by
  unfold out0_11
  rw [View.canon_unit_zero zeros0]
  simp only [View.ld_unit_zero (S := S2000x128) zeros0, View.ld_unit_zero (S := S128x128) zeros0,
    View.ld_unit_zero (S := S1x128) zeros0, View.ld_unit_zero (S := S128x64) zeros0, View.ld_unit_zero (S := S1x64) zeros0]
  exact k0_pay2_apply x1 x2 x3 x4 x5 p q

theorem out0_12_apply (x1 : Vec Ideal S2000x128 .f32) (x6 : Vec Ideal S128x128 .f32) (p : Fin 2000) (q : Fin 128) :
    out0_12 x1 x6 (ix2 p q) = ∑ l : Fin 128, x1 (ix2 p l) * x6 (ix2 l q) := by
  unfold out0_12
  rw [View.canon_unit_zero zeros0]
  simp only [View.ld_unit_zero (S := S2000x128) zeros0, View.ld_unit_zero (S := S128x128) zeros0]
  exact k0_pay3_apply x1 x6 p q

theorem out0_13_apply (x0 : Vec Ideal S1024x1280 .f32) (x7 : Vec Ideal S1280x128 .f32) (x8 : Vec Ideal S1x128 .f32)
    (x9 : Vec Ideal S128x128 .f32) (x10 : Vec Ideal S1x128 .f32) (p : Fin 1024) (q : Fin 128) :
    out0_13 x0 x7 x8 x9 x10 (ix2 p q)
      = (∑ k : Fin 128, max ((∑ l : Fin 1280, x0 (ix2 p l) * x7 (ix2 l k)) + x8 (ix2 (0 : Fin 1) k)) 0 * x9 (ix2 k q))
          + x10 (ix2 (0 : Fin 1) q) := by
  unfold out0_13
  rw [View.canon_unit_zero zeros0]
  simp only [View.ld_unit_zero (S := S1024x1280) zeros0, View.ld_unit_zero (S := S1280x128) zeros0,
    View.ld_unit_zero (S := S1x128) zeros0, View.ld_unit_zero (S := S128x128) zeros0]
  exact k0_pay1_apply x0 x7 x8 x9 x10 p q

/-! ## The three output arrays as functions of the arrays found -/

/-- Entry (i, j) of (X · W₁ + b₁)⁺ · W₂ + b₂ with 128 hidden units and 64 outputs, `X` of 10000 rows. -/
def val0_11 (X : S10000x128.Idx → EReal) (W1 : S128x128.Idx → EReal) (b1 : S1x128.Idx → EReal) (W2 : S128x64.Idx → EReal)
    (b2 : S1x64.Idx → EReal) (i : Fin 10000) (j : Fin 64) : EReal :=
  (∑ k : Fin 128, max ((∑ l : Fin 128, X (ix2 i l) * W1 (ix2 l k)) + b1 (ix2 (0 : Fin 1) k)) 0 * W2 (ix2 k j))
    + b2 (ix2 (0 : Fin 1) j)

/-- Entry (i, j) of X · W. -/
def val0_12 (X : S10000x128.Idx → EReal) (W : S128x128.Idx → EReal) (i : Fin 10000) (j : Fin 128) : EReal :=
  ∑ l : Fin 128, X (ix2 i l) * W (ix2 l j)

/-- Entry (i, j) of (X · W₁ + b₁)⁺ · W₂ + b₂ with `X` 1024 x 1280, 128 hidden units and 128 outputs. -/
def val0_13 (X : S1024x1280.Idx → EReal) (W1 : S1280x128.Idx → EReal) (b1 : S1x128.Idx → EReal) (W2 : S128x128.Idx → EReal)
    (b2 : S1x128.Idx → EReal) (i : Fin 1024) (j : Fin 128) : EReal :=
  (∑ k : Fin 128, max ((∑ l : Fin 1280, X (ix2 i l) * W1 (ix2 l k)) + b1 (ix2 (0 : Fin 1) k)) 0 * W2 (ix2 k j))
    + b2 (ix2 (0 : Fin 1) j)

/-! ## What is written back -/

theorem tile0_11 (c : Dev nD) (t : Fin cfg0.N) :
    (dat0 V c).flushed 11 t = ((cfg0.win 11).blk t).view.read (Elt Ideal)
      (fun idx : S10000x64.Idx => val0_11 (V c main_arg1) (V c main_arg3) (V c main_v0) (V c main_arg5) (V c main_v1) (idx 0) (idx 1)) := by
  rw [flushed0_11]
  funext y
  obtain ⟨p, q, rfl⟩ : ∃ (p : Fin 2000) (q : Fin 64), y = ix2 p q := ⟨y 0, y 1, eq_ix2 y⟩
  have hp := p.isLt
  have ht := lt_N0 t
  have hr := read_blk0_11 (F := Ideal) t (fun idx : S10000x64.Idx => val0_11 (V c main_arg1) (V c main_arg3) (V c main_v0) (V c main_arg5) (V c main_v1) (idx 0) (idx 1))
    (ix2 p q) (ix2 ⟨2000 * t.val + p.val, by omega⟩ q) rfl rfl
  refine Eq.trans ?_ hr.symm
  refine (out0_11_apply _ _ _ _ _ p q).trans ?_
  show _ = val0_11 (V c main_arg1) (V c main_arg3) (V c main_v0) (V c main_arg5) (V c main_v1) ⟨2000 * t.val + p.val, _⟩ q
  unfold val0_11
  rw [iblk0_2_eq, iblk0_3_eq, iblk0_4_eq, iblk0_5_eq]
  refine congrArg (fun s => s + (V c main_v1 : S1x64.Idx → EReal) (ix2 (0 : Fin 1) q)) (Finset.sum_congr rfl fun k _ => ?_)
  refine congrArg (fun s => max (s + (V c main_v0 : S1x128.Idx → EReal) (ix2 (0 : Fin 1) k)) 0 * (V c main_arg5 : S128x64.Idx → EReal) (ix2 k q))
    (Finset.sum_congr rfl fun l _ => ?_)
  rw [iblk0_1_apply V c t (ix2 p l) (ix2 ⟨2000 * t.val + p.val, by omega⟩ l) rfl rfl]

theorem tile0_12 (c : Dev nD) (t : Fin cfg0.N) :
    (dat0 V c).flushed 12 t = ((cfg0.win 12).blk t).view.read (Elt Ideal)
      (fun idx : S10000x128.Idx => val0_12 (V c main_arg1) (V c main_arg7) (idx 0) (idx 1)) := by
  rw [flushed0_12]
  funext y
  obtain ⟨p, q, rfl⟩ : ∃ (p : Fin 2000) (q : Fin 128), y = ix2 p q := ⟨y 0, y 1, eq_ix2 y⟩
  have hp := p.isLt
  have ht := lt_N0 t
  have hr := read_blk0_12 (F := Ideal) t (fun idx : S10000x128.Idx => val0_12 (V c main_arg1) (V c main_arg7) (idx 0) (idx 1))
    (ix2 p q) (ix2 ⟨2000 * t.val + p.val, by omega⟩ q) rfl rfl
  refine Eq.trans ?_ hr.symm
  refine (out0_12_apply _ _ p q).trans ?_
  show _ = val0_12 (V c main_arg1) (V c main_arg7) ⟨2000 * t.val + p.val, _⟩ q
  unfold val0_12
  rw [iblk0_6_eq]
  refine Finset.sum_congr rfl fun l _ => ?_
  rw [iblk0_1_apply V c t (ix2 p l) (ix2 ⟨2000 * t.val + p.val, by omega⟩ l) rfl rfl]

/-- The one write-back of window 13, after the last point. -/
theorem tile0_13 (c : Dev nD) :
    (dat0 V c).flushed 13 t0_4 = ((cfg0.win 13).blk t0_4).view.read (Elt Ideal)
      (fun idx : S1024x128.Idx => val0_13 (V c main_arg0) (V c main_arg11) (V c main_v4) (V c main_arg13) (V c main_v5) (idx 0) (idx 1)) := by
  rw [flushed0_13]
  have hr := read_blk0_13 (F := Ideal) t0_4 (fun idx : S1024x128.Idx => val0_13 (V c main_arg0) (V c main_arg11) (V c main_v4) (V c main_arg13) (V c main_v5) (idx 0) (idx 1))
  refine Eq.trans ?_ hr.symm
  funext y
  obtain ⟨p, q, rfl⟩ : ∃ (p : Fin 1024) (q : Fin 128), y = ix2 p q := ⟨y 0, y 1, eq_ix2 y⟩
  refine (out0_13_apply _ _ _ _ _ p q).trans ?_
  show _ = val0_13 (V c main_arg0) (V c main_arg11) (V c main_v4) (V c main_arg13) (V c main_v5) p q
  unfold val0_13
  rw [iblk0_0_eq, iblk0_7_eq, iblk0_8_eq, iblk0_9_eq, iblk0_10_eq]

/-! ## The output arrays, entry by entry -/

theorem value0_11 (c : Dev nD) (i : Fin 10000) (j : Fin 64) :
    (dat0 V c).arrAt 11 cfg0.N (ix2 i j) = val0_11 (V c main_arg1) (V c main_arg3) (V c main_v0) (V c main_arg5) (V c main_v1) i j :=
  congrFun (final0_11 V c (fun idx : S10000x64.Idx => val0_11 (V c main_arg1) (V c main_arg3) (V c main_v0) (V c main_arg5) (V c main_v1) (idx 0) (idx 1)) (tile0_11 V c)) (ix2 i j)

theorem value0_12 (c : Dev nD) (i : Fin 10000) (j : Fin 128) :
    (dat0 V c).arrAt 12 cfg0.N (ix2 i j) = val0_12 (V c main_arg1) (V c main_arg7) i j :=
  congrFun (final0_12 V c (fun idx : S10000x128.Idx => val0_12 (V c main_arg1) (V c main_arg7) (idx 0) (idx 1)) (tile0_12 V c)) (ix2 i j)

theorem value0_13 (c : Dev nD) (i : Fin 1024) (j : Fin 128) :
    (dat0 V c).arrAt 13 cfg0.N (ix2 i j) = val0_13 (V c main_arg0) (V c main_arg11) (V c main_v4) (V c main_arg13) (V c main_v5) i j :=
  congrFun (final0_13 V c (fun idx : S1024x128.Idx => val0_13 (V c main_arg0) (V c main_arg11) (V c main_v4) (V c main_arg13) (V c main_v5) (idx 0) (idx 1)) (tile0_13 V c)) (ix2 i j)

end Cert.KI.Val

end
-- ==== Proof.KI.Reg1Arr.lean ====
/- Region 1, from blocks to arrays. Each window's block at a grid point is read as entries of the
   window's array: the adjacency tile at point t is rows 400 t .. 400 t + 399, a whole operand is the
   operand. What point t writes back is the body's result on those blocks, the 25 output tiles fill the
   10000 rows of the output array, and so the output array after the region is any whole-array function
   whose tile t is what point t writes back. -/
import proofs.«100263_g58042188038559_cont_9to1c4b_174_21_alg».proof.Proof.KI.Reg1
import Idealize.ShloMosaic.Lib.Pipeline.Value
import Idealize.ShloMosaic.Lib.ValueIdx
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

variable {F : FTy → Type} [FloatOps F]

-- what the TensorCore's buffers hold when the region is entered
variable (V : (c : Dev nD) → (b : Ref sig .tc) → Buf (Elt F) ((c : Thread nD τ).loc b))

/-! ## Where each window's block sits: the block indices, point by point -/

/-- The adjacency tile and the output tile move one block down per point; the whole operands stay at block
    zero. Decided over the 25 points. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_N1 (t : Fin cfg1.N) : t.val < 25 := Nat.lt_of_lt_of_eq t.isLt N_1

/-! ## The input blocks as entries of their arrays -/

/-- Entry `y` of the adjacency tile at point `t` is the adjacency matrix at row `400 t + y₀`, column `y₁`. -/
theorem iblk1_0_apply (c : Dev nD) (t : Fin cfg1.N) (y : S400x10000.Idx) (k : S10000x10000.Idx)
    (hk0 : (k 0).val = 400 * t.val + (y 0).val) (hk1 : (k 1).val = (y 1).val) :
    (iblk1 V c 0 t : Vec F S400x10000 .f32) y = (V c main_arg2 : S10000x10000.Idx → Elt F .f32) k := by
  obtain ⟨e0, e1, -⟩ := blockIdx1 t
  unfold iblk1
  rw [View.read_apply]
  show V c main_arg2 _ = V c main_arg2 _
  congr 1
  funext a
  apply Fin.ext
  match a with
  | ⟨0, _⟩ => show win1_0.index t 0 * 400 + 1 * (y 0).val = (k 0).val; rw [e0, hk0]; omega
  | ⟨1, _⟩ => show win1_0.index t 1 * 10000 + 1 * (y 1).val = (k 1).val; rw [e1, hk1]; omega

/-- The same with the array index written out by its coordinates. -/
theorem iblk1_0_ix (c : Dev nD) (t : Fin cfg1.N) (y : S400x10000.Idx) :
    (iblk1 V c 0 t : Vec F S400x10000 .f32) y
      = (V c main_arg2 : S10000x10000.Idx → Elt F .f32)
          (ix2 ⟨400 * t.val + (y 0).val, by have := lt_N1 t; have := idx2_lt0 y; omega⟩ ⟨(y 1).val, idx2_lt1 y⟩) :=
  iblk1_0_apply V c t y _ rfl rfl

/-- A whole operand's block is the operand, at every point. Window 1. -/
theorem iblk1_1_eq (c : Dev nD) (t : Fin cfg1.N) :
    (iblk1 V c 1 t : Vec F S10000x128 .bf16) = (V c main_v6_1 : S10000x128.Idx → Elt F .bf16) := by
  obtain ⟨-, -, e0, e1, -⟩ := blockIdx1 t
  funext y
  unfold iblk1
  rw [View.read_apply]
  show V c main_v6_1 _ = V c main_v6_1 y
  congr 1
  funext a
  apply Fin.ext
  match a with
  | ⟨0, _⟩ => show win1_1.index t 0 * 10000 + 1 * (y 0).val = (y 0).val; rw [e0]; omega
  | ⟨1, _⟩ => show win1_1.index t 1 * 128 + 1 * (y 1).val = (y 1).val; rw [e1]; omega

/-- Window 2. -/
theorem iblk1_2_eq (c : Dev nD) (t : Fin cfg1.N) :
    (iblk1 V c 2 t : Vec F S1x128 .f32) = (V c main_v2 : S1x128.Idx → Elt F .f32) := by
  obtain ⟨-, -, -, -, e0, e1, -⟩ := blockIdx1 t
  funext y
  unfold iblk1
  rw [View.read_apply]
  show V c main_v2 _ = V c main_v2 y
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- Window 3. -/
theorem iblk1_3_eq (c : Dev nD) (t : Fin cfg1.N) :
    (iblk1 V c 3 t : Vec F S128x64 .f32) = (V c main_arg9 : S128x64.Idx → Elt F .f32) := by
  obtain ⟨-, -, -, -, -, -, e0, e1, -⟩ := blockIdx1 t
  funext y
  unfold iblk1
  rw [View.read_apply]
  show V c main_arg9 _ = V c main_arg9 y
  congr 1
  funext a
  apply Fin.ext
  match a with
  | ⟨0, _⟩ => show win1_3.index t 0 * 128 + 1 * (y 0).val = (y 0).val; rw [e0]; omega
  | ⟨1, _⟩ => show win1_3.index t 1 * 64 + 1 * (y 1).val = (y 1).val; rw [e1]; omega

/-! ## The output: what a point writes back, and a whole array read through the output tile -/

/-- Point `t` writes back the body's result on the point's input blocks (the output window is not cut). -/
theorem flushed1_4 (c : Dev nD) (t : Fin cfg1.N) :
    (dat1 V c).flushed 4 t = out1_4 (iblk1 V c 0 t) (iblk1 V c 1 t) (iblk1 V c 2 t) (iblk1 V c 3 t) := by
  show (cfg1.win 4).cut (cfg1.grid.coords t) ((dat1 V c).after 4 t) = _
  rw [after1_4]
  rfl

/-- Entry `y` of tile `t` of a 10000x64 array `G` is `G` at row `400 t + y₀`, column `y₁`. -/
theorem read_blk1_4 (t : Fin cfg1.N) (G : S10000x64.Idx → Elt F .bf16) (y : S400x64.Idx) (k : S10000x64.Idx)
    (hk0 : (k 0).val = 400 * t.val + (y 0).val) (hk1 : (k 1).val = (y 1).val) :
    (((cfg1.win 4).blk t).view.read (Elt F) G : Vec F S400x64 .bf16) y = G k := by
  obtain ⟨-, -, -, -, -, -, -, -, e0, e1⟩ := blockIdx1 t
  rw [View.read_apply]
  refine congrArg G ?_
  funext a
  apply Fin.ext
  match a with
  | ⟨0, _⟩ => show win1_4.index t 0 * 400 + 1 * (y 0).val = (k 0).val; rw [e0, hk0]; omega
  | ⟨1, _⟩ => show win1_4.index t 1 * 64 + 1 * (y 1).val = (k 1).val; rw [e1, hk1]; omega

/-- The same with the array index written out by its coordinates. -/
theorem read_blk1_4_ix (t : Fin cfg1.N) (G : S10000x64.Idx → Elt F .bf16) (y : S400x64.Idx) :
    (((cfg1.win 4).blk t).view.read (Elt F) G : Vec F S400x64 .bf16) y
      = G (ix2 ⟨400 * t.val + (y 0).val, by have := lt_N1 t; have := idx2_lt0 y; omega⟩ ⟨(y 1).val, idx2_lt1 y⟩) :=
  read_blk1_4 t G y _ rfl rfl

/-! ## The tiles fill the output array -/

/-- An index of the output array lies in tile `t` iff each coordinate is in the tile's range on its axis. -/
theorem mem_blk1_4 (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v7).slice (win1_4.rect t)).set ↔ _
  rw [View.set_slice_whole, Rect.mem_set_unit]
  exact Iff.rfl

/-- Row `r` of the output array lies in tile `r / 400`, which is written back. -/
theorem tiles1_4 (i : S10000x64.Idx) :
    ∃ t : Fin cfg1.N, (cfg1.win 4).flush t = true ∧ i ∈ ((cfg1.win 4).blk t).view.set := by
  have hi0 : (i 0).val < 10000 := idx2_lt0 i
  have hi1 : (i 1).val < 64 := idx2_lt1 i
  have hN : cfg1.N = 25 := N_1
  let t : Fin cfg1.N := ⟨(i 0).val / 400, by rw [hN]; omega⟩
  have ht : t.val = (i 0).val / 400 := rfl
  obtain ⟨-, -, -, -, -, -, -, -, e0, e1⟩ := blockIdx1 t
  refine ⟨t, flush1_4 t, ?_⟩
  rw [mem_blk1_4]
  intro a
  match a with
  | ⟨0, _⟩ => show win1_4.index t 0 * 400 ≤ (i 0).val ∧ (i 0).val < win1_4.index t 0 * 400 + 400; rw [e0, ht]; omega
  | ⟨1, _⟩ => show win1_4.index t 1 * 64 ≤ (i 1).val ∧ (i 1).val < win1_4.index t 1 * 64 + 64; rw [e1]; omega

/-! ## The output array after the region -/

/-- If tile `t` of a whole-array function `G` is what point `t` writes back, at every point, the output array
    after the region is `G`. -/
theorem final1 (c : Dev nD) (G : S10000x64.Idx → Elt F .bf16)
    (hG : ∀ t : Fin cfg1.N, (dat1 V c).flushed 4 t = ((cfg1.win 4).blk t).view.read (Elt F) G) :
    (dat1 V c).arrAt 4 cfg1.N = G :=
  (dat1 V c).arrAt_eq_of_cover 4 G (fun t _ => hG t) tiles1_4

end Cert.KernelIdeal.Gen

end
-- ==== Proof.KI.Val1.lean ====
/- Region 1 on the extended reals: every entry of the output array after the region, as a formula in
   the entries of the arrays the region found. Row i of the output is the rectified sum of row i of the
   adjacency matrix times the first support plus the bias row, times the second weight matrix. -/
import proofs.«100263_g58042188038559_cont_9to1c4b_174_21_alg».proof.Proof.KI.Reg1Arr
import proofs.«100263_g58042188038559_cont_9to1c4b_174_21_alg».proof.Proof.KI.Pay

noncomputable section

namespace Cert.KI.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KI.Math
open scoped BigOperators

-- what the TensorCore's buffers hold when the region is entered, on the extended reals
variable (V : (c : Dev nD) → (b : Ref sig .tc) → Buf (Elt Ideal) ((c : Thread nD τ).loc b))

theorem zeros1 : (![0, 0] : Fin 2 → Nat) = fun _ => 0 := funext fun a => by fin_cases a <;> rfl

/-- The body's result on four blocks, at one entry: the stored value at that entry, since the one store
    covers the buffer and every load reads a whole buffer. -/
theorem out1_4_apply (x0 : Vec Ideal S400x10000 .f32) (x1 : Vec Ideal S10000x128 .bf16) (x2 : Vec Ideal S1x128 .f32)
    (x3 : Vec Ideal S128x64 .f32) (p : Fin 400) (q : Fin 64) :
    out1_4 x0 x1 x2 x3 (ix2 p q)
      = ∑ k : Fin 128, max ((∑ l : Fin 10000, x0 (ix2 p l) * x1 (ix2 l k)) + x2 (ix2 (0 : Fin 1) k)) 0 * x3 (ix2 k q) := by
  unfold out1_4
  rw [View.canon_unit_zero zeros1]
  simp only [View.ld_unit_zero (S := S400x10000) zeros1, View.ld_unit_zero (S := S10000x128) zeros1,
    View.ld_unit_zero (S := S1x128) zeros1, View.ld_unit_zero (S := S128x64) zeros1]
  exact k1_pay1_apply x0 x1 x2 x3 p q

/-- Entry (i, j) of the second support: (A · s + b)⁺ · W, for an adjacency matrix `A`, a support `s`, a bias row `b`
    and a weight matrix `W`. -/
def val1 (A : S10000x10000.Idx → EReal) (s : S10000x128.Idx → EReal) (b : S1x128.Idx → EReal) (W : S128x64.Idx → EReal)
    (i : Fin 10000) (j : Fin 64) : EReal :=
  ∑ k : Fin 128, max ((∑ l : Fin 10000, A (ix2 i l) * s (ix2 l k)) + b (ix2 (0 : Fin 1) k)) 0 * W (ix2 k j)

/-- What point `t` writes back is tile `t` of that function of the arrays the region found. -/
theorem tile1 (c : Dev nD) (t : Fin cfg1.N) :
    (dat1 V c).flushed 4 t = ((cfg1.win 4).blk t).view.read (Elt Ideal)
      (fun idx : S10000x64.Idx => val1 (V c main_arg2) (V c main_v6_1) (V c main_v2) (V c main_arg9) (idx 0) (idx 1)) := by
  rw [flushed1_4]
  funext y
  obtain ⟨p, q, rfl⟩ : ∃ (p : Fin 400) (q : Fin 64), y = ix2 p q := ⟨y 0, y 1, eq_ix2 y⟩
  have hp := p.isLt
  have ht := lt_N1 t
  have hr := read_blk1_4 (F := Ideal) t (fun idx : S10000x64.Idx => val1 (V c main_arg2) (V c main_v6_1) (V c main_v2) (V c main_arg9) (idx 0) (idx 1))
    (ix2 p q) (ix2 ⟨400 * t.val + p.val, by omega⟩ q) rfl rfl
  refine Eq.trans ?_ hr.symm
  refine (out1_4_apply _ _ _ _ p q).trans ?_
  show _ = val1 (V c main_arg2) (V c main_v6_1) (V c main_v2) (V c main_arg9) ⟨400 * t.val + p.val, _⟩ q
  unfold val1
  rw [iblk1_1_eq, iblk1_2_eq, iblk1_3_eq]
  refine Finset.sum_congr rfl fun k _ => ?_
  refine congrArg (fun s => max (s + (V c main_v2 : S1x128.Idx → EReal) (ix2 (0 : Fin 1) k)) 0 * (V c main_arg9 : S128x64.Idx → EReal) (ix2 k q))
    (Finset.sum_congr rfl fun l _ => ?_)
  rw [iblk1_0_apply V c t (ix2 p l) (ix2 ⟨400 * t.val + p.val, by omega⟩ l) rfl rfl]

/-- Region 1's output array, entry by entry. -/
theorem value1 (c : Dev nD) (i : Fin 10000) (j : Fin 64) :
    (dat1 V c).arrAt 4 cfg1.N (ix2 i j) = val1 (V c main_arg2) (V c main_v6_1) (V c main_v2) (V c main_arg9) i j :=
  congrFun (final1 V c (fun idx : S10000x64.Idx => val1 (V c main_arg2) (V c main_v6_1) (V c main_v2) (V c main_arg9) (idx 0) (idx 1)) (tile1 V c)) (ix2 i j)

end Cert.KI.Val

end
-- ==== Proof.KI.Reg2Arr.lean ====
/- Region 2, from blocks to arrays. Each window's block at a grid point is read as entries of the
   window's array: the adjacency tile at point t is rows 400 t .. 400 t + 399, a whole operand is the
   operand. What point t writes back is the body's result on those blocks, the 25 output tiles fill the
   10000 rows of the output array, and so the output array after the region is any whole-array function
   whose tile t is what point t writes back. -/
import proofs.«100263_g58042188038559_cont_9to1c4b_174_21_alg».proof.Proof.KI.Reg2
import Idealize.ShloMosaic.Lib.Pipeline.Value
import Idealize.ShloMosaic.Lib.ValueIdx
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

variable {F : FTy → Type} [FloatOps F]

-- what the TensorCore's buffers hold when the region is entered
variable (V : (c : Dev nD) → (b : Ref sig .tc) → Buf (Elt F) ((c : Thread nD τ).loc b))

/-! ## Where each window's block sits: the block indices, point by point -/

/-- The adjacency tile and the output tile move one block down per point; the whole operands stay at block
    zero. Decided over the 25 points. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N2 (t : Fin cfg2.N) : t.val < 25 := Nat.lt_of_lt_of_eq t.isLt N_2

/-! ## The input blocks as entries of their arrays -/

/-- Entry `y` of the adjacency tile at point `t` is the adjacency matrix at row `400 t + y₀`, column `y₁`. -/
theorem iblk2_0_apply (c : Dev nD) (t : Fin cfg2.N) (y : S400x10000.Idx) (k : S10000x10000.Idx)
    (hk0 : (k 0).val = 400 * t.val + (y 0).val) (hk1 : (k 1).val = (y 1).val) :
    (iblk2 V c 0 t : Vec F S400x10000 .f32) y = (V c main_arg2 : S10000x10000.Idx → Elt F .f32) k := by
  obtain ⟨e0, e1, -⟩ := blockIdx2 t
  unfold iblk2
  rw [View.read_apply]
  show V c main_arg2 _ = V c main_arg2 _
  congr 1
  funext a
  apply Fin.ext
  match a with
  | ⟨0, _⟩ => show win2_0.index t 0 * 400 + 1 * (y 0).val = (k 0).val; rw [e0, hk0]; omega
  | ⟨1, _⟩ => show win2_0.index t 1 * 10000 + 1 * (y 1).val = (k 1).val; rw [e1, hk1]; omega

/-- The same with the array index written out by its coordinates. -/
theorem iblk2_0_ix (c : Dev nD) (t : Fin cfg2.N) (y : S400x10000.Idx) :
    (iblk2 V c 0 t : Vec F S400x10000 .f32) y
      = (V c main_arg2 : S10000x10000.Idx → Elt F .f32)
          (ix2 ⟨400 * t.val + (y 0).val, by have := lt_N2 t; have := idx2_lt0 y; omega⟩ ⟨(y 1).val, idx2_lt1 y⟩) :=
  iblk2_0_apply V c t y _ rfl rfl

/-- A whole operand's block is the operand, at every point. Window 1. -/
theorem iblk2_1_eq (c : Dev nD) (t : Fin cfg2.N) :
    (iblk2 V c 1 t : Vec F S10000x64 .bf16) = (V c main_v7 : S10000x64.Idx → Elt F .bf16) := by
  obtain ⟨-, -, e0, e1, -⟩ := blockIdx2 t
  funext y
  unfold iblk2
  rw [View.read_apply]
  show V c main_v7 _ = V c main_v7 y
  congr 1
  funext a
  apply Fin.ext
  match a with
  | ⟨0, _⟩ => show win2_1.index t 0 * 10000 + 1 * (y 0).val = (y 0).val; rw [e0]; omega
  | ⟨1, _⟩ => show win2_1.index t 1 * 64 + 1 * (y 1).val = (y 1).val; rw [e1]; omega

/-- Window 2. -/
theorem iblk2_2_eq (c : Dev nD) (t : Fin cfg2.N) :
    (iblk2 V c 2 t : Vec F S1x64 .f32) = (V c main_v3 : S1x64.Idx → Elt F .f32) := by
  obtain ⟨-, -, -, -, e0, e1, -⟩ := blockIdx2 t
  funext y
  unfold iblk2
  rw [View.read_apply]
  show V c main_v3 _ = V c main_v3 y
  congr 1
  funext a
  apply Fin.ext
  match a with
  | ⟨0, _⟩ => show win2_2.index t 0 * 1 + 1 * (y 0).val = (y 0).val; rw [e0]; omega
  | ⟨1, _⟩ => show win2_2.index t 1 * 64 + 1 * (y 1).val = (y 1).val; rw [e1]; omega

/-! ## The output: what a point writes back, and a whole array read through the output tile -/

/-- Point `t` writes back the body's result on the point's input blocks (the output window is not cut). -/
theorem flushed2_3 (c : Dev nD) (t : Fin cfg2.N) :
    (dat2 V c).flushed 3 t = out2_3 (iblk2 V c 0 t) (iblk2 V c 1 t) (iblk2 V c 2 t) := by
  show (cfg2.win 3).cut (cfg2.grid.coords t) ((dat2 V c).after 3 t) = _
  rw [after2_3]
  rfl

/-- Entry `y` of tile `t` of a 10000x64 array `G` is `G` at row `400 t + y₀`, column `y₁`. -/
theorem read_blk2_3 (t : Fin cfg2.N) (G : S10000x64.Idx → Elt F .f32) (y : S400x64.Idx) (k : S10000x64.Idx)
    (hk0 : (k 0).val = 400 * t.val + (y 0).val) (hk1 : (k 1).val = (y 1).val) :
    (((cfg2.win 3).blk t).view.read (Elt F) G : Vec F S400x64 .f32) y = G k := by
  obtain ⟨-, -, -, -, -, -, e0, e1⟩ := blockIdx2 t
  rw [View.read_apply]
  refine congrArg G ?_
  funext a
  apply Fin.ext
  match a with
  | ⟨0, _⟩ => show win2_3.index t 0 * 400 + 1 * (y 0).val = (k 0).val; rw [e0, hk0]; omega
  | ⟨1, _⟩ => show win2_3.index t 1 * 64 + 1 * (y 1).val = (k 1).val; rw [e1, hk1]; omega

/-- The same with the array index written out by its coordinates. -/
theorem read_blk2_3_ix (t : Fin cfg2.N) (G : S10000x64.Idx → Elt F .f32) (y : S400x64.Idx) :
    (((cfg2.win 3).blk t).view.read (Elt F) G : Vec F S400x64 .f32) y
      = G (ix2 ⟨400 * t.val + (y 0).val, by have := lt_N2 t; have := idx2_lt0 y; omega⟩ ⟨(y 1).val, idx2_lt1 y⟩) :=
  read_blk2_3 t G y _ rfl rfl

/-! ## The tiles fill the output array -/

/-- An index of the output array lies in tile `t` iff each coordinate is in the tile's range on its axis. -/
theorem mem_blk2_3 (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v8).slice (win2_3.rect t)).set ↔ _
  rw [View.set_slice_whole, Rect.mem_set_unit]
  exact Iff.rfl

/-- Row `r` of the output array lies in tile `r / 400`, which is written back. -/
theorem tiles2_3 (i : S10000x64.Idx) :
    ∃ t : Fin cfg2.N, (cfg2.win 3).flush t = true ∧ i ∈ ((cfg2.win 3).blk t).view.set := by
  have hi0 : (i 0).val < 10000 := idx2_lt0 i
  have hi1 : (i 1).val < 64 := idx2_lt1 i
  have hN : cfg2.N = 25 := N_2
  let t : Fin cfg2.N := ⟨(i 0).val / 400, by rw [hN]; omega⟩
  have ht : t.val = (i 0).val / 400 := rfl
  obtain ⟨-, -, -, -, -, -, e0, e1⟩ := blockIdx2 t
  refine ⟨t, flush2_3 t, ?_⟩
  rw [mem_blk2_3]
  intro a
  match a with
  | ⟨0, _⟩ => show win2_3.index t 0 * 400 ≤ (i 0).val ∧ (i 0).val < win2_3.index t 0 * 400 + 400; rw [e0, ht]; omega
  | ⟨1, _⟩ => show win2_3.index t 1 * 64 ≤ (i 1).val ∧ (i 1).val < win2_3.index t 1 * 64 + 64; rw [e1]; omega

/-! ## The output array after the region -/

/-- If tile `t` of a whole-array function `G` is what point `t` writes back, at every point, the output array
    after the region is `G`. -/
theorem final2 (c : Dev nD) (G : S10000x64.Idx → Elt F .f32)
    (hG : ∀ t : Fin cfg2.N, (dat2 V c).flushed 3 t = ((cfg2.win 3).blk t).view.read (Elt F) G) :
    (dat2 V c).arrAt 3 cfg2.N = G :=
  (dat2 V c).arrAt_eq_of_cover 3 G (fun t _ => hG t) tiles2_3

end Cert.KernelIdeal.Gen

end
-- ==== Proof.KI.Val2.lean ====
/- Region 2 on the extended reals: every entry of the output array after the region, as a formula in
   the entries of the arrays the region found. Row i of the output is the rectified sum of row i of the
   adjacency matrix times the support plus the bias row. -/
import proofs.«100263_g58042188038559_cont_9to1c4b_174_21_alg».proof.Proof.KI.Reg2Arr
import proofs.«100263_g58042188038559_cont_9to1c4b_174_21_alg».proof.Proof.KI.Pay

noncomputable section

namespace Cert.KI.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KI.Math
open scoped BigOperators

-- what the TensorCore's buffers hold when the region is entered, on the extended reals
variable (V : (c : Dev nD) → (b : Ref sig .tc) → Buf (Elt Ideal) ((c : Thread nD τ).loc b))

theorem zeros2 : (![0, 0] : Fin 2 → Nat) = fun _ => 0 := funext fun a => by fin_cases a <;> rfl

/-- The body's result on three blocks, at one entry: the stored value at that entry, since the one store
    covers the buffer and every load reads a whole buffer. -/
theorem out2_3_apply (x0 : Vec Ideal S400x10000 .f32) (x1 : Vec Ideal S10000x64 .bf16) (x2 : Vec Ideal S1x64 .f32)
    (p : Fin 400) (q : Fin 64) :
    out2_3 x0 x1 x2 (ix2 p q) = max ((∑ l : Fin 10000, x0 (ix2 p l) * x1 (ix2 l q)) + x2 (ix2 (0 : Fin 1) q)) 0 := by
  unfold out2_3
  rw [View.canon_unit_zero zeros2]
  simp only [View.ld_unit_zero (S := S400x10000) zeros2, View.ld_unit_zero (S := S10000x64) zeros2, View.ld_unit_zero (S := S1x64) zeros2]
  exact k2_pay1_apply x0 x1 x2 p q

/-- Entry (i, j) of the structure branch: (A · s + b)⁺, for an adjacency matrix `A`, a support `s` and a bias row `b`. -/
def val2 (A : S10000x10000.Idx → EReal) (s : S10000x64.Idx → EReal) (b : S1x64.Idx → EReal) (i : Fin 10000) (j : Fin 64) : EReal :=
  max ((∑ l : Fin 10000, A (ix2 i l) * s (ix2 l j)) + b (ix2 (0 : Fin 1) j)) 0

/-- What point `t` writes back is tile `t` of that function of the arrays the region found. -/
theorem tile2 (c : Dev nD) (t : Fin cfg2.N) :
    (dat2 V c).flushed 3 t = ((cfg2.win 3).blk t).view.read (Elt Ideal)
      (fun idx : S10000x64.Idx => val2 (V c main_arg2) (V c main_v7) (V c main_v3) (idx 0) (idx 1)) := by
  rw [flushed2_3]
  funext y
  obtain ⟨p, q, rfl⟩ : ∃ (p : Fin 400) (q : Fin 64), y = ix2 p q := ⟨y 0, y 1, eq_ix2 y⟩
  have hp := p.isLt
  have ht := lt_N2 t
  have hr := read_blk2_3 (F := Ideal) t (fun idx : S10000x64.Idx => val2 (V c main_arg2) (V c main_v7) (V c main_v3) (idx 0) (idx 1))
    (ix2 p q) (ix2 ⟨400 * t.val + p.val, by omega⟩ q) rfl rfl
  refine Eq.trans ?_ hr.symm
  refine (out2_3_apply _ _ _ p q).trans ?_
  show _ = val2 (V c main_arg2) (V c main_v7) (V c main_v3) ⟨400 * t.val + p.val, _⟩ q
  unfold val2
  rw [iblk2_1_eq, iblk2_2_eq]
  refine congrArg (fun s => max (s + (V c main_v3 : S1x64.Idx → EReal) (ix2 (0 : Fin 1) q)) 0) (Finset.sum_congr rfl fun l _ => ?_)
  rw [iblk2_0_apply V c t (ix2 p l) (ix2 ⟨400 * t.val + p.val, by omega⟩ l) rfl rfl]

/-- Region 2's output array, entry by entry. -/
theorem value2 (c : Dev nD) (i : Fin 10000) (j : Fin 64) :
    (dat2 V c).arrAt 3 cfg2.N (ix2 i j) = val2 (V c main_arg2) (V c main_v7) (V c main_v3) i j :=
  congrFun (final2 V c (fun idx : S10000x64.Idx => val2 (V c main_arg2) (V c main_v7) (V c main_v3) (idx 0) (idx 1)) (tile2 V c)) (ix2 i j)

end Cert.KI.Val

end
-- ==== Proof.KI.Reg3Arr.lean ====
/- Region 3, from blocks to arrays. Each window's block at a grid point is read as entries of the
   window's array: the row tile at point t is rows 256 t .. 256 t + 255 of its 1024x128 array, a whole
   operand is the operand. What point t writes back is the body's result on those blocks, the 4 output
   tiles fill the 1024 rows of the output array, and so the output array after the region is any
   whole-array function whose tile t is what point t writes back. -/
import proofs.«100263_g58042188038559_cont_9to1c4b_174_21_alg».proof.Proof.KI.Reg3
import Idealize.ShloMosaic.Lib.Pipeline.Value
import Idealize.ShloMosaic.Lib.ValueIdx
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

variable {F : FTy → Type} [FloatOps F]

-- what the TensorCore's buffers hold when the region is entered
variable (V : (c : Dev nD) → (b : Ref sig .tc) → Buf (Elt F) ((c : Thread nD τ).loc b))

/-! ## Where each window's block sits: the block indices, point by point -/

/-- The row tile and the output tile move one block down per point; the whole operands stay at block zero.
    Decided over the 4 points. -/
theorem blockIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt_N3 (t : Fin cfg3.N) : t.val < 4 := Nat.lt_of_lt_of_eq t.isLt N_3

/-! ## The input blocks as entries of their arrays -/

/-- Entry `y` of the row tile at point `t` is its array at row `256 t + y₀`, column `y₁`. -/
theorem iblk3_0_apply (c : Dev nD) (t : Fin cfg3.N) (y : S256x128.Idx) (k : S1024x128.Idx)
    (hk0 : (k 0).val = 256 * t.val + (y 0).val) (hk1 : (k 1).val = (y 1).val) :
    (iblk3 V c 0 t : Vec F S256x128 .f32) y = (V c main_v6_2 : S1024x128.Idx → Elt F .f32) k := by
  obtain ⟨e0, e1, -⟩ := blockIdx3 t
  unfold iblk3
  rw [View.read_apply]
  show V c main_v6_2 _ = V c main_v6_2 _
  congr 1
  funext a
  apply Fin.ext
  match a with
  | ⟨0, _⟩ => show win3_0.index t 0 * 256 + 1 * (y 0).val = (k 0).val; rw [e0, hk0]; omega
  | ⟨1, _⟩ => show win3_0.index t 1 * 128 + 1 * (y 1).val = (k 1).val; rw [e1, hk1]; omega

/-- The same with the array index written out by its coordinates. -/
theorem iblk3_0_ix (c : Dev nD) (t : Fin cfg3.N) (y : S256x128.Idx) :
    (iblk3 V c 0 t : Vec F S256x128 .f32) y
      = (V c main_v6_2 : S1024x128.Idx → Elt F .f32)
          (ix2 ⟨256 * t.val + (y 0).val, by have := lt_N3 t; have := idx2_lt0 y; omega⟩ ⟨(y 1).val, idx2_lt1 y⟩) :=
  iblk3_0_apply V c t y _ rfl rfl

/-- A whole operand's block is the operand, at every point. Window 1. -/
theorem iblk3_1_eq (c : Dev nD) (t : Fin cfg3.N) :
    (iblk3 V c 1 t : Vec F S10000x64 .f32) = (V c main_v6_0 : S10000x64.Idx → Elt F .f32) := by
  obtain ⟨-, -, e0, e1, -⟩ := blockIdx3 t
  funext y
  unfold iblk3
  rw [View.read_apply]
  show V c main_v6_0 _ = V c main_v6_0 y
  congr 1
  funext a
  apply Fin.ext
  match a with
  | ⟨0, _⟩ => show win3_1.index t 0 * 10000 + 1 * (y 0).val = (y 0).val; rw [e0]; omega
  | ⟨1, _⟩ => show win3_1.index t 1 * 64 + 1 * (y 1).val = (y 1).val; rw [e1]; omega

/-- Window 2. -/
theorem iblk3_2_eq (c : Dev nD) (t : Fin cfg3.N) :
    (iblk3 V c 2 t : Vec F S10000x64 .f32) = (V c main_v8 : S10000x64.Idx → Elt F .f32) := by
  obtain ⟨-, -, -, -, e0, e1, -⟩ := blockIdx3 t
  funext y
  unfold iblk3
  rw [View.read_apply]
  show V c main_v8 _ = V c main_v8 y
  congr 1
  funext a
  apply Fin.ext
  match a with
  | ⟨0, _⟩ => show win3_2.index t 0 * 10000 + 1 * (y 0).val = (y 0).val; rw [e0]; omega
  | ⟨1, _⟩ => show win3_2.index t 1 * 64 + 1 * (y 1).val = (y 1).val; rw [e1]; omega

/-! ## The output: what a point writes back, and a whole array read through the output tile -/

/-- Point `t` writes back the body's result on the point's input blocks (the output window is not cut). -/
theorem flushed3_3 (c : Dev nD) (t : Fin cfg3.N) :
    (dat3 V c).flushed 3 t = out3_3 (iblk3 V c 0 t) (iblk3 V c 1 t) (iblk3 V c 2 t) := by
  show (cfg3.win 3).cut (cfg3.grid.coords t) ((dat3 V c).after 3 t) = _
  rw [after3_3]
  rfl

/-- Entry `y` of tile `t` of a 1024x10000 array `G` is `G` at row `256 t + y₀`, column `y₁`. -/
theorem read_blk3_3 (t : Fin cfg3.N) (G : S1024x10000.Idx → Elt F .f32) (y : S256x10000.Idx) (k : S1024x10000.Idx)
    (hk0 : (k 0).val = 256 * t.val + (y 0).val) (hk1 : (k 1).val = (y 1).val) :
    (((cfg3.win 3).blk t).view.read (Elt F) G : Vec F S256x10000 .f32) y = G k := by
  obtain ⟨-, -, -, -, -, -, e0, e1⟩ := blockIdx3 t
  rw [View.read_apply]
  refine congrArg G ?_
  funext a
  apply Fin.ext
  match a with
  | ⟨0, _⟩ => show win3_3.index t 0 * 256 + 1 * (y 0).val = (k 0).val; rw [e0, hk0]; omega
  | ⟨1, _⟩ => show win3_3.index t 1 * 10000 + 1 * (y 1).val = (k 1).val; rw [e1, hk1]; omega

/-- The same with the array index written out by its coordinates. -/
theorem read_blk3_3_ix (t : Fin cfg3.N) (G : S1024x10000.Idx → Elt F .f32) (y : S256x10000.Idx) :
    (((cfg3.win 3).blk t).view.read (Elt F) G : Vec F S256x10000 .f32) y
      = G (ix2 ⟨256 * t.val + (y 0).val, by have := lt_N3 t; have := idx2_lt0 y; omega⟩ ⟨(y 1).val, idx2_lt1 y⟩) :=
  read_blk3_3 t G y _ rfl rfl

/-! ## The tiles fill the output array -/

/-- An index of the output array lies in tile `t` iff each coordinate is in the tile's range on its axis. -/
theorem mem_blk3_3 (t : Fin cfg3.N) (i : S1024x10000.Idx) :
    i ∈ ((cfg3.win 3).blk t).view.set ↔ ∀ a : Fin 2, win3_3.index t a * S256x10000.size a ≤ (i a).val ∧ (i a).val < win3_3.index t a * S256x10000.size a + S256x10000.size a := by
  show i ∈ ((View.whole main_v9).slice (win3_3.rect t)).set ↔ _
  rw [View.set_slice_whole, Rect.mem_set_unit]
  exact Iff.rfl

/-- Row `r` of the output array lies in tile `r / 256`, which is written back. -/
theorem tiles3_3 (i : S1024x10000.Idx) :
    ∃ t : Fin cfg3.N, (cfg3.win 3).flush t = true ∧ i ∈ ((cfg3.win 3).blk t).view.set := by
  have hi0 : (i 0).val < 1024 := idx2_lt0 i
  have hi1 : (i 1).val < 10000 := idx2_lt1 i
  have hN : cfg3.N = 4 := N_3
  let t : Fin cfg3.N := ⟨(i 0).val / 256, by rw [hN]; omega⟩
  have ht : t.val = (i 0).val / 256 := rfl
  obtain ⟨-, -, -, -, -, -, e0, e1⟩ := blockIdx3 t
  refine ⟨t, flush3_3 t, ?_⟩
  rw [mem_blk3_3]
  intro a
  match a with
  | ⟨0, _⟩ => show win3_3.index t 0 * 256 ≤ (i 0).val ∧ (i 0).val < win3_3.index t 0 * 256 + 256; rw [e0, ht]; omega
  | ⟨1, _⟩ => show win3_3.index t 1 * 10000 ≤ (i 1).val ∧ (i 1).val < win3_3.index t 1 * 10000 + 10000; rw [e1]; omega

/-! ## The output array after the region -/

/-- If tile `t` of a whole-array function `G` is what point `t` writes back, at every point, the output array
    after the region is `G`. -/
theorem final3 (c : Dev nD) (G : S1024x10000.Idx → Elt F .f32)
    (hG : ∀ t : Fin cfg3.N, (dat3 V c).flushed 3 t = ((cfg3.win 3).blk t).view.read (Elt F) G) :
    (dat3 V c).arrAt 3 cfg3.N = G :=
  (dat3 V c).arrAt_eq_of_cover 3 G (fun t _ => hG t) tiles3_3

end Cert.KernelIdeal.Gen

end
-- ==== Proof.KI.Val3.lean ====
/- Region 3 on the extended reals: every entry of the output array after the region, as a formula in
   the entries of the arrays the region found. Entry (b, g) is the logistic function of the sum of two
   inner products: the left 64 columns of row b of the encoder output with row g of the first
   embedding, and the right 64 columns of the same row with row g of the second. -/
import proofs.«100263_g58042188038559_cont_9to1c4b_174_21_alg».proof.Proof.KI.Reg3Arr
import proofs.«100263_g58042188038559_cont_9to1c4b_174_21_alg».proof.Proof.KI.Pay

noncomputable section

namespace Cert.KI.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KI.Math
open scoped BigOperators

-- what the TensorCore's buffers hold when the region is entered, on the extended reals
variable (V : (c : Dev nD) → (b : Ref sig .tc) → Buf (Elt Ideal) ((c : Thread nD τ).loc b))

theorem zeros3 : (![0, 0] : Fin 2 → Nat) = fun _ => 0 := funext fun a => by fin_cases a <;> rfl

/-- The body's result on three blocks, at one entry. The store covers the buffer; the two whole operands are read
    whole; the row tile is read through its left and its right half, whose entry (p, k) is the tile's entry (p, k)
    and (p, 64 + k). -/
theorem out3_3_apply (x0 : Vec Ideal S256x128 .f32) (x1 x2 : Vec Ideal S10000x64 .f32) (p : Fin 256) (g : Fin 10000) :
    out3_3 x0 x1 x2 (ix2 p g)
      = Ideal.logistic ((∑ k : Fin 64, x0 (ix2 p ⟨k.val, Nat.lt_trans k.isLt (by decide)⟩) * x1 (ix2 g k))
          + ∑ k : Fin 64, x0 (ix2 p ⟨64 + k.val, by have := k.isLt; omega⟩) * x2 (ix2 g k)) := by
  unfold out3_3
  rw [View.canon_unit_zero zeros3]
  simp only [View.ld_unit_zero (S := S10000x64) zeros3]
  refine (k3_pay1_apply _ _ _ _ p g).trans ?_
  have hl : ∀ k : Fin 64, View.ld x0 r3_0l (ix2 p k) = x0 (ix2 p ⟨k.val, Nat.lt_trans k.isLt (by decide)⟩) := fun k =>
    congrArg x0 (funext fun a => Fin.ext (by
      match a with
      | ⟨0, _⟩ => show 0 + 1 * p.val = p.val; omega
      | ⟨1, _⟩ => show 0 + 1 * k.val = k.val; omega))
  have hr : ∀ k : Fin 64, View.ld x0 r3_0r (ix2 p k) = x0 (ix2 p ⟨64 + k.val, by have := k.isLt; omega⟩) := fun k =>
    congrArg x0 (funext fun a => Fin.ext (by
      match a with
      | ⟨0, _⟩ => show 0 + 1 * p.val = p.val; omega
      | ⟨1, _⟩ => show 64 + 1 * k.val = 64 + k.val; omega))
  simp only [hl, hr]

/-- Entry (b, g) of the prediction: for an encoder output `E` (1024 x 128) and two embeddings `P`, `Q` (10000 x 64). -/
def val3 (E : S1024x128.Idx → EReal) (P Q : S10000x64.Idx → EReal) (b : Fin 1024) (g : Fin 10000) : EReal :=
  Ideal.logistic ((∑ k : Fin 64, E (ix2 b ⟨k.val, Nat.lt_trans k.isLt (by decide)⟩) * P (ix2 g k))
    + ∑ k : Fin 64, E (ix2 b ⟨64 + k.val, by have := k.isLt; omega⟩) * Q (ix2 g k))

/-- What point `t` writes back is tile `t` of that function of the arrays the region found. -/
theorem tile3 (c : Dev nD) (t : Fin cfg3.N) :
    (dat3 V c).flushed 3 t = ((cfg3.win 3).blk t).view.read (Elt Ideal)
      (fun idx : S1024x10000.Idx => val3 (V c main_v6_2) (V c main_v6_0) (V c main_v8) (idx 0) (idx 1)) := by
  rw [flushed3_3]
  funext y
  obtain ⟨p, g, rfl⟩ : ∃ (p : Fin 256) (g : Fin 10000), y = ix2 p g := ⟨y 0, y 1, eq_ix2 y⟩
  have hp := p.isLt
  have ht := lt_N3 t
  have hr := read_blk3_3 (F := Ideal) t (fun idx : S1024x10000.Idx => val3 (V c main_v6_2) (V c main_v6_0) (V c main_v8) (idx 0) (idx 1))
    (ix2 p g) (ix2 ⟨256 * t.val + p.val, by omega⟩ g) rfl rfl
  refine Eq.trans ?_ hr.symm
  refine (out3_3_apply _ _ _ p g).trans ?_
  show _ = val3 (V c main_v6_2) (V c main_v6_0) (V c main_v8) ⟨256 * t.val + p.val, _⟩ g
  unfold val3
  rw [iblk3_1_eq, iblk3_2_eq]
  refine congrArg Ideal.logistic (congrArg₂ (· + ·) (Finset.sum_congr rfl fun k _ => ?_) (Finset.sum_congr rfl fun k _ => ?_))
  · rw [iblk3_0_apply V c t (ix2 p ⟨k.val, Nat.lt_trans k.isLt (by decide)⟩)
      (ix2 ⟨256 * t.val + p.val, by omega⟩ ⟨k.val, Nat.lt_trans k.isLt (by decide)⟩) rfl rfl]
  · rw [iblk3_0_apply V c t (ix2 p ⟨64 + k.val, by have := k.isLt; omega⟩)
      (ix2 ⟨256 * t.val + p.val, by omega⟩ ⟨64 + k.val, by have := k.isLt; omega⟩) rfl rfl]

/-- Region 3's output array, entry by entry. -/
theorem value3 (c : Dev nD) (b : Fin 1024) (g : Fin 10000) :
    (dat3 V c).arrAt 3 cfg3.N (ix2 b g) = val3 (V c main_v6_2) (V c main_v6_0) (V c main_v8) b g :=
  congrFun (final3 V c (fun idx : S1024x10000.Idx => val3 (V c main_v6_2) (V c main_v6_0) (V c main_v8) (idx 0) (idx 1)) (tile3 V c)) (ix2 b g)

end Cert.KI.Val

end
-- ==== Proof.KI.Results.lean ====
/-
  The three results of the kernel's run are the reference's three results of the argument arrays.

  Stage by stage: what a region leaves in its output array is the region's formula in the arrays it found; those
  are argument arrays as launched, bias rows laid out from argument vectors, or an earlier region's output, which is
  the reference's earlier stage; and the formula in those is the reference's stage at the same entry.
-/
import proofs.«100263_g58042188038559_cont_9to1c4b_174_21_alg».proof.Proof.KI.Entry
import proofs.«100263_g58042188038559_cont_9to1c4b_174_21_alg».proof.Proof.KI.Ref
import proofs.«100263_g58042188038559_cont_9to1c4b_174_21_alg».proof.Proof.KI.Val0
import proofs.«100263_g58042188038559_cont_9to1c4b_174_21_alg».proof.Proof.KI.Val1
import proofs.«100263_g58042188038559_cont_9to1c4b_174_21_alg».proof.Proof.KI.Val2
import proofs.«100263_g58042188038559_cont_9to1c4b_174_21_alg».proof.Proof.KI.Val3

set_option maxRecDepth 16384

noncomputable section

namespace Cert.KI.Math

open Idealize.ShloMosaic Idealize.ShloMosaic.TcCoe Idealize.SL.Sem Idealize.ShloMosaic.ValueIdx
open Cert.KernelIdeal Cert.KernelIdeal.Gen Cert.KI.Val
open Cert.ReferenceIdeal.Read (val_main_v8 val_main_v9 val_main_v15 val_main_v20 val_main_v29 val_main_v38)

variable (m : (ℓ : Loc nD τ sig) → Buf (Elt Ideal) ℓ) (ρ : Dev nD → PrngReg) (c : Dev nD)

/-! ## Region 0's three outputs -/

/-- The first support, as region 0 leaves it, is the reference's. -/
theorem stage_support1 :
    (E2 m ρ c main_v6_1 : S10000x128.Idx → EReal) = val_main_v9 (F := Ideal) (atLaunch m c main_arg1) (atLaunch m c main_arg7) := by
  funext idx
  obtain ⟨i, j, rfl⟩ : ∃ (i : Fin 10000) (j : Fin 128), idx = ix2 i j := ⟨idx 0, idx 1, eq_ix2 idx⟩
  rw [ref_support1]
  refine (congrFun (B2_arr m ρ c 12) (ix2 i j)).trans ?_
  show @Eq EReal _ _
  rw [value0_12 (E1 m ρ) c i j]
  unfold val0_12
  rw [E1_arg1, E1_arg7]

/-- The semantic embedding, as region 0 leaves it, is the reference's. -/
theorem stage_hsem :
    (E2 m ρ c main_v6_0 : S10000x64.Idx → EReal)
      = val_main_v8 (F := Ideal) (atLaunch m c main_arg1) (atLaunch m c main_arg3) (atLaunch m c main_arg4) (atLaunch m c main_arg5) (atLaunch m c main_arg6) := by
  funext idx
  obtain ⟨i, j, rfl⟩ : ∃ (i : Fin 10000) (j : Fin 64), idx = ix2 i j := ⟨idx 0, idx 1, eq_ix2 idx⟩
  rw [ref_hsem]
  refine (congrFun (B2_arr m ρ c 11) (ix2 i j)).trans ?_
  show @Eq EReal _ _
  rw [value0_11 (E1 m ρ) c i j]
  unfold val0_11
  rw [E1_arg1, E1_arg3, E1_arg5]
  refine congrArg₂ (· + ·) (Finset.sum_congr rfl fun k _ => ?_) (E1_v1_apply m ρ c j)
  rw [E1_v0_apply]

/-- The sequence encoding, as region 0 leaves it, is the reference's. -/
theorem stage_seq :
    (E2 m ρ c main_v6_2 : S1024x128.Idx → EReal)
      = val_main_v29 (F := Ideal) (atLaunch m c main_arg0) (atLaunch m c main_arg11) (atLaunch m c main_arg12) (atLaunch m c main_arg13) (atLaunch m c main_arg14) := by
  funext idx
  obtain ⟨i, j, rfl⟩ : ∃ (i : Fin 1024) (j : Fin 128), idx = ix2 i j := ⟨idx 0, idx 1, eq_ix2 idx⟩
  rw [ref_seq]
  refine (congrFun (B2_arr m ρ c 13) (ix2 i j)).trans ?_
  show @Eq EReal _ _
  rw [value0_13 (E1 m ρ) c i j]
  unfold val0_13
  rw [E1_arg0, E1_arg11, E1_arg13]
  refine congrArg₂ (· + ·) (Finset.sum_congr rfl fun k _ => ?_) (E1_v5_apply m ρ c j)
  rw [E1_v4_apply]

/-! ## Region 1's output -/

/-- The second support, as region 1 leaves it, is the reference's. -/
theorem stage_support2 :
    (E3 m ρ c main_v7 : S10000x64.Idx → EReal)
      = val_main_v15 (F := Ideal) (atLaunch m c main_arg1) (atLaunch m c main_arg2) (atLaunch m c main_arg7) (atLaunch m c main_arg8) (atLaunch m c main_arg9) := by
  funext idx
  obtain ⟨i, j, rfl⟩ : ∃ (i : Fin 10000) (j : Fin 64), idx = ix2 i j := ⟨idx 0, idx 1, eq_ix2 idx⟩
  rw [ref_support2]
  refine (congrFun (B3_arr m ρ c 4) (ix2 i j)).trans ?_
  show @Eq EReal _ _
  rw [value1 (E2 m ρ) c i j]
  unfold val1
  rw [E2_arg2, E2_arg9, stage_support1]
  refine Finset.sum_congr rfl fun k _ => ?_
  rw [E2_v2_apply]

/-! ## Region 2's output -/

/-- The structure embedding, as region 2 leaves it, is the reference's. -/
theorem stage_hstr :
    (E4 m ρ c main_v8 : S10000x64.Idx → EReal)
      = val_main_v20 (F := Ideal) (atLaunch m c main_arg1) (atLaunch m c main_arg2) (atLaunch m c main_arg7) (atLaunch m c main_arg8) (atLaunch m c main_arg9) (atLaunch m c main_arg10) := by
  funext idx
  obtain ⟨i, j, rfl⟩ : ∃ (i : Fin 10000) (j : Fin 64), idx = ix2 i j := ⟨idx 0, idx 1, eq_ix2 idx⟩
  rw [ref_hstr]
  refine (congrFun (B4_arr m ρ c 3) (ix2 i j)).trans ?_
  show @Eq EReal _ _
  rw [value2 (E3 m ρ) c i j]
  unfold val2
  rw [E3_arg2, E3_v3_apply, stage_support2]

/-! ## Region 3's output -/

/-- The prediction, as region 3 leaves it, is the reference's. -/
theorem stage_pred :
    (E5 m ρ c main_v9 : S1024x10000.Idx → EReal)
      = val_main_v38 (F := Ideal) (atLaunch m c main_arg0) (atLaunch m c main_arg1) (atLaunch m c main_arg2) (atLaunch m c main_arg3) (atLaunch m c main_arg4) (atLaunch m c main_arg5) (atLaunch m c main_arg6) (atLaunch m c main_arg7) (atLaunch m c main_arg8) (atLaunch m c main_arg9) (atLaunch m c main_arg10) (atLaunch m c main_arg11) (atLaunch m c main_arg12) (atLaunch m c main_arg13) (atLaunch m c main_arg14) := by
  funext idx
  obtain ⟨b, g, rfl⟩ : ∃ (b : Fin 1024) (g : Fin 10000), idx = ix2 b g := ⟨idx 0, idx 1, eq_ix2 idx⟩
  rw [ref_pred]
  refine (congrFun (B5_arr m ρ c 3) (ix2 b g)).trans ?_
  show @Eq EReal _ _
  rw [value3 (E4 m ρ) c b g]
  unfold val3
  rw [E4_v6_2, E4_v6_0, stage_seq, stage_hsem, stage_hstr]

/-! ## The three results at the end of the run -/

/-- The first result: the semantic embedding. -/
theorem result_hsem :
    (B5 m ρ c (Proc.devRef .tc main_v6_0) : S10000x64.Idx → EReal)
      = val_main_v8 (F := Ideal) (atLaunch m c main_arg1) (atLaunch m c main_arg3) (atLaunch m c main_arg4) (atLaunch m c main_arg5) (atLaunch m c main_arg6) :=
  (E5_v6_0 m ρ c).trans (stage_hsem m ρ c)

/-- The second result: the structure embedding. -/
theorem result_hstr :
    (B5 m ρ c (Proc.devRef .tc main_v8) : S10000x64.Idx → EReal)
      = val_main_v20 (F := Ideal) (atLaunch m c main_arg1) (atLaunch m c main_arg2) (atLaunch m c main_arg7) (atLaunch m c main_arg8) (atLaunch m c main_arg9) (atLaunch m c main_arg10) :=
  (E5_v8 m ρ c).trans (stage_hstr m ρ c)

/-- The third result: the prediction. -/
theorem result_pred :
    (B5 m ρ c (Proc.devRef .tc main_v9) : S1024x10000.Idx → EReal)
      = val_main_v38 (F := Ideal) (atLaunch m c main_arg0) (atLaunch m c main_arg1) (atLaunch m c main_arg2) (atLaunch m c main_arg3) (atLaunch m c main_arg4) (atLaunch m c main_arg5) (atLaunch m c main_arg6) (atLaunch m c main_arg7) (atLaunch m c main_arg8) (atLaunch m c main_arg9) (atLaunch m c main_arg10) (atLaunch m c main_arg11) (atLaunch m c main_arg12) (atLaunch m c main_arg13) (atLaunch m c main_arg14) :=
  stage_pred m ρ c

end Cert.KI.Math

end
-- ==== Proof.lean ====
/-
  The certificate of a graph-convolution forward pass computed in four pipelined kernels against its plain reference.

  The kernel program reshapes six bias vectors and then runs four regions: (0) per 2000-row tile of the node embeddings,
  a two-layer perceptron h_sem = relu(X·W1 + b1)·W2 + b2 and the first support S1 = X·G1, and once, at the first grid
  point, the sequence encoder Q = relu(E·U1 + c1)·U2 + c2; (1) per 400-row tile of the adjacency matrix,
  S2 = relu(A·S1 + g1)·G2; (2) per 400-row tile, h_str = relu(A·S2 + g2); (3) per 256-row tile of Q,
  P = σ(Q[:, :64]·h_semᵀ + Q[:, 64:]·h_strᵀ). The reference computes the same stages on whole arrays and forms P as
  σ(Q·[h_sem | h_str]ᵀ).

  Frames: each region's body is run symbolically on its staging buffers and the regions are chained through the
  buffers' contents at every segment boundary; no segment writes an argument. The word-level program and its
  idealization have the same text, so one argument, generic in the float instance, serves both. The reference is a
  host program and its run is its operations' composition.
  Values, on the extended reals: a tile of a product is the product of the tile, so each region's array is its stage
  of the whole arrays, entry by entry as a finite sum; the last stage splits the 128-term sum over the concatenated
  axis into its two 64-term halves, which uses only that addition is commutative and associative — no finiteness of the
  inputs is needed anywhere.
  The ideal pass rewrote nothing, so the idealization's conjunct is trivial.
-/
import proofs.«100263_g58042188038559_cont_9to1c4b_174_21_alg».proof.Defs
import proofs.«100263_g58042188038559_cont_9to1c4b_174_21_alg».proof.Proof.Gen.Kernel
import proofs.«100263_g58042188038559_cont_9to1c4b_174_21_alg».proof.Proof.Gen.KernelIdeal
import proofs.«100263_g58042188038559_cont_9to1c4b_174_21_alg».proof.Proof.Gen.ReferenceIdeal
import proofs.«100263_g58042188038559_cont_9to1c4b_174_21_alg».proof.Proof.Gen.Pre_finite_inputs
import proofs.«100263_g58042188038559_cont_9to1c4b_174_21_alg».proof.Proof.Gen.ReferenceIdeal.Run
import proofs.«100263_g58042188038559_cont_9to1c4b_174_21_alg».proof.Proof.Gen.ReferenceIdeal.Read
import proofs.«100263_g58042188038559_cont_9to1c4b_174_21_alg».proof.Proof.KB.Frame
import proofs.«100263_g58042188038559_cont_9to1c4b_174_21_alg».proof.Proof.KI.Frame
import proofs.«100263_g58042188038559_cont_9to1c4b_174_21_alg».proof.Proof.KI.Results
import Idealize.ShloMosaic.Adequacy
import Idealize.ShloMosaic.Init

noncomputable section

namespace Cert.Proof

open Idealize.ShloMosaic Idealize.ShloMosaic.TcCoe Idealize.SL.Sem

/-- The word-level program terminates without a fault and leaves its arguments as launched. -/
theorem frame_kernel [Cert.Kernel.Facts] [Cert.Pre_finite_inputs.Facts] : Cert.frame_Kernel :=
  fun m ρ _ => Cert.Kernel.Gen.args_frame (F := Bits) m ρ

/-- So does its idealization, by the same argument at the exact instance. -/
theorem frame_kernel_ideal [Cert.KernelIdeal.Facts] [Cert.Pre_finite_inputs.Facts] : Cert.frame_KernelIdeal :=
  fun m ρ _ => Cert.KernelIdeal.Gen.args_frame (F := Ideal) m ρ

/-- The reference is a host program: its run is its operations' composition, which writes no argument. -/
theorem frame_reference_ideal [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- At the exact instance both programs end with the same three results, entry by entry. The common value of each result
    is the reference's stage of the kernel's argument arrays: the kernel's run leaves it in its result buffers (the
    regions' arrays followed through the segment boundaries and read as sums), and the reference's run is that stage of
    its own arguments, which agree with the kernel's. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.ReferenceIdeal.Read.val_main_v8 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v20 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · -- the kernel: every unscoped buffer's final contents, three of them read as the stages
    refine (θ_run Cert.KernelIdeal.defs _ _).mono (fun r h c => ?_) (Cert.KernelIdeal.Gen.whole_run (F := Ideal) m ρ)
    exact ⟨(h c _ (Cert.KernelIdeal.Gen.mem_unscoped Cert.KernelIdeal.main_v6_0 (by decide))).trans (Cert.KI.Math.result_hsem m ρ c),
      (h c _ (Cert.KernelIdeal.Gen.mem_unscoped Cert.KernelIdeal.main_v8 (by decide))).trans (Cert.KI.Math.result_hstr m ρ c),
      (h c _ (Cert.KernelIdeal.Gen.mem_unscoped Cert.KernelIdeal.main_v9 (by decide))).trans (Cert.KI.Math.result_pred m ρ c),
      (h c _ (Cert.KernelIdeal.Gen.mem_unscoped Cert.KernelIdeal.main_arg0 (by decide))).trans (Cert.KernelIdeal.Gen.arg_kept m ρ c Cert.KernelIdeal.main_arg0 (by decide) (by decide) (by decide) (by decide) (by decide)),
      (h c _ (Cert.KernelIdeal.Gen.mem_unscoped Cert.KernelIdeal.main_arg1 (by decide))).trans (Cert.KernelIdeal.Gen.arg_kept m ρ c Cert.KernelIdeal.main_arg1 (by decide) (by decide) (by decide) (by decide) (by decide)),
      (h c _ (Cert.KernelIdeal.Gen.mem_unscoped Cert.KernelIdeal.main_arg2 (by decide))).trans (Cert.KernelIdeal.Gen.arg_kept m ρ c Cert.KernelIdeal.main_arg2 (by decide) (by decide) (by decide) (by decide) (by decide)),
      (h c _ (Cert.KernelIdeal.Gen.mem_unscoped Cert.KernelIdeal.main_arg3 (by decide))).trans (Cert.KernelIdeal.Gen.arg_kept m ρ c Cert.KernelIdeal.main_arg3 (by decide) (by decide) (by decide) (by decide) (by decide)),
      (h c _ (Cert.KernelIdeal.Gen.mem_unscoped Cert.KernelIdeal.main_arg4 (by decide))).trans (Cert.KernelIdeal.Gen.arg_kept m ρ c Cert.KernelIdeal.main_arg4 (by decide) (by decide) (by decide) (by decide) (by decide)),
      (h c _ (Cert.KernelIdeal.Gen.mem_unscoped Cert.KernelIdeal.main_arg5 (by decide))).trans (Cert.KernelIdeal.Gen.arg_kept m ρ c Cert.KernelIdeal.main_arg5 (by decide) (by decide) (by decide) (by decide) (by decide)),
      (h c _ (Cert.KernelIdeal.Gen.mem_unscoped Cert.KernelIdeal.main_arg6 (by decide))).trans (Cert.KernelIdeal.Gen.arg_kept m ρ c Cert.KernelIdeal.main_arg6 (by decide) (by decide) (by decide) (by decide) (by decide)),
      (h c _ (Cert.KernelIdeal.Gen.mem_unscoped Cert.KernelIdeal.main_arg7 (by decide))).trans (Cert.KernelIdeal.Gen.arg_kept m ρ c Cert.KernelIdeal.main_arg7 (by decide) (by decide) (by decide) (by decide) (by decide)),
      (h c _ (Cert.KernelIdeal.Gen.mem_unscoped Cert.KernelIdeal.main_arg8 (by decide))).trans (Cert.KernelIdeal.Gen.arg_kept m ρ c Cert.KernelIdeal.main_arg8 (by decide) (by decide) (by decide) (by decide) (by decide)),
      (h c _ (Cert.KernelIdeal.Gen.mem_unscoped Cert.KernelIdeal.main_arg9 (by decide))).trans (Cert.KernelIdeal.Gen.arg_kept m ρ c Cert.KernelIdeal.main_arg9 (by decide) (by decide) (by decide) (by decide) (by decide)),
      (h c _ (Cert.KernelIdeal.Gen.mem_unscoped Cert.KernelIdeal.main_arg10 (by decide))).trans (Cert.KernelIdeal.Gen.arg_kept m ρ c Cert.KernelIdeal.main_arg10 (by decide) (by decide) (by decide) (by decide) (by decide)),
      (h c _ (Cert.KernelIdeal.Gen.mem_unscoped Cert.KernelIdeal.main_arg11 (by decide))).trans (Cert.KernelIdeal.Gen.arg_kept m ρ c Cert.KernelIdeal.main_arg11 (by decide) (by decide) (by decide) (by decide) (by decide)),
      (h c _ (Cert.KernelIdeal.Gen.mem_unscoped Cert.KernelIdeal.main_arg12 (by decide))).trans (Cert.KernelIdeal.Gen.arg_kept m ρ c Cert.KernelIdeal.main_arg12 (by decide) (by decide) (by decide) (by decide) (by decide)),
      (h c _ (Cert.KernelIdeal.Gen.mem_unscoped Cert.KernelIdeal.main_arg13 (by decide))).trans (Cert.KernelIdeal.Gen.arg_kept m ρ c Cert.KernelIdeal.main_arg13 (by decide) (by decide) (by decide) (by decide) (by decide)),
      (h c _ (Cert.KernelIdeal.Gen.mem_unscoped Cert.KernelIdeal.main_arg14 (by decide))).trans (Cert.KernelIdeal.Gen.arg_kept m ρ c Cert.KernelIdeal.main_arg14 (by decide) (by decide) (by decide) (by decide) (by decide))⟩
  · -- the reference: its operations' composition, of arguments that agree with the kernel's
    refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7, e8, e9, e10, e11, e12, e13, e14⟩ := hagree c
    refine ⟨h0.trans ?_, h1.trans ?_, h2.trans ?_, hargs⟩
    · rw [e1, e3, e4, e5, e6]; rfl
    · rw [e1, e2, e7, e8, e9, e10]; rfl
    · rw [e0, e1, e2, e3, e4, e5, e6, e7, e8, e9, e10, e11, e12, e13, e14]; rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
